-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v22)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v22) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v51) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x2x512 : Shape := ⟨3, ![8192, 2, 512]⟩
abbrev S_ : Shape := ⟨0, ![]⟩

class Facts : Prop where
  bcast_S_S8192x2x512 : S_.BroadcastsInDim S8192x2x512 (![] : Fin 0 → Fin S8192x2x512.rank)
  reducesTo_S8192x2x512_S_d0_1_2 : S8192x2x512.ReducesTo [0, 1, 2] S_
  h_S_ : 0 < S_.numel

variable [Facts]

def fn {F : FTy → Type} [FloatOps F] (main_arg0 : FVec F S8192x2x512 .f32) : IVec S_ 1 :=
  let main_v0 : FVec F S8192x2x512 .f32 := Host.absf main_arg0
  let main_cst : FVec F S_ .f32 := constant S_ .f32 0x7F800000#32
  let main_v1 : FVec F S8192x2x512 .f32 := broadcastInDim S8192x2x512 ![] bcast_S_S8192x2x512 main_cst
  let main_v2 : IVec S8192x2x512 1 := cmpf .olt main_v0 main_v1
  let main_c : IVec S_ 1 := constantI S_ 1 1#1
  let main_v3 : IVec S_ 1 := (fun x v => Host.reduce IntOp.andi x v reducesTo_S8192x2x512_S_d0_1_2 h_S_) main_v2 main_c
  main_v3
-- ==== Kernel.lean ====
abbrev S8192x2x512 : Shape := ⟨3, ![8192, 2, 512]⟩
abbrev S8192x1x512 : Shape := ⟨3, ![8192, 1, 512]⟩
abbrev S8192x512 : Shape := ⟨2, ![8192, 512]⟩
abbrev S_ : Shape := ⟨0, ![]⟩
abbrev S8192 : Shape := ⟨1, ![8192]⟩
abbrev S8192x1 : Shape := ⟨2, ![8192, 1]⟩
abbrev S1x8192 : Shape := ⟨2, ![1, 8192]⟩
abbrev S1024x512 : Shape := ⟨2, ![1024, 512]⟩
abbrev S512x512 : Shape := ⟨2, ![512, 512]⟩
abbrev S1024x1 : Shape := ⟨2, ![1024, 1]⟩
abbrev S1x512 : Shape := ⟨2, ![1, 512]⟩
abbrev S1024 : Shape := ⟨1, ![1024]⟩

abbrev nBuf : Space → Nat
  | .hbm => 38
  | .vmem => 14
  | .smem => 0
  | _ => 0

abbrev bufTy : (tb : Table) → Fin (tcTables nBuf tb) → BufTy
  | .hbm, ⟨0, _⟩ => ⟨S8192x2x512, .f32⟩
  | .hbm, ⟨1, _⟩ => ⟨S8192x1x512, .f32⟩
  | .hbm, ⟨2, _⟩ => ⟨S8192x512, .f32⟩
  | .hbm, ⟨3, _⟩ => ⟨S8192x1x512, .f32⟩
  | .hbm, ⟨4, _⟩ => ⟨S8192x512, .f32⟩
  | .hbm, ⟨5, _⟩ => ⟨S8192x512, .f32⟩
  | .hbm, ⟨6, _⟩ => ⟨S_, .f32⟩
  | .hbm, ⟨7, _⟩ => ⟨S8192, .f32⟩
  | .hbm, ⟨8, _⟩ => ⟨S8192, .f32⟩
  | .hbm, ⟨9, _⟩ => ⟨S8192x512, .f32⟩
  | .hbm, ⟨10, _⟩ => ⟨S_, .f32⟩
  | .hbm, ⟨11, _⟩ => ⟨S8192, .f32⟩
  | .hbm, ⟨12, _⟩ => ⟨S8192, .f32⟩
  | .hbm, ⟨13, _⟩ => ⟨S8192x512, .f32⟩
  | .hbm, ⟨14, _⟩ => ⟨S_, .f32⟩
  | .hbm, ⟨15, _⟩ => ⟨S8192, .f32⟩
  | .hbm, ⟨16, _⟩ => ⟨S8192, .f32⟩
  | .hbm, ⟨17, _⟩ => ⟨S_, .f32⟩
  | .hbm, ⟨18, _⟩ => ⟨S8192, .f32⟩
  | .hbm, ⟨19, _⟩ => ⟨S8192, .f32⟩
  | .hbm, ⟨20, _⟩ => ⟨S8192, .f32⟩
  | .hbm, ⟨21, _⟩ => ⟨S8192x1, .f32⟩
  | .hbm, ⟨22, _⟩ => ⟨S1x8192, .f32⟩
  | .hbm, ⟨23, _⟩ => ⟨S8192x1, .f32⟩
  | .hbm, ⟨24, _⟩ => ⟨S8192x512, .bf16⟩
  | .hbm, ⟨25, _⟩ => ⟨S8192x512, .bf16⟩
  | .hbm, ⟨26, _⟩ => ⟨S8192x1, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S8192x2x512, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .local _ .vmem, ⟨0, _⟩ => ⟨S1024x512, .bf16⟩
  | .local _ .vmem, ⟨1, _⟩ => ⟨S1024x512, .bf16⟩
  | .local _ .vmem, ⟨2, _⟩ => ⟨S512x512, .bf16⟩
  | .local _ .vmem, ⟨3, _⟩ => ⟨S512x512, .bf16⟩
  | .local _ .vmem, ⟨4, _⟩ => ⟨S1024x1, .f32⟩
  | .local _ .vmem, ⟨5, _⟩ => ⟨S1024x1, .f32⟩
  | .local _ .vmem, ⟨6, _⟩ => ⟨S1x512, .f32⟩
  | .local _ .vmem, ⟨7, _⟩ => ⟨S1x512, .f32⟩
  | .local _ .vmem, ⟨8, _⟩ => ⟨S1024x1, .f32⟩
  | .local _ .vmem, ⟨9, _⟩ => ⟨S1024x1, .f32⟩
  | .local _ .vmem, ⟨10, _⟩ => ⟨S1024x1, .f32⟩
  | .local _ .vmem, ⟨11, _⟩ => ⟨S1024x1, .f32⟩
  | .local _ .vmem, ⟨12, _⟩ => ⟨S1024x1, .f32⟩
  | .local _ .vmem, ⟨13, _⟩ => ⟨S1024x1, .f32⟩
  | _, _ => ⟨S8192x2x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_call0_v0 : Ref sig .tc := ⟨.hbm, 5, rfl⟩
abbrev main_call0_cst : Ref sig .tc := ⟨.hbm, 6, rfl⟩
abbrev main_call0_v1 : Ref sig .tc := ⟨.hbm, 7, rfl⟩
abbrev main_v4 : Ref sig .tc := ⟨.hbm, 8, rfl⟩
abbrev main_call1_v0 : Ref sig .tc := ⟨.hbm, 9, rfl⟩
abbrev main_call1_cst : Ref sig .tc := ⟨.hbm, 10, rfl⟩
abbrev main_call1_v1 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_1 : Ref sig .tc := ⟨.hbm, 27, rfl⟩
abbrev main_v18 : Ref sig .tc := ⟨.hbm, 28, rfl⟩
abbrev main_cst_2 : Ref sig .tc := ⟨.hbm, 29, rfl⟩
abbrev main_v19 : Ref sig .tc := ⟨.hbm, 30, rfl⟩
abbrev main_call2_v0 : Ref sig .tc := ⟨.hbm, 31, rfl⟩
abbrev main_call2_cst : Ref sig .tc := ⟨.hbm, 32, rfl⟩
abbrev main_call2_v1 : Ref sig .tc := ⟨.hbm, 33, rfl⟩
abbrev main_v20 : Ref sig .tc := ⟨.hbm, 34, rfl⟩
abbrev main_cst_3 : Ref sig .tc := ⟨.hbm, 35, rfl⟩
abbrev main_v21 : Ref sig .tc := ⟨.hbm, 36, rfl⟩
abbrev main_v22 : Ref sig .tc := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![8, 16], ![false, false]⟩

def k0_cond2 (i : grid0.Coords) : BitVec 1 :=
  let arg1 : BitVec 32 := BitVec.ofNat 32 (i 1).val
  let c15_i32 : BitVec 32 := 15#32
  let v54 : BitVec 1 := Scalar.cmpi .eq arg1 c15_i32
  let v55 : BitVec 32 := Scalar.extui v54
  let c0_i32_20 : BitVec 32 := 0#32
  let v56 : BitVec 1 := Scalar.cmpi .ne v55 c0_i32_20
  v56

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1024x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

class Facts₀ : Prop where
  slices_S8192x2x512_S8192x1x512_0_0_0 : S8192x2x512.Slices ![0, 0, 0] S8192x1x512
  shapeCasts_S8192x1x512_S8192x512 : S8192x1x512.ShapeCasts S8192x512
  slices_S8192x2x512_S8192x1x512_0_1_0 : S8192x2x512.Slices ![0, 1, 0] S8192x1x512
  reducesTo_S8192x512_S8192_d1 : S8192x512.ReducesTo [1] S8192
  h_S_ : 0 < S_.numel
  bcast_S_S8192 : S_.BroadcastsInDim S8192 (![] : Fin 0 → Fin S8192.rank)
  shapeCasts_S8192_S8192x1 : S8192.ShapeCasts S8192x1
  shapeCasts_S8192_S1x8192 : S8192.ShapeCasts S1x8192
  bitsLt_bf16_f32 : FTy.bits .bf16 < FTy.bits .f32
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1024x1_S1024x512 : S1024x1.Broadcasts S1024x512
  broadcasts_S1x512_S1024x512 : S1x512.Broadcasts S1024x512
  iota_S1024x512_d0_w32 : S1024x512.Iotas .tc 32 [0]
  iota_S1024x512_d1_w32 : S1024x512.Iotas .tc 32 [1]
  reduces_S1024x512_S1024 : S1024x512.Reduces [1] S1024
  shapeCasts_S1024_S1024x1 : S1024.ShapeCasts S1024x1
  reducesTo_S8192x1_S_d0_1 : S8192x1.ReducesTo [0, 1] S_
  reducesTo_S8192x2x512_S_d0_1_2 : S8192x2x512.ReducesTo [0, 1, 2] S_
  dot_S1024x512_S512x512_S1024x512_1_1_0_0_n_n_wf : DotDims.WF S1024x512 S512x512 S1024x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S8192x512.size a
  hwx0_0 : ∀ i : grid0.Coords, EltTy.bits .bf16 = 32 ∨ (Rect.block (s := S8192x512) S1024x512.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S8192x512.size a
  hwx0_1 : ∀ i : grid0.Coords, EltTy.bits .bf16 = 32 ∨ (Rect.block (s := S8192x512) S512x512.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1.size a ≤ S8192x1.size a
  hwx0_2 : ∀ i : grid0.Coords, EltTy.bits .f32 = 32 ∨ (Rect.block (s := S8192x1) S1024x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512.size a ≤ S1x8192.size a
  hwx0_3 : ∀ i : grid0.Coords, EltTy.bits .f32 = 32 ∨ (Rect.block (s := S1x8192) S1x512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x1.size a ≤ S8192x1.size a
  hwx0_4 : ∀ i : grid0.Coords, EltTy.bits .f32 = 32 ∨ (Rect.block (s := S8192x1) S1024x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x1.size a ≤ S8192x1.size a
  hwx0_5 : ∀ i : grid0.Coords, EltTy.bits .f32 = 32 ∨ (Rect.block (s := S8192x1) S1024x1.size (cc0_transform_5 i) (hinb0_5 i)).WholeWords (EltTy.packing .f32)

variable [Facts₀]

def dot_S1024x512_S512x512_S1024x512_1_1_0_0_n_n : DotDims S1024x512 S512x512 S1024x512 where
  lhsContracting := [1]
  rhsContracting := [1]
  lhsNonContracting := [0]
  rhsNonContracting := [0]
  lhsBatch := []
  rhsBatch := []
  wf := dot_S1024x512_S512x512_S1024x512_1_1_0_0_n_n_wf

abbrev win0_0 : Pipeline.Window sig grid0 :=
  Pipeline.Window.ofSpec (Memref.whole main_v15) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v16) S512x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v12) S1024x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v13) S1x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v14) S1024x1.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v17) S1024x1.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun _ => false | 5 => fun i => !(k0_cond2 i == 1#1) | ⟨_ + 6, h⟩ => absurd h (Nat.not_lt.2 (Nat.le_add_left _ _))

class Facts : Prop extends Facts₀ where

variable [Facts]
-- ==== ReferenceIdeal.lean ====
abbrev S8192x2x512 : Shape := ⟨3, ![8192, 2, 512]⟩
abbrev S8192x1x512 : Shape := ⟨3, ![8192, 1, 512]⟩
abbrev S8192x512 : Shape := ⟨2, ![8192, 512]⟩
abbrev S_ : Shape := ⟨0, ![]⟩
abbrev S8192 : Shape := ⟨1, ![8192]⟩
abbrev S8192x8192 : Shape := ⟨2, ![8192, 8192]⟩
abbrev S8192x1 : Shape := ⟨2, ![8192, 1]⟩
abbrev S1x8192 : Shape := ⟨2, ![1, 8192]⟩
abbrev S8192x2 : Shape := ⟨2, ![8192, 2]⟩
abbrev S8192x8193 : Shape := ⟨2, ![8192, 8193]⟩

abbrev nBuf : Space → Nat
  | .hbm => 87
  | .vmem => 0
  | .smem => 0
  | _ => 0

abbrev bufTy : (tb : Table) → Fin (tcTables nBuf tb) → BufTy
  | .hbm, ⟨0, _⟩ => ⟨S8192x2x512, .f32⟩
  | .hbm, ⟨1, _⟩ => ⟨S8192x1x512, .f32⟩
  | .hbm, ⟨2, _⟩ => ⟨S8192x512, .f32⟩
  | .hbm, ⟨3, _⟩ => ⟨S8192x1x512, .f32⟩
  | .hbm, ⟨4, _⟩ => ⟨S8192x512, .f32⟩
  | .hbm, ⟨5, _⟩ => ⟨S8192x512, .f32⟩
  | .hbm, ⟨6, _⟩ => ⟨S_, .f32⟩
  | .hbm, ⟨7, _⟩ => ⟨S8192, .f32⟩
  | .hbm, ⟨8, _⟩ => ⟨S8192, .f32⟩
  | .hbm, ⟨9, _⟩ => ⟨S8192x512, .f32⟩
  | .hbm, ⟨10, _⟩ => ⟨S_, .f32⟩
  | .hbm, ⟨11, _⟩ => ⟨S8192, .f32⟩
  | .hbm, ⟨12, _⟩ => ⟨S8192, .f32⟩
  | .hbm, ⟨13, _⟩ => ⟨S8192x512, .f32⟩
  | .hbm, ⟨14, _⟩ => ⟨S_, .f32⟩
  | .hbm, ⟨15, _⟩ => ⟨S8192, .f32⟩
  | .hbm, ⟨16, _⟩ => ⟨S8192, .f32⟩
  | .hbm, ⟨17, _⟩ => ⟨S_, .f32⟩
  | .hbm, ⟨18, _⟩ => ⟨S8192, .f32⟩
  | .hbm, ⟨19, _⟩ => ⟨S8192, .f32⟩
  | .hbm, ⟨20, _⟩ => ⟨S8192, .f32⟩
  | .hbm, ⟨21, _⟩ => ⟨S8192x8192, .f32⟩
  | .hbm, ⟨22, _⟩ => ⟨S8192x1, .f32⟩
  | .hbm, ⟨23, _⟩ => ⟨S1x8192, .f32⟩
  | .hbm, ⟨24, _⟩ => ⟨S8192x8192, .f32⟩
  | .hbm, ⟨25, _⟩ => ⟨S8192x8192, .f32⟩
  | .hbm, ⟨26, _⟩ => ⟨S8192x8192, .f32⟩
  | .hbm, ⟨27, _⟩ => ⟨S_, .f32⟩
  | .hbm, ⟨28, _⟩ => ⟨S8192x8192, .f32⟩
  | .hbm, ⟨29, _⟩ => ⟨S8192x8192, .f32⟩
  | .hbm, ⟨30, _⟩ => ⟨S8192x8192, .f32⟩
  | .hbm, ⟨31, _⟩ => ⟨S8192, .f32⟩
  | .hbm, ⟨32, _⟩ => ⟨S8192, .f32⟩
  | .hbm, ⟨33, _⟩ => ⟨S_, .f32⟩
  | .hbm, ⟨34, _⟩ => ⟨S8192, .f32⟩
  | .hbm, ⟨35, _⟩ => ⟨S8192, .f32⟩
  | .hbm, ⟨36, _⟩ => ⟨S8192, .f32⟩
  | .hbm, ⟨37, _⟩ => ⟨S8192, .i32⟩
  | .hbm, ⟨38, _⟩ => ⟨S_, .i32⟩
  | .hbm, ⟨39, _⟩ => ⟨S8192, .i32⟩
  | .hbm, ⟨40, _⟩ => ⟨S8192, .i1⟩
  | .hbm, ⟨41, _⟩ => ⟨S_, .i32⟩
  | .hbm, ⟨42, _⟩ => ⟨S8192, .i32⟩
  | .hbm, ⟨43, _⟩ => ⟨S8192, .i32⟩
  | .hbm, ⟨44, _⟩ => ⟨S8192, .i32⟩
  | .hbm, ⟨45, _⟩ => ⟨S_, .i32⟩
  | .hbm, ⟨46, _⟩ => ⟨S8192, .i32⟩
  | .hbm, ⟨47, _⟩ => ⟨S8192, .i1⟩
  | .hbm, ⟨48, _⟩ => ⟨S_, .i32⟩
  | .hbm, ⟨49, _⟩ => ⟨S8192, .i32⟩
  | .hbm, ⟨50, _⟩ => ⟨S8192, .i32⟩
  | .hbm, ⟨51, _⟩ => ⟨S8192, .i32⟩
  | .hbm, ⟨52, _⟩ => ⟨S8192x1, .i32⟩
  | .hbm, ⟨53, _⟩ => ⟨S8192x1, .i32⟩
  | .hbm, ⟨54, _⟩ => ⟨S8192x2, .i32⟩
  | .hbm, ⟨55, _⟩ => ⟨S8192x8192, .f32⟩
  | .hbm, ⟨56, _⟩ => ⟨S8192x1, .f32⟩
  | .hbm, ⟨57, _⟩ => ⟨S8192x8193, .f32⟩
  | .hbm, ⟨58, _⟩ => ⟨S_, .f32⟩
  | .hbm, ⟨59, _⟩ => ⟨S8192, .f32⟩
  | .hbm, ⟨60, _⟩ => ⟨S_, .f32⟩
  | .hbm, ⟨61, _⟩ => ⟨S8192, .f32⟩
  | .hbm, ⟨62, _⟩ => ⟨S8192, .f32⟩
  | .hbm, ⟨63, _⟩ => ⟨S8192x1, .f32⟩
  | .hbm, ⟨64, _⟩ => ⟨S8192x8193, .f32⟩
  | .hbm, ⟨65, _⟩ => ⟨S8192x8193, .f32⟩
  | .hbm, ⟨66, _⟩ => ⟨S8192x8193, .f32⟩
  | .hbm, ⟨67, _⟩ => ⟨S_, .f32⟩
  | .hbm, ⟨68, _⟩ => ⟨S8192, .f32⟩
  | .hbm, ⟨69, _⟩ => ⟨S8192x1, .f32⟩
  | .hbm, ⟨70, _⟩ => ⟨S8192x1, .f32⟩
  | .hbm, ⟨71, _⟩ => ⟨S8192x8193, .f32⟩
  | .hbm, ⟨72, _⟩ => ⟨S8192x8193, .f32⟩
  | .hbm, ⟨73, _⟩ => ⟨S8192x1, .f32⟩
  | .hbm, ⟨74, _⟩ => ⟨S8192, .f32⟩
  | .hbm, ⟨75, _⟩ => ⟨S_, .f32⟩
  | .hbm, ⟨76, _⟩ => ⟨S_, .f32⟩
  | .hbm, ⟨77, _⟩ => ⟨S_, .f32⟩
  | .hbm, ⟨78, _⟩ => ⟨S_, .f32⟩
  | .hbm, ⟨79, _⟩ => ⟨S_, .f32⟩
  | .hbm, ⟨80, _⟩ => ⟨S8192x2x512, .f32⟩
  | .hbm, ⟨81, _⟩ => ⟨S_, .f32⟩
  | .hbm, ⟨82, _⟩ => ⟨S_, .f32⟩
  | .hbm, ⟨83, _⟩ => ⟨S_, .f32⟩
  | .hbm, ⟨84, _⟩ => ⟨S_, .f32⟩
  | .hbm, ⟨85, _⟩ => ⟨S_, .f32⟩
  | .hbm, ⟨86, _⟩ => ⟨S_, .f32⟩
  | _, _ => ⟨S8192x2x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_call0_v0 : Ref sig .tc := ⟨.hbm, 5, rfl⟩
abbrev main_call0_cst : Ref sig .tc := ⟨.hbm, 6, rfl⟩
abbrev main_call0_v1 : Ref sig .tc := ⟨.hbm, 7, rfl⟩
abbrev main_v4 : Ref sig .tc := ⟨.hbm, 8, rfl⟩
abbrev main_call1_v0 : Ref sig .tc := ⟨.hbm, 9, rfl⟩
abbrev main_call1_cst : Ref sig .tc := ⟨.hbm, 10, rfl⟩
abbrev main_call1_v1 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_1 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_2 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_c : Ref sig .tc := ⟨.hbm, 38, rfl⟩
abbrev main_v27 : Ref sig .tc := ⟨.hbm, 39, rfl⟩
abbrev main_v28 : Ref sig .tc := ⟨.hbm, 40, rfl⟩
abbrev main_c_3 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_c_4 : Ref sig .tc := ⟨.hbm, 45, rfl⟩
abbrev main_v32 : Ref sig .tc := ⟨.hbm, 46, rfl⟩
abbrev main_v33 : Ref sig .tc := ⟨.hbm, 47, rfl⟩
abbrev main_c_5 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_call2_cst : Ref sig .tc := ⟨.hbm, 58, rfl⟩
abbrev main_call2_v0 : Ref sig .tc := ⟨.hbm, 59, rfl⟩
abbrev main_call2_cst_0 : Ref sig .tc := ⟨.hbm, 60, rfl⟩
abbrev main_call2_v1 : Ref sig .tc := ⟨.hbm, 61, rfl⟩
abbrev main_call2_v2 : Ref sig .tc := ⟨.hbm, 62, rfl⟩
abbrev main_call2_v3 : Ref sig .tc := ⟨.hbm, 63, rfl⟩
abbrev main_call2_v4 : Ref sig .tc := ⟨.hbm, 64, rfl⟩
abbrev main_call2_v5 : Ref sig .tc := ⟨.hbm, 65, rfl⟩
abbrev main_call2_v6 : Ref sig .tc := ⟨.hbm, 66, rfl⟩
abbrev main_call2_cst_1 : Ref sig .tc := ⟨.hbm, 67, rfl⟩
abbrev main_call2_v7 : Ref sig .tc := ⟨.hbm, 68, rfl⟩
abbrev main_call2_v8 : Ref sig .tc := ⟨.hbm, 69, rfl⟩
abbrev main_call2_v9 : Ref sig .tc := ⟨.hbm, 70, rfl⟩
abbrev main_call2_v10 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_cst_6 : Ref sig .tc := ⟨.hbm, 75, rfl⟩
abbrev main_v46 : Ref sig .tc := ⟨.hbm, 76, rfl⟩
abbrev main_cst_7 : Ref sig .tc := ⟨.hbm, 77, rfl⟩
abbrev main_v47 : Ref sig .tc := ⟨.hbm, 78, rfl⟩
abbrev main_v48 : Ref sig .tc := ⟨.hbm, 79, rfl⟩
abbrev main_call3_v0 : Ref sig .tc := ⟨.hbm, 80, rfl⟩
abbrev main_call3_cst : Ref sig .tc := ⟨.hbm, 81, rfl⟩
abbrev main_call3_v1 : Ref sig .tc := ⟨.hbm, 82, rfl⟩
abbrev main_v49 : Ref sig .tc := ⟨.hbm, 83, rfl⟩
abbrev main_cst_8 : Ref sig .tc := ⟨.hbm, 84, rfl⟩
abbrev main_v50 : Ref sig .tc := ⟨.hbm, 85, rfl⟩
abbrev main_v51 : Ref sig .tc := ⟨.hbm, 86, rfl⟩

abbrev nD : Nat := 1
abbrev τ : Topo := Topo.v7x

variable {F : FTy → Type} [FloatOps F]

class Facts₀ : Prop where
  slices_S8192x2x512_S8192x1x512_0_0_0 : S8192x2x512.Slices ![0, 0, 0] S8192x1x512
  shapeCasts_S8192x1x512_S8192x512 : S8192x1x512.ShapeCasts S8192x512
  slices_S8192x2x512_S8192x1x512_0_1_0 : S8192x2x512.Slices ![0, 1, 0] S8192x1x512
  reducesTo_S8192x512_S8192_d1 : S8192x512.ReducesTo [1] S8192
  h_S_ : 0 < S_.numel
  bcast_S_S8192 : S_.BroadcastsInDim S8192 (![] : Fin 0 → Fin S8192.rank)
  bcast_S8192_S8192x1_0 : S8192.BroadcastsInDim S8192x1 (![0] : Fin 1 → Fin S8192x1.rank)
  bcast_S8192_S1x8192_1 : S8192.BroadcastsInDim S1x8192 (![1] : Fin 1 → Fin S1x8192.rank)
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  bcast_S_S8192x8192 : S_.BroadcastsInDim S8192x8192 (![] : Fin 0 → Fin S8192x8192.rank)
  concatenates_S8192x1_S8192x1_S8192x2_d1 : Shape.Concatenates [S8192x1, S8192x1] S8192x2 1
  concatenates_S8192x1_S8192x8192_S8192x8193_d1 : Shape.Concatenates [S8192x1, S8192x8192] S8192x8193 1
  reducesTo_S8192x8193_S8192_d1 : S8192x8193.ReducesTo [1] S8192
  bcast_S8192x1_S8192x8193_0_1 : S8192x1.BroadcastsInDim S8192x8193 (![0, 1] : Fin 2 → Fin S8192x8193.rank)
  slices_S8192x8193_S8192x1_0_0 : S8192x8193.Slices ![0, 0] S8192x1
  shapeCasts_S8192x1_S8192 : S8192x1.ShapeCasts S8192
  reducesTo_S8192_S_d0 : S8192.ReducesTo [0] S_
  reducesTo_S8192x2x512_S_d0_1_2 : S8192x2x512.ReducesTo [0, 1, 2] S_
  dot_S8192x512_S8192x512_S8192x8192_1_1_0_0_n_n_wf : DotDims.WF S8192x512 S8192x512 S8192x8192 [1] [1] [0] [0] [] []
  scatter_S8192x8192_S8192x2_S8192_n_01_01_1_wf : ScatterDims.WF S8192x8192 S8192x2 S8192 [] [0, 1] [0, 1] 1

variable [Facts₀]

def dot_S8192x512_S8192x512_S8192x8192_1_1_0_0_n_n : DotDims S8192x512 S8192x512 S8192x8192 where
  lhsContracting := [1]
  rhsContracting := [1]
  lhsNonContracting := [0]
  rhsNonContracting := [0]
  lhsBatch := []
  rhsBatch := []
  wf := dot_S8192x512_S8192x512_S8192x8192_1_1_0_0_n_n_wf
def scatter_S8192x8192_S8192x2_S8192_n_01_01_1 : ScatterDims S8192x8192 S8192x2 S8192 where
  updateWindowDims := []
  insertedWindowDims := [0, 1]
  scatterDimsToOperandDims := [0, 1]
  indexVectorDim := 1
  wf := scatter_S8192x8192_S8192x2_S8192_n_01_01_1_wf

class Facts : Prop extends Facts₀ where

variable [Facts]
-- ==== Proof.LibFiniteEntry.lean ====
/-
  Finite entries are real numbers.

  On the extended reals the absolute value of x is max(x, -x); it is +infinity exactly when x is one of the two
  infinities. So an entry whose absolute value is strictly below +infinity is a real number. A program tests "every entry
  of x is finite" as  all(|x| < inf):  the comparison entry by entry against a broadcast +infinity, reduced by `and` over
  every axis from the constant true. If the test's one result is true, every entry passed the comparison, and so is real.
-/
import Idealize.ShloMosaic.Lib.ReduceAll
import Idealize.ShloMosaic.Lib.ValueIdx
import Idealize.ShloMosaic.Lib.Pipeline.Value
import Idealize.ShloMosaic.PureOps.Ideal.Laws

noncomputable section

namespace Cert.LibFiniteEntry

open Idealize.ShloMosaic Idealize.ShloMosaic.ValueIdx

/-- The shape with no axes has one index. -/
instance : Subsingleton (⟨0, ![]⟩ : Shape).Idx := ⟨fun a b => funext fun d => d.elim0⟩

/-- An extended real whose absolute value is below +infinity is a real number. -/
theorem real_of_abs_lt_inf (x : EReal) (h : Ideal.cmp .olt (max x (-x)) (Ideal.ofBits .f32 0x7F800000#32) = 1#1) :
    ∃ r : ℝ, x = (r : EReal) := by
  have hinf : Ideal.ofBits .f32 0x7F800000#32 = ⊤ := by simp [Ideal.ofBits, Ideal.ieee]
  rw [hinf] at h
  induction x using EReal.rec with
  | bot => simp [Ideal.cmp] at h
  | coe r => exact ⟨r, rfl⟩
  | top => simp [Ideal.cmp] at h

/-- One "all entries are finite" test that came out true, read at an entry: the entry is a real number. -/
theorem real_of_all {s : Shape} {axes : List (Fin s.rank)} (x : FVec Ideal s .f32)
    (hb : (⟨0, ![]⟩ : Shape).BroadcastsInDim s (![] : Fin 0 → Fin s.rank)) (hr : s.ReducesTo axes ⟨0, ![]⟩)
    (hu : 0 < (⟨0, ![]⟩ : Shape).numel) (init : IVec ⟨0, ![]⟩ 1)
    (e : Host.reduce IntOp.andi (cmpf .olt (Host.absf x) (broadcastInDim s ![] hb (constant (F := Ideal) ⟨0, ![]⟩ .f32 0x7F800000#32)))
      init hr hu ix0 = 1#1)
    (i : s.Idx) : ∃ r : ℝ, x i = (r : EReal) := by
  have h1 := Host.reduce_andi_all _ init hr hu ix0 e i
  apply real_of_abs_lt_inf
  have hb' : broadcastInDim s ![] hb (constant (F := Ideal) ⟨0, ![]⟩ .f32 0x7F800000#32) i = Ideal.ofBits .f32 0x7F800000#32 :=
    broadcastInDim_apply _ hb _ i ix0 (fun a => a.elim0)
  rw [← hb']
  exact h1

end Cert.LibFiniteEntry

end
-- ==== Proof.Finite.lean ====
/-
  The precondition "every entry of the input is finite" makes every entry of the input array a real number.
  The test is all(|x| < inf) over the whole [8192, 2, 512] array; where it came out true each entry's absolute value is
  below +infinity, so the entry is neither infinity.
-/
import proofs.«124650_j85487029060330_2_alg».proof.Pre_finite_inputs
import proofs.«124650_j85487029060330_2_alg».proof.Proof.LibFiniteEntry

noncomputable section

namespace Cert.Proof.Finite

open Idealize.ShloMosaic Idealize.ShloMosaic.ValueIdx

/-- Where the finiteness test of an array holds, each of its entries is a real number. -/
theorem real_of_pre [hF : Cert.Pre_finite_inputs.Facts] (x : FVec Ideal Cert.Pre_finite_inputs.S8192x2x512 .f32)
    (h : Cert.Pre_finite_inputs.fn (F := Ideal) x = fun _ => 1#1) (i : Cert.Pre_finite_inputs.S8192x2x512.Idx) :
    ∃ r : ℝ, x i = (r : EReal) := by
  have e := congrFun h ix0
  dsimp only [Cert.Pre_finite_inputs.fn] at e
  exact Cert.LibFiniteEntry.real_of_all x _ _ _ _ e i

end Cert.Proof.Finite

end
-- ==== Proof.Spec.lean ====
/-
  The pairwise-cosine loss as plain mathematics on the extended reals, stated once so that the kernel's program and the
  reference's program can each be compared with it.

  The input is an array x[8192, 2, 512]; row i holds an anchor A i = x[i, 0, :] and a positive P i = x[i, 1, :].
  With the Euclidean norm of a row, nrm v = sqrt (sum of v d * v d), and the clamp eps under every denominator:
    posSim i   = <A i, P i> / max (nrm (A i) * nrm (P i)) eps                  (the cosine of the matching pair)
    negSim i j = <A i, P j> / max (nrm (A i) * nrm (P j)) eps   for j ≠ i,     (the cosine against every other positive)
    negSim i i = nrm (A i)^2 / max (nrm (A i)^2) eps                           (the diagonal, replaced by the anchor's own cosine)
  The loss of row i is  log (exp (posSim i) + sum over j of exp (negSim i j)) - posSim i,  the result the mean of the row
  losses plus a multiple of the norm of the whole input.

  Two ways of computing the row loss are written down, each in the form its program spells it:
  * one pass over the 16 column tiles of width 512 keeping a running maximum and a running sum of exponentials
    (`onl`), finished by folding the matching pair in (`lossK`);
  * the shifted log-softmax of the 8193 logits [posSim i, negSim i 0, …, negSim i 8191] read at its first entry (`lsm0`).
-/
import Idealize.ShloMosaic.PureOps.Ideal
import Idealize.ShloMosaic.Lib.ValueIdx

noncomputable section

open scoped BigOperators

namespace Cert.NPair

open Idealize.ShloMosaic Idealize.ShloMosaic.ValueIdx

/-- The clamp under every cosine's denominator (the single-precision number nearest 1e-8). -/
def epsv : EReal := Ideal.ofBits .f32 0x322BCC77#32
/-- The value every running maximum starts from. -/
def negInf : EReal := Ideal.ofBits .f32 0xFF800000#32
/-- The number of rows, as the divisor of the mean. -/
def cnt : EReal := Ideal.ofBits .f32 0x46000000#32
/-- The weight of the norm of the whole input. -/
def regw : EReal := Ideal.ofBits .f32 0x3CA3D70A#32

/-- A family of 8192 rows of length 512. -/
abbrev Mat := Fin 8192 → Fin 512 → EReal

/-- The input array's type: indices of an [8192, 2, 512] array to extended reals. -/
abbrev Arr3 := (⟨3, ![8192, 2, 512]⟩ : Shape).Idx → EReal

/-- Row i's anchor. -/
def anchors (x : Arr3) : Mat := fun i d => x (ix3 i (0 : Fin 2) d)
/-- Row i's positive. -/
def positives (x : Arr3) : Mat := fun i d => x (ix3 i (1 : Fin 2) d)

/-- The Euclidean norm of a row (a sum started from zero, then the square root). -/
def rowNorm (v : Fin 512 → EReal) : EReal := Ideal.sqrt (0 + ∑ d : Fin 512, v d * v d)

/-- The clamped product of two norms. -/
def clampMul (a b : EReal) : EReal := max (a * b) epsv

/-- The cosine of row i's anchor and its own positive. -/
def posSim (A P : Mat) (i : Fin 8192) : EReal :=
  Ideal.div (0 + ∑ d : Fin 512, A i d * P i d) (clampMul (rowNorm (A i)) (rowNorm (P i)))

/-- The anchor's cosine with itself, which replaces the diagonal. -/
def diagVal (A : Mat) (i : Fin 8192) : EReal :=
  Ideal.div (rowNorm (A i) * rowNorm (A i)) (clampMul (rowNorm (A i)) (rowNorm (A i)))

/-- The cosine of row i's anchor and row j's positive, the diagonal replaced. -/
def negSim (A P : Mat) (i j : Fin 8192) : EReal :=
  if i.val = j.val then diagVal A i
  else Ideal.div (∑ d : Fin 512, A i d * P j d) (clampMul (rowNorm (A i)) (rowNorm (P j)))

/-- Column tile k (of width 512) of a row of 8192 numbers; tiles past the sixteenth are never consulted. -/
def tileOf (s : Fin 8192 → EReal) (k : ℕ) (q : Fin 512) : EReal :=
  if h : k < 16 then s ⟨k * 512 + q.val, by omega⟩ else 0

/-- The running maximum and running sum of exponentials after the first k column tiles of a row. -/
def onl (s : Fin 8192 → EReal) : ℕ → EReal × EReal
  | 0 => (negInf, 0)
  | k + 1 =>
    (max (onl s k).1 (Finset.univ.fold max negInf (tileOf s k)),
     Ideal.exp ((onl s k).1 - max (onl s k).1 (Finset.univ.fold max negInf (tileOf s k))) * (onl s k).2
       + ∑ q : Fin 512, Ideal.exp (tileOf s k q - max (onl s k).1 (Finset.univ.fold max negInf (tileOf s k))))

/-- The row loss from the matching pair's cosine and the final running pair (maximum, sum). -/
def lossK (ps : EReal) (ml : EReal × EReal) : EReal :=
  (max (ml.1 + Ideal.log ml.2) ps
     + Ideal.log (Ideal.exp ((ml.1 + Ideal.log ml.2) - max (ml.1 + Ideal.log ml.2) ps)
                  + Ideal.exp (ps - max (ml.1 + Ideal.log ml.2) ps)))
    - ps

/-- Row i's loss, the one-pass way. -/
def rowK (A P : Mat) (i : Fin 8192) : EReal := lossK (posSim A P i) (onl (negSim A P i) 16)

/-- The result, the one-pass way: the mean of the row losses plus the weighted norm l2. -/
def totalK (A P : Mat) (l2 : EReal) : EReal := Ideal.div (0 + ∑ i : Fin 8192, rowK A P i) cnt + regw * l2

/-- Row i's 8193 logits: its matching cosine first, then its cosines against every positive. -/
def logit (A P : Mat) (i : Fin 8192) (k : Fin 8193) : EReal :=
  if h : k.val = 0 then posSim A P i else negSim A P i ⟨k.val - 1, by omega⟩

/-- The shifted log-softmax of 8193 numbers, read at its first entry. -/
def lsm0 (z : Fin 8193 → EReal) : EReal :=
  (z 0 - max negInf (Finset.univ.fold max negInf z))
    - Ideal.log (0 + ∑ k : Fin 8193, Ideal.exp (z k - max negInf (Finset.univ.fold max negInf z)))

/-- The result, the log-softmax way: minus the mean of the first log-softmax entries, plus the weighted norm l2. -/
def totalR (A P : Mat) (l2 : EReal) : EReal := -(Ideal.div (0 + ∑ i : Fin 8192, lsm0 (logit A P i)) cnt) + regw * l2

/-- The norm of the whole input. -/
def l2norm (x : Arr3) : EReal := Ideal.sqrt (0 + ∑ idx : (⟨3, ![8192, 2, 512]⟩ : Shape).Idx, x idx * x idx)

end Cert.NPair

end
-- ==== Proof.OnlineLse.lean ====
/-
  The one-pass log-sum-exp over 16 column tiles against the shifted log-softmax, on real data.

  For a real row s of 8192 numbers the running pair (maximum, sum) after k ≥ 1 tiles is a pair of real numbers
  (m, Σ_{n < 512 k} exp (s n - m)): each tile multiplies the old sum by exp (m - m') and adds the tile's own
  exponentials shifted by the new maximum m', and  exp (m - m') · exp (s n - m) = exp (s n - m').  Which real number m is
  plays no part: m + log Σ exp (s n - m) = log Σ exp (s n) for every real m.  The same remark removes the shift from
  the log-softmax, so both sides come down to  log (exp ps + Σ_j exp (s j)) - ps.
-/
import proofs.«124650_j85487029060330_2_alg».proof.Proof.Spec
import Mathlib.Analysis.SpecialFunctions.Log.Basic

noncomputable section

open scoped BigOperators

namespace Cert.NPair

open Idealize.ShloMosaic

/-- The value every running maximum starts from is the bottom of the extended reals. -/
theorem negInf_eq_bot : negInf = (⊥ : EReal) := by
  simp [negInf, Ideal.ofBits, Ideal.ieee]

namespace OnlineLse

/-- The exponential of a real number, read in the extended reals. -/
theorem exp_coe (r : ℝ) : Ideal.exp (r : EReal) = ((Real.exp r : ℝ) : EReal) := rfl

/-- The exponential at the bottom is zero. -/
theorem exp_bot : Ideal.exp (⊥ : EReal) = 0 := rfl

/-- The logarithm of a positive real number, read in the extended reals. -/
theorem log_coe_pos {r : ℝ} (h : 0 < r) : Ideal.log (r : EReal) = ((Real.log r : ℝ) : EReal) := by
  show (if r ≤ 0 then (⊥ : EReal) else ((Real.log r : ℝ) : EReal)) = _
  rw [if_neg (not_le.mpr h)]

/-- The maximum of two real numbers, read in the extended reals. -/
theorem max_coe (a b : ℝ) : max (a : EReal) (b : EReal) = ((max a b : ℝ) : EReal) := by
  rcases le_total a b with h | h
  · rw [max_eq_right h, max_eq_right (EReal.coe_le_coe_iff.mpr h)]
  · rw [max_eq_left h, max_eq_left (EReal.coe_le_coe_iff.mpr h)]

/-- A finite sum of real numbers, read in the extended reals. -/
theorem coe_sum {ι : Type*} (t : Finset ι) (f : ι → ℝ) :
    ((∑ i ∈ t, f i : ℝ) : EReal) = ∑ i ∈ t, (f i : EReal) := by
  classical
  induction t using Finset.induction_on with
  | empty => simp
  | insert a t ha ih => rw [Finset.sum_insert ha, Finset.sum_insert ha, EReal.coe_add, ih]

/-- The fold of max from the bottom over a nonempty finite family of real numbers is a real number. -/
theorem fold_max_real {ι : Type*} [Fintype ι] [Nonempty ι] (f : ι → ℝ) :
    ∃ r : ℝ, Finset.univ.fold max (⊥ : EReal) (fun i => (f i : EReal)) = (r : EReal) := by
  have h1 : Finset.univ.fold max (⊥ : EReal) (fun i => (f i : EReal)) ≠ ⊤ := by
    apply ne_of_lt
    rw [Finset.fold_max_lt]
    exact ⟨bot_lt_top, fun i _ => EReal.coe_lt_top _⟩
  have h2 : Finset.univ.fold max (⊥ : EReal) (fun i => (f i : EReal)) ≠ ⊥ := by
    apply ne_of_gt
    rw [Finset.lt_fold_max]
    obtain ⟨i⟩ := ‹Nonempty ι›
    exact Or.inr ⟨i, Finset.mem_univ _, EReal.bot_lt_coe _⟩
  exact ⟨_, (EReal.coe_toReal h1 h2).symm⟩

/-- One tile folded into a real running pair (m, c): the new maximum m' is real, and the new sum is the real number
    exp (m - m') · c + Σ_q exp (t q - m'). -/
theorem step_coe (m c : ℝ) (t : Fin 512 → ℝ) :
    ∃ m' : ℝ, max (m : EReal) (Finset.univ.fold max negInf (fun q => (t q : EReal))) = (m' : EReal) ∧
      Ideal.exp ((m : EReal) - (m' : EReal)) * (c : EReal)
          + ∑ q : Fin 512, Ideal.exp ((t q : EReal) - (m' : EReal))
        = ((Real.exp (m - m') * c + ∑ q : Fin 512, Real.exp (t q - m') : ℝ) : EReal) := by
  obtain ⟨r, hr⟩ := fold_max_real t
  refine ⟨max m r, ?_, ?_⟩
  · rw [negInf_eq_bot, hr, max_coe]
  · rw [EReal.coe_add, EReal.coe_mul, coe_sum]
    simp only [← EReal.coe_sub, exp_coe]

/-- The first tile, folded into the starting pair (bottom, 0): the new maximum m' is real and the new sum is
    Σ_q exp (t q - m'); the old sum's factor is the exponential at the bottom, zero. -/
theorem step_bot (t : Fin 512 → ℝ) :
    ∃ m' : ℝ, max negInf (Finset.univ.fold max negInf (fun q => (t q : EReal))) = (m' : EReal) ∧
      Ideal.exp (negInf - (m' : EReal)) * 0
          + ∑ q : Fin 512, Ideal.exp ((t q : EReal) - (m' : EReal))
        = ((∑ q : Fin 512, Real.exp (t q - m') : ℝ) : EReal) := by
  obtain ⟨r, hr⟩ := fold_max_real t
  refine ⟨r, ?_, ?_⟩
  · rw [negInf_eq_bot, hr, max_eq_right bot_le]
  · rw [mul_zero, zero_add, coe_sum]
    simp only [← EReal.coe_sub, exp_coe]

/-- The shift of a sum of exponentials from m to m', together with one more block of 512 terms. -/
theorem real_step (f : ℕ → ℝ) (N : ℕ) (m m' : ℝ) :
    Real.exp (m - m') * (∑ n ∈ Finset.range N, Real.exp (f n - m))
        + ∑ q : Fin 512, Real.exp (f (N + q.val) - m')
      = ∑ n ∈ Finset.range (N + 512), Real.exp (f n - m') := by
  rw [Finset.sum_range_add, Finset.mul_sum,
    Fin.sum_univ_eq_sum_range (fun x => Real.exp (f (N + x) - m')) 512]
  congr 1
  apply Finset.sum_congr rfl
  intro n _
  rw [← Real.exp_add]
  congr 1
  ring

/-- A row of 8192 real numbers continued by zeros. -/
def seqOf (s : Fin 8192 → ℝ) (n : ℕ) : ℝ := if h : n < 8192 then s ⟨n, h⟩ else 0

/-- Column tile k of a real row is a block of 512 consecutive entries of the continued row. -/
theorem tile_eq (s : Fin 8192 → ℝ) (k : ℕ) :
    tileOf (fun j => ((s j : ℝ) : EReal)) k = fun q => ((seqOf s (512 * k + q.val) : ℝ) : EReal) := by
  funext q
  have hq := q.isLt
  unfold tileOf seqOf
  by_cases hk : k < 16
  · have hn : 512 * k + q.val < 8192 := by omega
    rw [dif_pos hk, dif_pos hn]
    congr 2
    omega
  · have hn : ¬ 512 * k + q.val < 8192 := by omega
    rw [dif_neg hk, dif_neg hn]
    rfl

/-- The running pair before any tile. -/
theorem onl_zero (S : Fin 8192 → EReal) : onl S 0 = (negInf, 0) := rfl

/-- The running pair after one more tile, spelled out. -/
theorem onl_succ (S : Fin 8192 → EReal) (k : ℕ) :
    onl S (k + 1) =
      (max (onl S k).1 (Finset.univ.fold max negInf (tileOf S k)),
       Ideal.exp ((onl S k).1 - max (onl S k).1 (Finset.univ.fold max negInf (tileOf S k))) * (onl S k).2
         + ∑ q : Fin 512, Ideal.exp (tileOf S k q - max (onl S k).1 (Finset.univ.fold max negInf (tileOf S k)))) :=
  rfl

/-- After k + 1 tiles of a real row the running pair is (m, Σ_{n < 512 (k+1)} exp (s n - m)) for a real number m. -/
theorem onl_inv (s : Fin 8192 → ℝ) (k : ℕ) :
    ∃ m : ℝ, onl (fun j => ((s j : ℝ) : EReal)) (k + 1) =
      ((m : EReal), ((∑ n ∈ Finset.range (512 * (k + 1)), Real.exp (seqOf s n - m) : ℝ) : EReal)) := by
  induction k with
  | zero =>
    obtain ⟨m', h1, h2⟩ := step_bot (fun q => seqOf s (512 * 0 + q.val))
    refine ⟨m', ?_⟩
    rw [onl_succ, onl_zero, tile_eq]
    dsimp only
    simp only [h1]
    have h3 : (∑ q : Fin 512, Real.exp (seqOf s (512 * 0 + q.val) - m'))
        = ∑ n ∈ Finset.range (512 * (0 + 1)), Real.exp (seqOf s n - m') := by
      have := real_step (seqOf s) (512 * 0) m' m'
      simpa using this
    rw [h2, h3]
  | succ k ih =>
    obtain ⟨m, hm⟩ := ih
    obtain ⟨m', h1, h2⟩ := step_coe m (∑ n ∈ Finset.range (512 * (k + 1)), Real.exp (seqOf s n - m))
      (fun q => seqOf s (512 * (k + 1) + q.val))
    refine ⟨m', ?_⟩
    rw [onl_succ, tile_eq, hm]
    simp only [h1]
    rw [h2, real_step (seqOf s) (512 * (k + 1)) m m']
    rfl

/-- Removing a common shift from a sum of exponentials: log Σ exp (f i - r) = log Σ exp (f i) - r. -/
theorem log_sum_shift {ι : Type*} (t : Finset ι) (ht : t.Nonempty) (f : ι → ℝ) (r : ℝ) :
    Real.log (∑ i ∈ t, Real.exp (f i - r)) = Real.log (∑ i ∈ t, Real.exp (f i)) - r := by
  have hpos : 0 < ∑ i ∈ t, Real.exp (f i) := Finset.sum_pos (fun i _ => Real.exp_pos _) ht
  have h : ∑ i ∈ t, Real.exp (f i - r) = Real.exp (-r) * ∑ i ∈ t, Real.exp (f i) := by
    rw [Finset.mul_sum]
    apply Finset.sum_congr rfl
    intro i _
    rw [← Real.exp_add]
    congr 1
    ring
  rw [h, Real.log_mul (Real.exp_pos _).ne' hpos.ne', Real.log_exp]
  ring

/-- Folding two real numbers with a maximum-shifted log-sum-exp: M + log (exp (a - M) + exp (b - M)) with M = max a b
    is log (exp a + exp b). -/
theorem log_add_exp_shift (a b : ℝ) :
    max a b + Real.log (Real.exp (a - max a b) + Real.exp (b - max a b))
      = Real.log (Real.exp a + Real.exp b) := by
  have h : Real.exp a + Real.exp b
      = Real.exp (max a b) * (Real.exp (a - max a b) + Real.exp (b - max a b)) := by
    rw [mul_add, ← Real.exp_add, ← Real.exp_add]
    congr 2 <;> ring
  have hpos : 0 < Real.exp (a - max a b) + Real.exp (b - max a b) :=
    add_pos (Real.exp_pos _) (Real.exp_pos _)
  rw [h, Real.log_mul (Real.exp_pos _).ne' hpos.ne', Real.log_exp]

/-- The row loss from a real matching cosine and a real running pair with a positive sum. -/
theorem lossK_coe (ps m l : ℝ) (hl : 0 < l) :
    lossK (ps : EReal) ((m : EReal), (l : EReal))
      = ((Real.log (Real.exp (m + Real.log l) + Real.exp ps) - ps : ℝ) : EReal) := by
  have h1 : (m : EReal) + Ideal.log (l : EReal) = ((m + Real.log l : ℝ) : EReal) := by
    rw [log_coe_pos hl, EReal.coe_add]
  have hpos : 0 < Real.exp (m + Real.log l - max (m + Real.log l) ps)
      + Real.exp (ps - max (m + Real.log l) ps) := add_pos (Real.exp_pos _) (Real.exp_pos _)
  unfold lossK
  dsimp only
  rw [h1, max_coe, ← EReal.coe_sub, ← EReal.coe_sub, exp_coe, exp_coe, ← EReal.coe_add,
    log_coe_pos hpos, ← EReal.coe_add, ← EReal.coe_sub, log_add_exp_shift]

/-- The first entry of the shifted log-softmax of a real family: the shift cancels. -/
theorem lsm0_coe (zr : Fin 8193 → ℝ) :
    lsm0 (fun k => ((zr k : ℝ) : EReal))
      = ((zr 0 - Real.log (∑ k : Fin 8193, Real.exp (zr k)) : ℝ) : EReal) := by
  obtain ⟨r, hr⟩ := fold_max_real zr
  have hsum : (0 : EReal) + ∑ k : Fin 8193, Ideal.exp (((zr k : ℝ) : EReal) - (r : EReal))
      = ((∑ k : Fin 8193, Real.exp (zr k - r) : ℝ) : EReal) := by
    rw [zero_add, coe_sum]
    simp only [← EReal.coe_sub, exp_coe]
  have hpos : 0 < ∑ k : Fin 8193, Real.exp (zr k - r) :=
    Finset.sum_pos (fun i _ => Real.exp_pos _) Finset.univ_nonempty
  unfold lsm0
  rw [negInf_eq_bot, hr, max_eq_right bot_le, hsum, log_coe_pos hpos,
    log_sum_shift Finset.univ Finset.univ_nonempty zr r]
  have h : zr 0 - Real.log (∑ k : Fin 8193, Real.exp (zr k))
      = (zr 0 - r) - (Real.log (∑ k : Fin 8193, Real.exp (zr k)) - r) := by ring
  rw [h, EReal.coe_sub (zr 0 - r) (Real.log (∑ k : Fin 8193, Real.exp (zr k)) - r), EReal.coe_sub (zr 0) r]

end OnlineLse

open OnlineLse in
/-- For a real matching cosine ps and a real row s of 8192 cosines, the one-pass loss is minus the first log-softmax
    entry of the 8193 logits [ps, s 0, …, s 8191], and that entry is a real number: both are
    log (exp ps + Σ_j exp (s j)) - ps  up to the sign. -/
theorem lossK_onl_eq_neg_lsm0 (ps : ℝ) (s : Fin 8192 → ℝ) (z : Fin 8193 → EReal)
    (hz0 : z 0 = (ps : EReal))
    (hzs : ∀ k : Fin 8193, ∀ h : k.val ≠ 0, z k = ((s ⟨k.val - 1, by omega⟩ : ℝ) : EReal)) :
    lossK (ps : EReal) (onl (fun j => ((s j : ℝ) : EReal)) 16) = -(lsm0 z)
      ∧ ∃ r : ℝ, lsm0 z = (r : EReal) := by
  -- the logits as a real family: ps first, then the row
  have hz : z = fun k => (((Fin.cons ps s : Fin 8193 → ℝ) k : ℝ) : EReal) := by
    funext k
    refine Fin.cases ?_ (fun j => ?_) k
    · rw [hz0, Fin.cons_zero]
    · rw [hzs j.succ (by simp), Fin.cons_succ]
      rfl
  -- the running pair after all 16 tiles
  obtain ⟨m, hm⟩ := onl_inv s 15
  have hm' : onl (fun j => ((s j : ℝ) : EReal)) 16
      = ((m : EReal), ((∑ n ∈ Finset.range 8192, Real.exp (seqOf s n - m) : ℝ) : EReal)) := hm
  have hl : (∑ n ∈ Finset.range 8192, Real.exp (seqOf s n - m)) = ∑ j : Fin 8192, Real.exp (s j - m) := by
    rw [← Fin.sum_univ_eq_sum_range (fun n => Real.exp (seqOf s n - m)) 8192]
    apply Finset.sum_congr rfl
    intro j _
    unfold seqOf
    rw [dif_pos j.isLt]
  have hS : 0 < ∑ j : Fin 8192, Real.exp (s j - m) :=
    Finset.sum_pos (fun i _ => Real.exp_pos _) Finset.univ_nonempty
  have hSpos : 0 < ∑ j : Fin 8192, Real.exp (s j) :=
    Finset.sum_pos (fun i _ => Real.exp_pos _) Finset.univ_nonempty
  have hlog : m + Real.log (∑ j : Fin 8192, Real.exp (s j - m)) = Real.log (∑ j : Fin 8192, Real.exp (s j)) := by
    rw [log_sum_shift Finset.univ Finset.univ_nonempty s m]
    ring
  have hsum : (∑ k : Fin 8193, Real.exp ((Fin.cons ps s : Fin 8193 → ℝ) k))
      = Real.exp ps + ∑ j : Fin 8192, Real.exp (s j) := by
    rw [Fin.sum_univ_succ]
    simp only [Fin.cons_zero, Fin.cons_succ]
  rw [hm', hl, lossK_coe ps m _ hS, hlog, Real.exp_log hSpos, hz, lsm0_coe, hsum, Fin.cons_zero]
  refine ⟨?_, _, rfl⟩
  rw [← EReal.coe_neg, add_comm (Real.exp ps)]
  congr 1
  ring

end Cert.NPair

end
-- ==== Proof.LibRealSums.lean ====
/-
  Real-valued extended reals and the one law that needs them.

  On the extended reals addition is commutative and associative, but multiplication does not distribute over
  addition at the infinities. Sums of REAL numbers (extended reals that are neither infinity) behave as in the real
  field: they are closed under +, ·, max and finite sums, and a finite sum of reals times a real is the sum of the
  products. From that follows the exchange used for a graph layer: adding up, over the edges e that land on a node,
  the projected rows  ∑_k a(e,k) · w(k)  gives the same as projecting the added-up rows,
      ∑_e [e lands] ∑_k a(e,k) · w(k)  =  ∑_k (∑_e [e lands] a(e,k)) · w(k).
-/
import Mathlib.Data.EReal.Basic
import Mathlib.Data.EReal.Operations
import Mathlib.Algebra.BigOperators.Group.Finset.Basic
import Mathlib.Algebra.BigOperators.Ring.Finset
import Mathlib.Algebra.BigOperators.Group.Finset.Sigma

noncomputable section

open scoped BigOperators

namespace Cert.RealSums

/-- An extended real that is a real number. -/
def IsReal (x : EReal) : Prop := ∃ r : ℝ, x = (r : EReal)

theorem isReal_zero : IsReal 0 := ⟨0, EReal.coe_zero.symm⟩

theorem IsReal.add {x y : EReal} (hx : IsReal x) (hy : IsReal y) : IsReal (x + y) := by
  obtain ⟨a, rfl⟩ := hx
  obtain ⟨b, rfl⟩ := hy
  exact ⟨a + b, (EReal.coe_add a b).symm⟩

theorem IsReal.mul {x y : EReal} (hx : IsReal x) (hy : IsReal y) : IsReal (x * y) := by
  obtain ⟨a, rfl⟩ := hx
  obtain ⟨b, rfl⟩ := hy
  exact ⟨a * b, (EReal.coe_mul a b).symm⟩

theorem IsReal.max {x y : EReal} (hx : IsReal x) (hy : IsReal y) : IsReal (max x y) := by
  rcases le_total x y with h | h
  · rw [max_eq_right h]; exact hy
  · rw [max_eq_left h]; exact hx

theorem isReal_sum {ι : Type} (s : Finset ι) (f : ι → EReal) (h : ∀ i ∈ s, IsReal (f i)) : IsReal (∑ i ∈ s, f i) :=
  Finset.sum_induction f IsReal (fun _ _ => IsReal.add) isReal_zero h

theorem isReal_ite {p : Prop} [Decidable p] {x : EReal} (hx : IsReal x) : IsReal (if p then x else 0) := by
  split
  · exact hx
  · exact isReal_zero

/-- Right distributivity for three real numbers. -/
theorem add_mul_of_real {a b w : EReal} (ha : IsReal a) (hb : IsReal b) (hw : IsReal w) : (a + b) * w = a * w + b * w := by
  obtain ⟨a, rfl⟩ := ha
  obtain ⟨b, rfl⟩ := hb
  obtain ⟨w, rfl⟩ := hw
  exact_mod_cast congrArg (fun t : ℝ => (t : EReal)) (add_mul a b w)

/-- A finite sum of reals times a real is the sum of the products. -/
theorem sum_mul_of_real {ι : Type} (s : Finset ι) (a : ι → EReal) (w : EReal) (ha : ∀ i, IsReal (a i)) (hw : IsReal w) :
    (∑ i ∈ s, a i) * w = ∑ i ∈ s, a i * w := by
  classical
  induction s using Finset.induction_on with
  | empty => simp
  | insert i s hi ih =>
    rw [Finset.sum_insert hi, Finset.sum_insert hi, add_mul_of_real (ha i) (isReal_sum s a fun j _ => ha j) hw, ih]

/-- Projecting the rows that land and adding them up is adding them up and projecting, for real data. -/
theorem sum_ite_sum_mul {ι κ : Type} [Fintype ι] [Fintype κ] (p : ι → Prop) [DecidablePred p] (a : ι → κ → EReal) (w : κ → EReal)
    (ha : ∀ e k, IsReal (a e k)) (hw : ∀ k, IsReal (w k)) :
    ∑ e, (if p e then ∑ k, a e k * w k else 0) = ∑ k, (∑ e, if p e then a e k else 0) * w k := by
  have h1 : ∀ k, (∑ e, if p e then a e k else 0) * w k = ∑ e, if p e then a e k * w k else 0 := by
    intro k
    rw [sum_mul_of_real _ _ _ (fun e => isReal_ite (ha e k)) (hw k)]
    refine Finset.sum_congr rfl fun e _ => ?_
    split
    · rfl
    · exact zero_mul _
  rw [Finset.sum_congr rfl fun k _ => h1 k, Finset.sum_comm]
  refine Finset.sum_congr rfl fun e _ => ?_
  split
  · rfl
  · exact Finset.sum_const_zero.symm

end Cert.RealSums

end
-- ==== Proof.RealTotals.lean ====
/-
  Every cosine of the pairwise loss is a real number when the input is real, and the whole result computed one way
  equals the whole result computed the other way as soon as each row's loss does.

  Realness.  A finite sum, a product and a maximum of real numbers are real.  The norm of a real row is the square
  root of a nonnegative real sum of squares, so it is a nonnegative real.  The clamp eps is a positive real, hence
  every denominator  max (a * b) eps  is a real number that is at least eps > 0; dividing a real by a nonzero real
  is multiplying by its reciprocal, which is real again.

  The whole result.  Under the per-row law each row's one-pass loss is minus the first log-softmax entry of that row,
  and that entry is a real number r i.  So the sum of the one-pass losses is the real number -(Σ r i), the sum of the
  log-softmax entries is the real number Σ r i, the row count 8192 is a nonzero real, and
      (-(Σ r i)) * (1 / 8192) = -((Σ r i) * (1 / 8192)).
  Both results add the same weighted norm to these two equal numbers.
-/
import proofs.«124650_j85487029060330_2_alg».proof.Proof.Spec
import proofs.«124650_j85487029060330_2_alg».proof.Proof.LibRealSums

noncomputable section

open scoped BigOperators

namespace Cert.NPair

open Idealize.ShloMosaic Cert.RealSums

/-- The per-row law: for a real matching cosine and real cosines against every positive, the one-pass row loss is minus
    the first entry of the shifted log-softmax of the 8193 logits, and that entry is a real number. -/
def RowLaw : Prop :=
  ∀ (ps : ℝ) (s : Fin 8192 → ℝ) (z : Fin 8193 → EReal), z 0 = (ps : EReal) →
    (∀ k : Fin 8193, ∀ h : k.val ≠ 0, z k = ((s ⟨k.val - 1, by omega⟩ : ℝ) : EReal)) →
    lossK (ps : EReal) (onl (fun j => ((s j : ℝ) : EReal)) 16) = -(lsm0 z) ∧ ∃ r : ℝ, lsm0 z = (r : EReal)

/-! ### The two constants -/

/-- The clamp is the real number 11258999 * 2^(-50). -/
theorem epsv_eq : epsv = ((11258999 * (2:ℝ) ^ (-50 : ℤ) : ℝ) : EReal) := by
  simp [epsv, Ideal.ofBits, Ideal.ieee]

theorem epsv_pos_real : ∃ r : ℝ, 0 < r ∧ epsv = (r : EReal) :=
  ⟨11258999 * (2:ℝ) ^ (-50 : ℤ), by positivity, epsv_eq⟩

/-- The row count is 2^23 * 2^(-10) = 8192. -/
theorem cnt_eq : cnt = ((8192 : ℝ) : EReal) := by
  simp [cnt, Ideal.ofBits, Ideal.ieee]
  exact_mod_cast (by norm_num : (8388608:ℝ) * ((2:ℝ)^10)⁻¹ = 8192)

/-! ### Real numbers are closed under the operations of a cosine -/

/-- A finite sum of coerced reals is the coerced sum. -/
theorem coe_finsum {ι : Type} (t : Finset ι) (f : ι → ℝ) :
    (∑ i ∈ t, ((f i : ℝ) : EReal)) = ((∑ i ∈ t, f i : ℝ) : EReal) := by
  classical
  induction t using Finset.induction_on with
  | empty => simp
  | insert i t hi ih => rw [Finset.sum_insert hi, Finset.sum_insert hi, ih, EReal.coe_add]

/-- The norm of a real row is a nonnegative real. -/
theorem rowNorm_real (v : Fin 512 → EReal) (hv : ∀ d, ∃ r : ℝ, v d = (r : EReal)) :
    ∃ r : ℝ, 0 ≤ r ∧ rowNorm v = (r : EReal) := by
  choose f hf using hv
  refine ⟨Real.sqrt (∑ d : Fin 512, f d * f d), Real.sqrt_nonneg _, ?_⟩
  have hsum : (∑ d : Fin 512, v d * v d) = ((∑ d : Fin 512, f d * f d : ℝ) : EReal) := by
    rw [← coe_finsum]
    exact Finset.sum_congr rfl fun d _ => by rw [hf d, EReal.coe_mul]
  have hnn : ¬ (∑ d : Fin 512, f d * f d) < 0 :=
    not_lt.mpr (Finset.sum_nonneg fun d _ => mul_self_nonneg (f d))
  rw [rowNorm, zero_add, hsum, Ideal.sqrt_coe, if_neg hnn]

/-- A clamped product of two reals is a positive real. -/
theorem clampMul_real {a b : EReal} (ha : IsReal a) (hb : IsReal b) : ∃ c : ℝ, 0 < c ∧ clampMul a b = (c : EReal) := by
  obtain ⟨a, rfl⟩ := ha
  obtain ⟨b, rfl⟩ := hb
  obtain ⟨e, he, hE⟩ := epsv_pos_real
  refine ⟨max (a * b) e, lt_of_lt_of_le he (le_max_right _ _), ?_⟩
  rw [clampMul, hE, ← EReal.coe_mul]
  exact (EReal.coe_strictMono.monotone.map_max).symm

/-- A real divided by a nonzero real is real. -/
theorem isReal_div {x : EReal} (hx : IsReal x) {c : ℝ} (hc : c ≠ 0) : IsReal (Ideal.div x (c : EReal)) := by
  rw [Ideal.div_coe hc]
  exact hx.mul ⟨_, rfl⟩

/-- A real divided by a clamped product of two reals is real. -/
theorem isReal_div_clampMul {x a b : EReal} (hx : IsReal x) (ha : IsReal a) (hb : IsReal b) :
    IsReal (Ideal.div x (clampMul a b)) := by
  obtain ⟨c, hc, hC⟩ := clampMul_real ha hb
  rw [hC]
  exact isReal_div hx (ne_of_gt hc)

theorem isReal_rowNorm (v : Fin 512 → EReal) (hv : ∀ d, ∃ r : ℝ, v d = (r : EReal)) : IsReal (rowNorm v) := by
  obtain ⟨r, _, hr⟩ := rowNorm_real v hv
  exact ⟨r, hr⟩

/-- An inner product of two real rows is real. -/
theorem isReal_dot (v w : Fin 512 → EReal) (hv : ∀ d, ∃ r : ℝ, v d = (r : EReal)) (hw : ∀ d, ∃ r : ℝ, w d = (r : EReal)) :
    IsReal (∑ d : Fin 512, v d * w d) :=
  isReal_sum _ _ fun d _ => IsReal.mul (hv d) (hw d)

/-! ### The cosines -/

theorem posSim_real (A P : Mat) (hA : ∀ i d, ∃ r : ℝ, A i d = (r : EReal)) (hP : ∀ i d, ∃ r : ℝ, P i d = (r : EReal))
    (i : Fin 8192) : ∃ r : ℝ, posSim A P i = (r : EReal) := by
  rw [posSim, zero_add]
  exact isReal_div_clampMul (isReal_dot _ _ (hA i) (hP i)) (isReal_rowNorm _ (hA i)) (isReal_rowNorm _ (hP i))

theorem diagVal_real (A : Mat) (hA : ∀ i d, ∃ r : ℝ, A i d = (r : EReal)) (i : Fin 8192) : IsReal (diagVal A i) := by
  rw [diagVal]
  exact isReal_div_clampMul ((isReal_rowNorm _ (hA i)).mul (isReal_rowNorm _ (hA i))) (isReal_rowNorm _ (hA i))
    (isReal_rowNorm _ (hA i))

theorem negSim_real (A P : Mat) (hA : ∀ i d, ∃ r : ℝ, A i d = (r : EReal)) (hP : ∀ i d, ∃ r : ℝ, P i d = (r : EReal))
    (i j : Fin 8192) : ∃ r : ℝ, negSim A P i j = (r : EReal) := by
  rw [negSim]
  split
  · exact diagVal_real A hA i
  · exact isReal_div_clampMul (isReal_dot _ _ (hA i) (hP j)) (isReal_rowNorm _ (hA i)) (isReal_rowNorm _ (hP j))

/-! ### From the rows to the whole result -/

/-- Under the per-row law, row i's one-pass loss is minus its first log-softmax entry, a real number. -/
theorem rowK_eq_of (H : RowLaw) (A P : Mat) (hA : ∀ i d, ∃ r : ℝ, A i d = (r : EReal))
    (hP : ∀ i d, ∃ r : ℝ, P i d = (r : EReal)) (i : Fin 8192) :
    rowK A P i = -(lsm0 (logit A P i)) ∧ ∃ r : ℝ, lsm0 (logit A P i) = (r : EReal) := by
  obtain ⟨ps, hps⟩ := posSim_real A P hA hP i
  choose s hs using negSim_real A P hA hP i
  have hfun : negSim A P i = fun j => ((s j : ℝ) : EReal) := funext hs
  have h0 : logit A P i 0 = (ps : EReal) := by
    rw [logit, dif_pos (show (0 : Fin 8193).val = 0 from rfl), hps]
  have hk : ∀ k : Fin 8193, ∀ h : k.val ≠ 0, logit A P i k = ((s ⟨k.val - 1, by omega⟩ : ℝ) : EReal) := by
    intro k h
    rw [logit, dif_neg h, hs]
  have := H ps s (logit A P i) h0 hk
  rw [rowK, hps, hfun]
  exact this

/-- Dividing minus a real sum by the row count is minus dividing the sum. -/
theorem div_cnt_neg (r : Fin 8192 → ℝ) :
    Ideal.div (0 + ∑ i : Fin 8192, -((r i : ℝ) : EReal)) cnt = -(Ideal.div (0 + ∑ i : Fin 8192, ((r i : ℝ) : EReal)) cnt) := by
  have h1 : (∑ i : Fin 8192, -((r i : ℝ) : EReal)) = ((-(∑ i : Fin 8192, r i) : ℝ) : EReal) := by
    rw [← Finset.sum_neg_distrib, ← coe_finsum]
    exact Finset.sum_congr rfl fun i _ => (EReal.coe_neg (r i)).symm
  rw [zero_add, zero_add, h1, coe_finsum, cnt_eq, Ideal.div_coe (by norm_num : (8192:ℝ) ≠ 0),
    Ideal.div_coe (by norm_num : (8192:ℝ) ≠ 0), ← EReal.coe_mul, ← EReal.coe_mul, ← EReal.coe_neg, neg_mul]

/-- The whole result the one-pass way equals the whole result the log-softmax way, given the per-row law and a real input. -/
theorem totalK_eq_totalR_of (H : RowLaw) (A P : Mat) (l2 : EReal) (hA : ∀ i d, ∃ r : ℝ, A i d = (r : EReal))
    (hP : ∀ i d, ∃ r : ℝ, P i d = (r : EReal)) : totalK A P l2 = totalR A P l2 := by
  have h1 : ∀ i, rowK A P i = -(lsm0 (logit A P i)) := fun i => (rowK_eq_of H A P hA hP i).1
  choose r hr using fun i => (rowK_eq_of H A P hA hP i).2
  have hK : (∑ i : Fin 8192, rowK A P i) = ∑ i : Fin 8192, -((r i : ℝ) : EReal) :=
    Finset.sum_congr rfl fun i _ => by rw [h1 i, hr i]
  have hR : (∑ i : Fin 8192, lsm0 (logit A P i)) = ∑ i : Fin 8192, ((r i : ℝ) : EReal) :=
    Finset.sum_congr rfl fun i _ => hr i
  rw [totalK, totalR, hK, hR, div_cnt_neg]

end Cert.NPair

end
-- ==== Proof.KernelPieces.lean ====
/-
  What one execution of the kernel body leaves behind, as closed terms of the body's arithmetic.

  The body keeps two column vectors of 1024 numbers between grid points: a running maximum and a running sum of
  exponentials. At every point it reads the running maximum M, forms the new maximum M' (the larger of M and the row
  maxima of the current tile of cosines) and the shift M - M', reads the running sum L, and stores M' and
  exp (M - M') * L + (row sums of exp (tile - M')) back. At the first column tile of a row block the two vectors are
  first reset to -inf and to 0, so there the values read are those two constants; at the last column tile the stored
  pair is read again, together with the block of matching cosines, and the row losses are stored into the output block.

  Each statement below says that the contents found in a carried vector (or in the output block) after the body, in
  one of the three control cases, is the corresponding composition of the body's pure value functions applied to the
  input blocks and, away from the first column tile, to the contents the point before left. Every store covers its
  whole buffer and every load reads a whole buffer, so a buffer read after its last store is that store's value, and a
  value loaded after a store is the value stored.
-/
import proofs.«124650_j85487029060330_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Pieces

open Cert.KernelIdeal Cert.KernelIdeal.Gen

variable {F : FTy → Type} [FloatOps F]

/-- The zero offset of a whole-buffer rectangle of rank two. -/
theorem hz : (![0, 0] : Fin 2 → Nat) = fun _ => 0 := funext fun a => by fin_cases a <;> rfl

/-- First column tile: the running maximum left behind is the new maximum formed from the reset value -inf. -/
theorem sout_A_0 (c : Dev nD) (i : grid0.Coords) (arg2 : Memref sig .tc .vmem S1024x512 .bf16) (harg2 : arg2.IsWhole) (arg3 : Memref sig .tc .vmem S512x512 .bf16) (harg3 : arg3.IsWhole) (arg4 : Memref sig .tc .vmem S1024x1 .f32) (harg4 : arg4.IsWhole) (arg5 : Memref sig .tc .vmem S1x512 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : cond0_0 i) (hc1 : ¬cond0_1 i)
    (x0 : Vec F S1024x512 .bf16) (x1 : Vec F S512x512 .bf16) (x2 : Vec F S1024x1 .f32) (x3 : Vec F S1x512 .f32) (x4 : Vec F S1024x1 .f32) :
    sout0_A_0 c i arg2 harg2 arg3 harg3 arg4 harg4 arg5 harg5 arg6 harg6 arg7 harg7 arg8 harg8 arg9 harg9 hc0 hc1 x0 x1 x2 x3 x4 = k0_pay1 (k0_pay7 i x0 x1 x2 x3 k0_pay4) := by
  unfold sout0_A_0
  rw [View.read_writes_eq_canon _ _ _ (scover0_A_0 c i arg2 harg2 arg3 harg3 arg4 harg4 arg5 harg5 arg6 harg6 arg7 harg7 arg8 harg8 arg9 harg9 hc0 hc1 x0 x1 x2 x3 x4)]
  unfold kernelRun0_A
  dsimp only
  sl_unfold_words
  rw [View.canon_cons_unit_zero (S := S1024x1) hz, View.readCov_unit_zero (S := S1024x1) arg8.view hz]
  simp only [View.readAt_eq_ld, harg2.read_unread, harg3.read_unread, harg4.read_unread, harg5.read_unread,
    harg6.read_unread, harg8.read_unread, harg9.read_unread,
    View.ld_unit_zero (S := S1024x512) hz, View.ld_unit_zero (S := S512x512) hz, View.ld_unit_zero (S := S1024x1) hz,
    View.ld_unit_zero (S := S1x512) hz]

/-- First column tile: the running sum left behind is formed from the reset values -inf (maximum) and 0 (sum). -/
theorem sout_A_1 (c : Dev nD) (i : grid0.Coords) (arg2 : Memref sig .tc .vmem S1024x512 .bf16) (harg2 : arg2.IsWhole) (arg3 : Memref sig .tc .vmem S512x512 .bf16) (harg3 : arg3.IsWhole) (arg4 : Memref sig .tc .vmem S1024x1 .f32) (harg4 : arg4.IsWhole) (arg5 : Memref sig .tc .vmem S1x512 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : cond0_0 i) (hc1 : ¬cond0_1 i)
    (x0 : Vec F S1024x512 .bf16) (x1 : Vec F S512x512 .bf16) (x2 : Vec F S1024x1 .f32) (x3 : Vec F S1x512 .f32) (x4 : Vec F S1024x1 .f32) :
    sout0_A_1 c i arg2 harg2 arg3 harg3 arg4 harg4 arg5 harg5 arg6 harg6 arg7 harg7 arg8 harg8 arg9 harg9 hc0 hc1 x0 x1 x2 x3 x4 = k0_pay2 (k0_pay6 i x0 x1 x2 x3) (k0_pay7 i x0 x1 x2 x3 k0_pay4) (k0_pay8 i x0 x1 x2 x3 k0_pay4) k0_pay5 := by
  unfold sout0_A_1
  rw [View.read_writes_eq_canon _ _ _ (scover0_A_1 c i arg2 harg2 arg3 harg3 arg4 harg4 arg5 harg5 arg6 harg6 arg7 harg7 arg8 harg8 arg9 harg9 hc0 hc1 x0 x1 x2 x3 x4)]
  unfold kernelRun0_A
  dsimp only
  sl_unfold_words
  rw [View.canon_cons_unit_zero (S := S1024x1) hz, View.readCov_unit_zero (S := S1024x1) arg8.view hz,
    View.readCov_unit_zero (S := S1024x1) arg9.view hz]
  simp only [View.readAt_eq_ld, harg2.read_unread, harg3.read_unread, harg4.read_unread, harg5.read_unread,
    harg6.read_unread, harg8.read_unread, harg9.read_unread,
    View.ld_unit_zero (S := S1024x512) hz, View.ld_unit_zero (S := S512x512) hz, View.ld_unit_zero (S := S1024x1) hz,
    View.ld_unit_zero (S := S1x512) hz]

/-- An inner column tile: the running maximum left behind is the new maximum formed from the carried maximum. -/
theorem sout_B_0 (c : Dev nD) (i : grid0.Coords) (arg2 : Memref sig .tc .vmem S1024x512 .bf16) (harg2 : arg2.IsWhole) (arg3 : Memref sig .tc .vmem S512x512 .bf16) (harg3 : arg3.IsWhole) (arg4 : Memref sig .tc .vmem S1024x1 .f32) (harg4 : arg4.IsWhole) (arg5 : Memref sig .tc .vmem S1x512 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : ¬cond0_0 i) (hc1 : ¬cond0_1 i)
    (x0 : Vec F S1024x512 .bf16) (x1 : Vec F S512x512 .bf16) (x2 : Vec F S1024x1 .f32) (x3 : Vec F S1x512 .f32) (x4 : Vec F S1024x1 .f32) (xs0 : Vec F S1024x1 .f32) (xs1 : Vec F S1024x1 .f32) :
    sout0_B_0 c i arg2 harg2 arg3 harg3 arg4 harg4 arg5 harg5 arg6 harg6 arg7 harg7 arg8 harg8 arg9 harg9 hc0 hc1 x0 x1 x2 x3 x4 xs0 xs1 = k0_pay1 (k0_pay7 i x0 x1 x2 x3 xs0) := by
  unfold sout0_B_0
  rw [View.read_writes_eq_canon _ _ _ (scover0_B_0 c i arg2 harg2 arg3 harg3 arg4 harg4 arg5 harg5 arg6 harg6 arg7 harg7 arg8 harg8 arg9 harg9 hc0 hc1 x0 x1 x2 x3 x4 xs0 xs1)]
  unfold kernelRun0_B
  dsimp only
  sl_unfold_words
  rw [View.canon_unit_zero (S := S1024x1) hz]
  simp only [View.readAt_eq_ld, harg2.read_unread, harg3.read_unread, harg4.read_unread, harg5.read_unread,
    harg6.read_unread, harg8.read_unread, harg9.read_unread,
    View.ld_unit_zero (S := S1024x512) hz, View.ld_unit_zero (S := S512x512) hz, View.ld_unit_zero (S := S1024x1) hz,
    View.ld_unit_zero (S := S1x512) hz]

/-- An inner column tile: the running sum left behind is the rescaled carried sum plus the tile's sum of exponentials. -/
theorem sout_B_1 (c : Dev nD) (i : grid0.Coords) (arg2 : Memref sig .tc .vmem S1024x512 .bf16) (harg2 : arg2.IsWhole) (arg3 : Memref sig .tc .vmem S512x512 .bf16) (harg3 : arg3.IsWhole) (arg4 : Memref sig .tc .vmem S1024x1 .f32) (harg4 : arg4.IsWhole) (arg5 : Memref sig .tc .vmem S1x512 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : ¬cond0_0 i) (hc1 : ¬cond0_1 i)
    (x0 : Vec F S1024x512 .bf16) (x1 : Vec F S512x512 .bf16) (x2 : Vec F S1024x1 .f32) (x3 : Vec F S1x512 .f32) (x4 : Vec F S1024x1 .f32) (xs0 : Vec F S1024x1 .f32) (xs1 : Vec F S1024x1 .f32) :
    sout0_B_1 c i arg2 harg2 arg3 harg3 arg4 harg4 arg5 harg5 arg6 harg6 arg7 harg7 arg8 harg8 arg9 harg9 hc0 hc1 x0 x1 x2 x3 x4 xs0 xs1 = k0_pay2 (k0_pay6 i x0 x1 x2 x3) (k0_pay7 i x0 x1 x2 x3 xs0) (k0_pay8 i x0 x1 x2 x3 xs0) xs1 := by
  unfold sout0_B_1
  rw [View.read_writes_eq_canon _ _ _ (scover0_B_1 c i arg2 harg2 arg3 harg3 arg4 harg4 arg5 harg5 arg6 harg6 arg7 harg7 arg8 harg8 arg9 harg9 hc0 hc1 x0 x1 x2 x3 x4 xs0 xs1)]
  unfold kernelRun0_B
  dsimp only
  sl_unfold_words
  rw [View.canon_unit_zero (S := S1024x1) hz]
  simp only [View.readAt_eq_ld, harg2.read_unread, harg3.read_unread, harg4.read_unread, harg5.read_unread,
    harg6.read_unread, harg8.read_unread, harg9.read_unread,
    View.ld_unit_zero (S := S1024x512) hz, View.ld_unit_zero (S := S512x512) hz, View.ld_unit_zero (S := S1024x1) hz,
    View.ld_unit_zero (S := S1x512) hz]

/-- Last column tile: the running maximum is updated exactly as at an inner tile. -/
theorem sout_C_0 (c : Dev nD) (i : grid0.Coords) (arg2 : Memref sig .tc .vmem S1024x512 .bf16) (harg2 : arg2.IsWhole) (arg3 : Memref sig .tc .vmem S512x512 .bf16) (harg3 : arg3.IsWhole) (arg4 : Memref sig .tc .vmem S1024x1 .f32) (harg4 : arg4.IsWhole) (arg5 : Memref sig .tc .vmem S1x512 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : ¬cond0_0 i) (hc1 : cond0_1 i)
    (x0 : Vec F S1024x512 .bf16) (x1 : Vec F S512x512 .bf16) (x2 : Vec F S1024x1 .f32) (x3 : Vec F S1x512 .f32) (x4 : Vec F S1024x1 .f32) (xs0 : Vec F S1024x1 .f32) (xs1 : Vec F S1024x1 .f32) :
    sout0_C_0 c i arg2 harg2 arg3 harg3 arg4 harg4 arg5 harg5 arg6 harg6 arg7 harg7 arg8 harg8 arg9 harg9 hc0 hc1 x0 x1 x2 x3 x4 xs0 xs1 = k0_pay1 (k0_pay7 i x0 x1 x2 x3 xs0) := by
  unfold sout0_C_0
  rw [View.read_writes_eq_canon _ _ _ (scover0_C_0 c i arg2 harg2 arg3 harg3 arg4 harg4 arg5 harg5 arg6 harg6 arg7 harg7 arg8 harg8 arg9 harg9 hc0 hc1 x0 x1 x2 x3 x4 xs0 xs1)]
  unfold kernelRun0_C
  dsimp only
  sl_unfold_words
  rw [View.canon_unit_zero (S := S1024x1) hz]
  simp only [View.readAt_eq_ld, harg2.read_unread, harg3.read_unread, harg4.read_unread, harg5.read_unread,
    harg6.read_unread, harg8.read_unread, harg9.read_unread,
    View.ld_unit_zero (S := S1024x512) hz, View.ld_unit_zero (S := S512x512) hz, View.ld_unit_zero (S := S1024x1) hz,
    View.ld_unit_zero (S := S1x512) hz]

/-- Last column tile: the running sum is updated exactly as at an inner tile. -/
theorem sout_C_1 (c : Dev nD) (i : grid0.Coords) (arg2 : Memref sig .tc .vmem S1024x512 .bf16) (harg2 : arg2.IsWhole) (arg3 : Memref sig .tc .vmem S512x512 .bf16) (harg3 : arg3.IsWhole) (arg4 : Memref sig .tc .vmem S1024x1 .f32) (harg4 : arg4.IsWhole) (arg5 : Memref sig .tc .vmem S1x512 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : ¬cond0_0 i) (hc1 : cond0_1 i)
    (x0 : Vec F S1024x512 .bf16) (x1 : Vec F S512x512 .bf16) (x2 : Vec F S1024x1 .f32) (x3 : Vec F S1x512 .f32) (x4 : Vec F S1024x1 .f32) (xs0 : Vec F S1024x1 .f32) (xs1 : Vec F S1024x1 .f32) :
    sout0_C_1 c i arg2 harg2 arg3 harg3 arg4 harg4 arg5 harg5 arg6 harg6 arg7 harg7 arg8 harg8 arg9 harg9 hc0 hc1 x0 x1 x2 x3 x4 xs0 xs1 = k0_pay2 (k0_pay6 i x0 x1 x2 x3) (k0_pay7 i x0 x1 x2 x3 xs0) (k0_pay8 i x0 x1 x2 x3 xs0) xs1 := by
  unfold sout0_C_1
  rw [View.read_writes_eq_canon _ _ _ (scover0_C_1 c i arg2 harg2 arg3 harg3 arg4 harg4 arg5 harg5 arg6 harg6 arg7 harg7 arg8 harg8 arg9 harg9 hc0 hc1 x0 x1 x2 x3 x4 xs0 xs1)]
  unfold kernelRun0_C
  dsimp only
  sl_unfold_words
  rw [View.canon_unit_zero (S := S1024x1) hz]
  simp only [View.readAt_eq_ld, harg2.read_unread, harg3.read_unread, harg4.read_unread, harg5.read_unread,
    harg6.read_unread, harg8.read_unread, harg9.read_unread,
    View.ld_unit_zero (S := S1024x512) hz, View.ld_unit_zero (S := S512x512) hz, View.ld_unit_zero (S := S1024x1) hz,
    View.ld_unit_zero (S := S1x512) hz]

/-- Last column tile: the output block holds the row losses computed from the pair just stored and the block of
    matching cosines. -/
theorem out_C_5 (c : Dev nD) (i : grid0.Coords) (arg2 : Memref sig .tc .vmem S1024x512 .bf16) (harg2 : arg2.IsWhole) (arg3 : Memref sig .tc .vmem S512x512 .bf16) (harg3 : arg3.IsWhole) (arg4 : Memref sig .tc .vmem S1024x1 .f32) (harg4 : arg4.IsWhole) (arg5 : Memref sig .tc .vmem S1x512 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : ¬cond0_0 i) (hc1 : cond0_1 i)
    (x0 : Vec F S1024x512 .bf16) (x1 : Vec F S512x512 .bf16) (x2 : Vec F S1024x1 .f32) (x3 : Vec F S1x512 .f32) (x4 : Vec F S1024x1 .f32) (xs0 : Vec F S1024x1 .f32) (xs1 : Vec F S1024x1 .f32) :
    out0_C_5 c i arg2 harg2 arg3 harg3 arg4 harg4 arg5 harg5 arg6 harg6 arg7 harg7 arg8 harg8 arg9 harg9 hc0 hc1 x0 x1 x2 x3 x4 xs0 xs1
      = k0_pay3 (k0_pay1 (k0_pay7 i x0 x1 x2 x3 xs0)) (k0_pay2 (k0_pay6 i x0 x1 x2 x3) (k0_pay7 i x0 x1 x2 x3 xs0) (k0_pay8 i x0 x1 x2 x3 xs0) xs1) x4 := by
  unfold out0_C_5
  rw [View.read_writes_eq_canon _ _ _ (cover0_C_5 c i arg2 harg2 arg3 harg3 arg4 harg4 arg5 harg5 arg6 harg6 arg7 harg7 arg8 harg8 arg9 harg9 hc0 hc1 x0 x1 x2 x3 x4 xs0 xs1)]
  unfold kernelRun0_C
  dsimp only
  sl_unfold_words
  rw [View.canon_unit_zero (S := S1024x1) hz, View.readCov_unit_zero (S := S1024x1) arg8.view hz,
    View.readCov_unit_zero (S := S1024x1) arg9.view hz]
  simp only [View.readAt_eq_ld, harg2.read_unread, harg3.read_unread, harg4.read_unread, harg5.read_unread,
    harg6.read_unread, harg8.read_unread, harg9.read_unread,
    View.ld_unit_zero (S := S1024x512) hz, View.ld_unit_zero (S := S512x512) hz, View.ld_unit_zero (S := S1024x1) hz,
    View.ld_unit_zero (S := S1x512) hz]

end Cert.KernelIdeal.Pieces

end
-- ==== Proof.LibLayout.lean ====
/-
  Three column forms of vector layout operations read at an index, for any extents: a vector of a values cast to a
  column [a, 1] reads the vector at the row; a column [a, 1] broadcast along a new last axis to [a, b] reads the
  column at the row; a single value [1, 1] broadcast to a column [a, 1] reads that value. (The row forms — a
  leading unit axis added or dropped, one row broadcast over many — are in the library already.)
-/
import Idealize.ShloMosaic.Lib.Pipeline.Value
import Idealize.ShloMosaic.Lib.ValueIdx

noncomputable section

namespace Cert.LibLayout

open Idealize.ShloMosaic Idealize.ShloMosaic.ValueIdx

variable {α : Type}

/-- An `[a]` array cast to the column `[a, 1]` reads, at `(p, z)`, the operand at `p`, whatever the unit coordinate `z`. -/
theorem shapeCast_a_a1_apply {a : ℕ} (x : (⟨1, ![a]⟩ : Shape).Idx → α) (h : (⟨1, ![a]⟩ : Shape).ShapeCasts ⟨2, ![a, 1]⟩)
    (p : Fin a) (z : Fin 1) : shapeCast ⟨2, ![a, 1]⟩ x h (ix2 p z) = x (ix1 p) :=
  shapeCast_apply x h _ _ (by
    have hz : z.val = 0 := by omega
    rw [Shape.rowMajor_val_two, Shape.rowMajor_val_one]
    show p.val = p.val * 1 + z.val
    rw [hz, Nat.mul_one, Nat.add_zero])

/-- A column `[a, 1]` broadcast to `[a, b]` reads, at `(p, c)`, the column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A single value `[1, 1]` broadcast to a column `[a, 1]` reads that value at every row. -/
theorem broadcastTo_11_a1_apply {a : ℕ} (v : (⟨2, ![1, 1]⟩ : Shape).Idx → α) (h : (⟨2, ![1, 1]⟩ : Shape).Broadcasts ⟨2, ![a, 1]⟩)
    (p : Fin a) (z : Fin 1) : broadcastTo ⟨2, ![a, 1]⟩ v h (ix2 p z) = v (ix2 (0 : Fin 1) (0 : Fin 1)) := by
  refine broadcastTo_apply v h (ix2 p z) (ix2 (0 : Fin 1) (0 : Fin 1)) fun ax => ?_
  match ax with
  | ⟨0, _⟩ => rfl
  | ⟨1, _⟩ => rfl

end Cert.LibLayout

end
-- ==== Proof.LibVectorReads.lean ====
/-
  A few vector layout operations and sums read at an entry, in exact arithmetic, for any extents.

  * A bias vector of length `N` cast to one row `[1, N]` and repeated over `R` rows reads, at `(r, n)`, the vector at `n`.
  * A sum over the last axis of a rank-3 array reads, at `(r, m)`, the sum over the last coordinate; the same for a
    rank-2 array at `r`.
  * An `[A, B]` array cast to `[A, 1, B]` reads, at `(r, u, k)`, the operand at `(r, k)`.
  * A `[K, 1]` column cast to a vector of length `K` reads, at `k`, the column at `(k, 0)`.
  * An `[R, 1, C]` array repeated along the middle axis to `[R, n, C]` reads, at `(r, m, k)`, the operand at `(r, 0, k)`.
-/
import Idealize.ShloMosaic.Lib.ValueLayout
import Idealize.ShloMosaic.Lib.Pipeline.Value
import Idealize.ShloMosaic.PureOps.Ideal.Laws

noncomputable section

open scoped BigOperators

namespace Cert.LibVectorReads

open Idealize.ShloMosaic Idealize.ShloMosaic.ValueIdx

/-- A bias vector cast to one row and repeated over `R` rows reads, at `(r, n)`, the vector at `n`. -/
theorem bias_rows_apply {α : Type} {R N : ℕ} (b : (⟨1, ![N]⟩ : Shape).Idx → α)
    (hc : (⟨1, ![N]⟩ : Shape).ShapeCasts ⟨2, ![1, N]⟩) (hb : (⟨2, ![1, N]⟩ : Shape).Broadcasts ⟨2, ![R, N]⟩)
    (r : Fin R) (n : Fin N) :
    broadcastTo ⟨2, ![R, N]⟩ (shapeCast ⟨2, ![1, N]⟩ b hc) hb (ix2 r n) = b (ix1 n) := by
  rw [broadcastTo_1b_ab_apply, shapeCast_a_1a_apply]

/-- The sum over the last axis of an `[A, B, C]` array, at `(r, m)`. -/
theorem sum_last3_apply {A B C : ℕ} (src : FVec Ideal ⟨3, ![A, B, C]⟩ .f32)
    (h : (⟨3, ![A, B, C]⟩ : Shape).Reduces [(2 : Fin 3)] ⟨2, ![A, B]⟩) (hφ : FKind.Formats .f32)
    (hacc : (0x00000000#32 : BitVec 32) = FKind.add.neutral .f32 hφ) (r : Fin A) (m : Fin B) :
    multiReduction .add [(2 : Fin 3)] ⟨2, ![A, B]⟩ src 0x00000000#32 h hφ hacc (ix2 r m)
      = ∑ k : Fin C, src (ix3 r m k) := by
  refine (Ideal.multiReduction_add_single src _ h hφ hacc (ix2 r m)).trans ?_
  refine Finset.sum_congr rfl fun k _ => congrArg src ?_
  funext c
  apply Fin.ext
  match c with
  | ⟨0, _⟩ => rfl
  | ⟨1, _⟩ => rfl
  | ⟨2, _⟩ => rfl

/-- The sum over the last axis of an `[A, B]` array, at `r`. -/
theorem sum_last2_apply {A B : ℕ} (src : FVec Ideal ⟨2, ![A, B]⟩ .f32)
    (h : (⟨2, ![A, B]⟩ : Shape).Reduces [(1 : Fin 2)] ⟨1, ![A]⟩) (hφ : FKind.Formats .f32)
    (hacc : (0x00000000#32 : BitVec 32) = FKind.add.neutral .f32 hφ) (r : Fin A) :
    multiReduction .add [(1 : Fin 2)] ⟨1, ![A]⟩ src 0x00000000#32 h hφ hacc (ix1 r)
      = ∑ k : Fin B, src (ix2 r k) := by
  refine (Ideal.multiReduction_add_single src _ h hφ hacc (ix1 r)).trans ?_
  refine Finset.sum_congr rfl fun k _ => congrArg src ?_
  funext c
  apply Fin.ext
  match c with
  | ⟨0, _⟩ => rfl
  | ⟨1, _⟩ => rfl

/-- An `[A, B]` array cast to `[A, 1, B]` reads, at `(r, u, k)`, the operand at `(r, k)`. -/
theorem shapeCast_ab_a1b_apply {α : Type} {A B : ℕ} (x : (⟨2, ![A, B]⟩ : Shape).Idx → α)
    (h : (⟨2, ![A, B]⟩ : Shape).ShapeCasts ⟨3, ![A, 1, B]⟩) (r : Fin A) (u : Fin 1) (k : Fin B) :
    shapeCast ⟨3, ![A, 1, B]⟩ x h (ix3 r u k) = x (ix2 r k) :=
  shapeCast_apply x h _ _ (by
    have hu : u.val = 0 := by omega
    rw [Shape.rowMajor_val_two, Shape.rowMajor_val_three]
    show r.val * B + k.val = (r.val * 1 + u.val) * B + k.val
    rw [hu, Nat.mul_one, Nat.add_zero])

/-- A `[K, 1]` column cast to a vector reads, at `k`, the column at `(k, 0)`. -/
theorem shapeCast_a1_a_apply {α : Type} {K : ℕ} (x : (⟨2, ![K, 1]⟩ : Shape).Idx → α)
    (h : (⟨2, ![K, 1]⟩ : Shape).ShapeCasts ⟨1, ![K]⟩) (k : Fin K) :
    shapeCast ⟨1, ![K]⟩ x h (ix1 k) = x (ix2 k (0 : Fin 1)) :=
  shapeCast_apply x h _ _ (by
    rw [Shape.rowMajor_val_two, Shape.rowMajor_val_one]
    show k.val * 1 + 0 = k.val
    omega)

/-- An `[R, 1, C]` array repeated along the middle axis reads, at `(r, m, k)`, the operand at `(r, 0, k)`. -/
theorem repeat_mid_apply {α : Type} {R n C : ℕ} (v : (⟨3, ![R, 1, C]⟩ : Shape).Idx → α)
    (h : (⟨3, ![R, 1, C]⟩ : Shape).Broadcasts ⟨3, ![R, n, C]⟩) (r : Fin R) (m : Fin n) (k : Fin C) :
    broadcastTo ⟨3, ![R, n, C]⟩ v h (ix3 r m k) = v (ix3 r (0 : Fin 1) k) := by
  refine broadcastTo_apply v h (ix3 r m k) (ix3 r (0 : Fin 1) k) fun ax => ?_
  match ax with
  | ⟨0, _⟩ =>
    show r.val = if R = 1 then 0 else r.val
    split
    · have := r.isLt; omega
    · rfl
  | ⟨1, _⟩ => rfl
  | ⟨2, _⟩ =>
    show k.val = if C = 1 then 0 else k.val
    split
    · have := k.isLt; omega
    · rfl

end Cert.LibVectorReads

end
-- ==== Proof.KernelPayRest.lean ====
/-
  The carried quantities of the one-pass row loss, read at an entry in exact arithmetic.

  Besides the tile of cosines itself (read elsewhere), the kernel's body computes, per row p of its 1024-row block:
    * the values the running maximum and the running sum start from (minus infinity and zero);
    * the new running maximum: the old one against the largest entry of row p of the tile;
    * the difference "old maximum minus new maximum", whose exponential rescales the old running sum;
    * the new running sum: the rescaled old sum plus the sum over row p of exp (tile entry - new maximum);
    * at the last tile, the row loss from the final pair (maximum, sum) and the matching pair's cosine.
  Each is stated here at the row's index (p, 0) of a [1024, 1] column, as the specification spells it.
-/
import proofs.«124650_j85487029060330_2_alg».proof.Proof.Gen.KernelIdeal.Skeleton
import proofs.«124650_j85487029060330_2_alg».proof.Proof.Spec
import proofs.«124650_j85487029060330_2_alg».proof.Proof.LibLayout
import proofs.«124650_j85487029060330_2_alg».proof.Proof.LibVectorReads

noncomputable section

open scoped BigOperators

namespace Cert.KernelIdeal.Pay

open Cert.KernelIdeal Cert.KernelIdeal.Gen Idealize.ShloMosaic Idealize.ShloMosaic.ValueIdx Cert.NPair

/-- The running maximum starts from minus infinity at every row. -/
theorem pay4_apply (y : S1024x1.Idx) : k0_pay4 (F := Ideal) y = negInf := by
  unfold k0_pay4
  exact congrFun (shapeCast_self _ _) y

/-- The running sum starts from zero at every row. -/
theorem pay5_apply (y : S1024x1.Idx) : k0_pay5 (F := Ideal) y = 0 := by
  unfold k0_pay5
  exact (congrFun (shapeCast_self _ _) y).trans Ideal.ofBits_zero_f32

/-- The stored running maximum is the new maximum itself. -/
theorem pay1_apply (v37 : FVec Ideal S1024x1 .f32) (y : S1024x1.Idx) : k0_pay1 v37 y = v37 y := by
  unfold k0_pay1
  exact congrFun (shapeCast_self _ _) y

/-- The row loss at the last tile: `lossK` of the matching cosine and the final pair (maximum, sum). -/
theorem pay3_apply (v57 v58 v61 : FVec Ideal S1024x1 .f32) (y : S1024x1.Idx) :
    k0_pay3 (F := Ideal) v57 v58 v61 y = lossK (v61 y) (v57 y, v58 y) := by
  unfold k0_pay3
  rw [shapeCast_self]
  rfl

/-- The largest entry of each row of a two-axis array: the reduction by maximum over the last axis, started from the
    word of minus infinity, read at row `r` is the fold of `max` over that row's entries. Any extents. -/
theorem max_last2_apply {A B : ℕ} (src : FVec Ideal ⟨2, ![A, B]⟩ .f32)
    (h : (⟨2, ![A, B]⟩ : Shape).Reduces [(1 : Fin 2)] ⟨1, ![A]⟩) (hφ : FKind.Formats .f32)
    (hacc : (0xFF800000#32 : BitVec 32) = FKind.maximumf.neutral .f32 hφ) (r : Fin A) :
    multiReduction .maximumf [(1 : Fin 2)] ⟨1, ![A]⟩ src 0xFF800000#32 h hφ hacc (ix1 r)
      = Finset.univ.fold max (Ideal.ofBits .f32 0xFF800000#32) (fun k : Fin B => src (ix2 r k)) := by
  refine (Ideal.multiReduction_maximumf_single src _ h hφ hacc (ix1 r)).trans ?_
  refine congrArg (Finset.univ.fold max _) ?_
  funext k
  refine congrArg src ?_
  funext c
  apply Fin.ext
  match c with
  | ⟨0, _⟩ => rfl
  | ⟨1, _⟩ => rfl

/-- The new running maximum of row p: the old one against the largest entry of row p of the tile of cosines. -/
theorem pay7_apply (i : grid0.Coords) (x0 : FVec Ideal S1024x512 .bf16) (x1 : FVec Ideal S512x512 .bf16)
    (x2 : FVec Ideal S1024x1 .f32) (x3 : FVec Ideal S1x512 .f32) (v36 : FVec Ideal S1024x1 .f32) (p : Fin 1024) :
    k0_pay7 (F := Ideal) i x0 x1 x2 x3 v36 (ix2 p (0 : Fin 1))
      = max (v36 (ix2 p (0 : Fin 1)))
          (Finset.univ.fold max negInf (fun q : Fin 512 => k0_pay6 (F := Ideal) i x0 x1 x2 x3 (ix2 p q))) := by
  unfold k0_pay7
  refine congrArg (max (v36 (ix2 p (0 : Fin 1)))) ?_
  refine (LibLayout.shapeCast_a_a1_apply _ _ p (0 : Fin 1)).trans ?_
  exact max_last2_apply _ _ _ _ p

/-- The exponent that rescales the old running sum: old maximum minus new maximum. -/
theorem pay8_apply (i : grid0.Coords) (x0 : FVec Ideal S1024x512 .bf16) (x1 : FVec Ideal S512x512 .bf16)
    (x2 : FVec Ideal S1024x1 .f32) (x3 : FVec Ideal S1x512 .f32) (v36 : FVec Ideal S1024x1 .f32) (p : Fin 1024) :
    k0_pay8 (F := Ideal) i x0 x1 x2 x3 v36 (ix2 p (0 : Fin 1))
      = v36 (ix2 p (0 : Fin 1)) - k0_pay7 (F := Ideal) i x0 x1 x2 x3 v36 (ix2 p (0 : Fin 1)) := rfl

/-- The new running sum of row p: the old sum rescaled, plus the sum over row p of the exponentials of the tile's
    entries shifted by the new maximum. -/
theorem pay2_apply (v33 : FVec Ideal S1024x512 .f32) (v37 v38 v43 : FVec Ideal S1024x1 .f32) (p : Fin 1024) :
    k0_pay2 (F := Ideal) v33 v37 v38 v43 (ix2 p (0 : Fin 1))
      = Ideal.exp (v38 (ix2 p (0 : Fin 1))) * v43 (ix2 p (0 : Fin 1))
          + ∑ q : Fin 512, Ideal.exp (v33 (ix2 p q) - v37 (ix2 p (0 : Fin 1))) := by
  unfold k0_pay2
  refine (congrFun (shapeCast_self _ _) (ix2 p (0 : Fin 1))).trans ?_
  refine congrArg (Ideal.exp (v38 (ix2 p (0 : Fin 1))) * v43 (ix2 p (0 : Fin 1)) + ·) ?_
  refine (LibLayout.shapeCast_a_a1_apply _ _ p (0 : Fin 1)).trans ?_
  refine (LibVectorReads.sum_last2_apply _ _ _ _ p).trans ?_
  refine Finset.sum_congr rfl fun q _ => ?_
  exact congrArg (fun z => Ideal.exp (v33 (ix2 p q) - z)) (LibLayout.broadcastTo_a1_ab_apply v37 _ p q)

end Cert.KernelIdeal.Pay

end
-- ==== Proof.LibRowDot.lean ====
/-
  A matrix product whose right factor is contracted along its SECOND axis: `x · wᵀ` without a separate transposition.

  A matrix unit fed an `R × K` left factor and an `N × K` right factor, with dimension numbers that contract the
  second axis of both (`[1] × [1]`, nothing batched), accumulated into the zero matrix and read at exact arithmetic, is
  at the entry `(p, n)` the sum over the contracted coordinate `a : Fin K` of `l (p, a) * r (n, a)`; accumulated into any
  matrix `acc` it is `acc (p, n)` plus that sum. The four hypotheses say the dimension numbers are the ones described:
  each factor's index takes its row from the output index (the left factor from the output's row, the right factor
  from the output's column) and its column from the contraction index. Any extents, any float formats of the factors.
-/
import Idealize.ShloMosaic.PureOps.Ideal.Laws
import Idealize.ShloMosaic.Lib.ValueIdx

noncomputable section

open scoped BigOperators

namespace Cert.LibRowDot

open Idealize.ShloMosaic Idealize.ShloMosaic.ValueIdx

/-- `x · wᵀ` accumulated into `acc`, read at `(p, n)` in exact arithmetic: `acc (p, n) + ∑ a, l (p, a) * r (n, a)`. -/
theorem matmul_rows {R K N : Nat} {φ₁ φ₂ : FTy}
    (D : DotDims ⟨2, ![R, K]⟩ ⟨2, ![N, K]⟩ ⟨2, ![R, N]⟩) (hr : D.contr.rank = 1)
    (hs : D.contr.size ⟨0, by omega⟩ = K)
    (hl0 : ∀ i q, (D.lhsIdx i q 0).val = (i 0).val)
    (hl1 : ∀ i q, (D.lhsIdx i q 1).val = (q ⟨0, by omega⟩).val)
    (hr0 : ∀ i q, (D.rhsIdx i q 0).val = (i 1).val)
    (hr1 : ∀ i q, (D.rhsIdx i q 1).val = (q ⟨0, by omega⟩).val)
    (prec : Option ContractPrecision) (l : FVec Ideal ⟨2, ![R, K]⟩ φ₁) (r : FVec Ideal ⟨2, ![N, K]⟩ φ₂)
    (acc : FVec Ideal ⟨2, ![R, N]⟩ .f32) (p : Fin R) (n : Fin N) :
    FloatOps.matmul D prec l r acc (ix2 p n) = acc (ix2 p n) + ∑ a : Fin K, l (ix2 p a) * r (ix2 n a) := by
  rw [Ideal.matmul_apply, ← Equiv.sum_comp (contrEquiv1 D K hr hs).symm]
  refine congrArg (acc (ix2 p n) + ·) (Finset.sum_congr rfl fun k _ => ?_)
  have hk := contrEquiv1_symm_val D K hr hs k
  have el : D.lhsIdx (ix2 p n) ((contrEquiv1 D K hr hs).symm k) = ix2 p k := funext fun a => Fin.ext (by
    match a with
    | ⟨0, _⟩ => exact hl0 _ _
    | ⟨1, _⟩ => exact (hl1 _ _).trans hk)
  have er : D.rhsIdx (ix2 p n) ((contrEquiv1 D K hr hs).symm k) = ix2 n k := funext fun a => Fin.ext (by
    match a with
    | ⟨0, _⟩ => exact hr0 _ _
    | ⟨1, _⟩ => exact (hr1 _ _).trans hk)
  rw [el, er]

/-- The same accumulated into the zero matrix: the sum alone. -/
theorem matmul_rows_zero {R K N : Nat} {φ₁ φ₂ : FTy}
    (D : DotDims ⟨2, ![R, K]⟩ ⟨2, ![N, K]⟩ ⟨2, ![R, N]⟩) (hr : D.contr.rank = 1)
    (hs : D.contr.size ⟨0, by omega⟩ = K)
    (hl0 : ∀ i q, (D.lhsIdx i q 0).val = (i 0).val)
    (hl1 : ∀ i q, (D.lhsIdx i q 1).val = (q ⟨0, by omega⟩).val)
    (hr0 : ∀ i q, (D.rhsIdx i q 0).val = (i 1).val)
    (hr1 : ∀ i q, (D.rhsIdx i q 1).val = (q ⟨0, by omega⟩).val)
    (prec : Option ContractPrecision) (l : FVec Ideal ⟨2, ![R, K]⟩ φ₁) (r : FVec Ideal ⟨2, ![N, K]⟩ φ₂)
    (p : Fin R) (n : Fin N) :
    FloatOps.matmul D prec l r (constant ⟨2, ![R, N]⟩ .f32 0x00000000#32) (ix2 p n)
      = ∑ a : Fin K, l (ix2 p a) * r (ix2 n a) := by
  rw [matmul_rows D hr hs hl0 hl1 hr0 hr1 prec l r _ p n]
  show Ideal.ofBits .f32 0x00000000#32 + _ = _
  rw [Ideal.ofBits_zero_f32, zero_add]

end Cert.LibRowDot

end
-- ==== Proof.KernelPayTile.lean ====
/-
  The tile of cosines, read at an entry in exact arithmetic.

  At grid point (i0, j0) the kernel's body holds 1024 anchor rows (block i0), 512 positive rows (block j0), the
  anchors' norms as a column and the positives' norms as a row. Entry (p, q) of its [1024, 512] tile is
    * on the diagonal of the whole 8192 x 8192 matrix, i0 * 1024 + p = j0 * 512 + q: the anchor's cosine with
      itself, the squared norm over the clamped squared norm;
    * off it: the inner product of anchor row p and positive row q over the clamped product of their norms.
  The diagonal is found by comparing two 32-bit words; both stay below 8192, so the comparison of words is the
  comparison of the numbers.
-/
import proofs.«124650_j85487029060330_2_alg».proof.Proof.Gen.KernelIdeal.Skeleton
import proofs.«124650_j85487029060330_2_alg».proof.Proof.Spec
import proofs.«124650_j85487029060330_2_alg».proof.Proof.LibLayout
import proofs.«124650_j85487029060330_2_alg».proof.Proof.LibRowDot
import Idealize.ShloMosaic.Lib.ValueLayout

noncomputable section

open scoped BigOperators

namespace Cert.KernelIdeal.Pay

open Cert.KernelIdeal Cert.KernelIdeal.Gen Idealize.ShloMosaic Idealize.ShloMosaic.ValueIdx Cert.NPair

/-- Two 32-bit words a * 1024 + p and b * 512 + q, computed in words, are equal exactly when the numbers are, as long
    as neither reaches 2^32. -/
theorem word_eq_iff (a p b q : ℕ) (h1 : a * 1024 + p < 4294967296) (h2 : b * 512 + q < 4294967296) :
    (BitVec.ofNat 32 a * 1024#32 + BitVec.ofNat 32 p = BitVec.ofNat 32 b * 512#32 + BitVec.ofNat 32 q)
      ↔ a * 1024 + p = b * 512 + q := by
  rw [← BitVec.ofNat_mul, ← BitVec.ofNat_mul, ← BitVec.ofNat_add, ← BitVec.ofNat_add]
  constructor
  · intro h
    have h' := congrArg BitVec.toNat h
    rw [BitVec.toNat_ofNat, BitVec.toNat_ofNat] at h'
    omega
  · intro h
    rw [h]

/-- The inner products: entry (p, q) of the matrix unit's result is the sum over the 512 features of
    anchor row p times positive row q. -/
theorem dots_apply (x0 : FVec Ideal S1024x512 .bf16) (x1 : FVec Ideal S512x512 .bf16) (p : Fin 1024) (q : Fin 512) :
    matmul (F := Ideal) dot_S1024x512_S512x512_S1024x512_1_1_0_0_n_n none x0 x1
        (constant (F := Ideal) S1024x512 .f32 0x00000000#32) (ix2 p q)
      = ∑ d : Fin 512, x0 (ix2 p d) * x1 (ix2 q d) :=
  LibRowDot.matmul_rows_zero dot_S1024x512_S512x512_S1024x512_1_1_0_0_n_n rfl rfl
    (fun _ _ => rfl) (fun j k => DotDims.lhsIdx_val_of_single _ rfl j k)
    (fun _ _ => rfl) (fun j k => DotDims.rhsIdx_val_of_single _ rfl j k) none x0 x1 p q

/-- The diagonal's mask at entry (p, q) of the tile at grid point (a, b): the words a * 1024 + p and b * 512 + q are
    compared, and below the grid's extents the comparison of words is the comparison of numbers. -/
theorem mask_apply (a b : ℕ) (ha : a < 8) (hb : b < 16) (h0 : S1024x512.Iotas .tc 32 [0]) (h1 : S1024x512.Iotas .tc 32 [1])
    (p : Fin 1024) (q : Fin 512) :
    cmpi .eq (addi (broadcast S1024x512 (Scalar.muli (BitVec.ofNat 32 a) 1024#32)) (iota .tc S1024x512 32 [0] h0))
        (addi (broadcast S1024x512 (Scalar.muli (BitVec.ofNat 32 b) 512#32)) (iota .tc S1024x512 32 [1] h1)) (ix2 p q)
      = BitVec.ofBool (decide (a * 1024 + p.val = b * 512 + q.val)) := by
  show IntOp.cmpi .eq (IntOp.addi (Scalar.muli (BitVec.ofNat 32 a) 1024#32) (iota .tc S1024x512 32 [0] h0 (ix2 p q)))
      (IntOp.addi (Scalar.muli (BitVec.ofNat 32 b) 512#32) (iota .tc S1024x512 32 [1] h1 (ix2 p q))) = _
  rw [iota_single_apply, iota_single_apply]
  show BitVec.ofBool (BitVec.ofNat 32 a * 1024#32 + BitVec.ofNat 32 p.val == BitVec.ofNat 32 b * 512#32 + BitVec.ofNat 32 q.val) = _
  refine congrArg BitVec.ofBool ?_
  have hp := p.isLt
  have hq := q.isLt
  have key := word_eq_iff a p.val b q.val (by omega) (by omega)
  rw [Bool.eq_iff_iff]
  simp only [beq_iff_eq, decide_eq_true_eq]
  exact key

/-- A select on a decided proposition's bit is the `if`. -/
theorem select_ofBool {α : Type} (P : Prop) [Decidable P] (x y : α) :
    Scalar.select (BitVec.ofBool (decide P)) x y = if P then x else y := by
  by_cases h : P
  · rw [if_pos h, decide_eq_true h]; rfl
  · rw [if_neg h, decide_eq_false h]; rfl

/-- The diagonal's replacement at entry (p, q): row p's squared norm over its clamp, whatever the column. -/
theorem diag_apply (v9 : FVec Ideal S1024x1 .f32) (hb : S1024x1.Broadcasts S1024x512) (p : Fin 1024) (q : Fin 512) :
    broadcastTo S1024x512
        (divf (mulf v9 v9) (maximumf (mulf v9 v9) (broadcast S1024x1 (Scalar.ofBits (F := Ideal) .f32 0x322BCC77#32))))
        hb (ix2 p q)
      = Ideal.div (v9 (ix2 p (0 : Fin 1)) * v9 (ix2 p (0 : Fin 1)))
          (clampMul (v9 (ix2 p (0 : Fin 1))) (v9 (ix2 p (0 : Fin 1)))) :=
  LibLayout.broadcastTo_a1_ab_apply _ hb p q

/-- The clamped product of norms under entry (p, q): row p's norm from the column, row q's from the row. -/
theorem denom_apply (v9 : FVec Ideal S1024x1 .f32) (v11 : FVec Ideal S1x512 .f32)
    (hb1 : S1024x1.Broadcasts S1024x512) (hb2 : S1x512.Broadcasts S1024x512) (p : Fin 1024) (q : Fin 512) :
    maximumf (mulf (broadcastTo S1024x512 v9 hb1) (broadcastTo S1024x512 v11 hb2))
        (broadcast S1024x512 (Scalar.ofBits (F := Ideal) .f32 0x322BCC77#32)) (ix2 p q)
      = clampMul (v9 (ix2 p (0 : Fin 1))) (v11 (ix2 (0 : Fin 1) q)) := by
  show max (broadcastTo S1024x512 v9 hb1 (ix2 p q) * broadcastTo S1024x512 v11 hb2 (ix2 p q)) epsv = _
  rw [LibLayout.broadcastTo_a1_ab_apply, broadcastTo_1b_ab_apply]
  rfl

/-- THE TILE AT AN ENTRY: on the diagonal of the whole matrix the anchor's cosine with itself, off it the cosine of
    anchor row p and positive row q. -/
theorem pay6_apply (i : grid0.Coords) (x0 : FVec Ideal S1024x512 .bf16) (x1 : FVec Ideal S512x512 .bf16)
    (x2 : FVec Ideal S1024x1 .f32) (x3 : FVec Ideal S1x512 .f32) (p : Fin 1024) (q : Fin 512) :
    k0_pay6 (F := Ideal) i x0 x1 x2 x3 (ix2 p q) =
      if (i 0).val * 1024 + p.val = (i 1).val * 512 + q.val
      then Ideal.div (x2 (ix2 p (0 : Fin 1)) * x2 (ix2 p (0 : Fin 1)))
        (clampMul (x2 (ix2 p (0 : Fin 1))) (x2 (ix2 p (0 : Fin 1))))
      else Ideal.div (∑ d : Fin 512, x0 (ix2 p d) * x1 (ix2 q d))
        (clampMul (x2 (ix2 p (0 : Fin 1))) (x3 (ix2 (0 : Fin 1) q))) := by
  unfold k0_pay6
  simp only [shapeCast_self]
  refine (select_apply _ _ _ (ix2 p q)).trans ?_
  rw [mask_apply (i 0).val (i 1).val (i 0).isLt (i 1).isLt _ _ p q, select_ofBool]
  rw [diag_apply x2 _ p q]
  refine congrArg (fun z => if (i 0).val * 1024 + p.val = (i 1).val * 512 + q.val then _ else z) ?_
  refine (divf_apply _ _ (ix2 p q)).trans ?_
  rw [dots_apply, denom_apply]

end Cert.KernelIdeal.Pay

end
-- ==== Proof.KernelHostIn.lean ====
/-
  The host lines of the kernel's program before its region, read as mathematics on the extended reals.

  The program slices the input x[8192, 2, 512] into its anchor rows x[i, 0, :] and its positive rows x[i, 1, :] (a slice
  followed by a reshape that drops the unit axis), takes each row's Euclidean norm (the square root of a sum started from
  zero), the inner product of each anchor with its own positive, divides that by the clamped product of the two norms,
  and hands the region five arrays: the anchor rows and the positive rows (a change of float format, which is the
  identity on the extended reals), the anchor norms as a column [8192, 1], the positive norms as a row [1, 8192], and the
  matching cosines as a column [8192, 1].

  Each array is first written as the operations' composed term over the input, and then read at an index built from
  its coordinates.
-/
import proofs.«124650_j85487029060330_2_alg».proof.Proof.Gen.KernelIdeal.Frame
import proofs.«124650_j85487029060330_2_alg».proof.Proof.Spec
import Idealize.ShloMosaic.Lib.Pipeline.Value
import Idealize.ShloMosaic.Lib.ValueIdx
import Idealize.ShloMosaic.PureOps.Ideal.Laws

noncomputable section

open scoped BigOperators

namespace Cert.KernelIdeal.HostVal

open Cert.KernelIdeal Cert.KernelIdeal.Gen Idealize.ShloMosaic Idealize.ShloMosaic.TcCoe Idealize.SL.Sem Idealize.ShloMosaic.StableHlo
open Idealize.ShloMosaic.ValueIdx Cert.NPair

/-! ## The operations, each read at an index -/

/-- The rows x[i, 0, :] as an [8192, 512] array: the slice, then the reshape that drops the unit axis. -/
def anchorRows (x : FVec Ideal S8192x2x512 .f32) : FVec Ideal S8192x512 .f32 :=
  shapeCast S8192x512 (extractStridedSlice S8192x1x512 ![0, 0, 0] x slices_S8192x2x512_S8192x1x512_0_0_0) shapeCasts_S8192x1x512_S8192x512

/-- The rows x[i, 1, :] as an [8192, 512] array. -/
def positiveRows (x : FVec Ideal S8192x2x512 .f32) : FVec Ideal S8192x512 .f32 :=
  shapeCast S8192x512 (extractStridedSlice S8192x1x512 ![0, 1, 0] x slices_S8192x2x512_S8192x1x512_0_1_0) shapeCasts_S8192x1x512_S8192x512

/-- Entry (i, d) of the anchor rows is x[i, 0, d]: the reshape keeps the row-major position, the slice starts at 0. -/
theorem anchorRows_apply (x : FVec Ideal S8192x2x512 .f32) (i : Fin 8192) (d : Fin 512) :
    anchorRows x (ix2 i d) = x (ix3 i (0 : Fin 2) d) := by
  unfold anchorRows
  refine (shapeCast_apply _ shapeCasts_S8192x1x512_S8192x512 (ix2 i d) (ix3 i (0 : Fin 1) d) ?_).trans ?_
  · rewrite [Shape.rowMajor_val_three, Shape.rowMajor_val_two]
    show (i.val * 1 + 0) * 512 + d.val = i.val * 512 + d.val
    omega
  · exact extractStridedSlice_apply ![0, 0, 0] x slices_S8192x2x512_S8192x1x512_0_0_0 (ix3 i (0 : Fin 1) d) (ix3 i (0 : Fin 2) d)
      (fun a => match a with
        | ⟨0, _⟩ => by show i.val = 0 + i.val; omega
        | ⟨1, _⟩ => by show 0 = 0 + 0; omega
        | ⟨2, _⟩ => by show d.val = 0 + d.val; omega)

/-- Entry (j, d) of the positive rows is x[j, 1, d]: the slice starts at 1 on the middle axis. -/
theorem positiveRows_apply (x : FVec Ideal S8192x2x512 .f32) (j : Fin 8192) (d : Fin 512) :
    positiveRows x (ix2 j d) = x (ix3 j (1 : Fin 2) d) := by
  unfold positiveRows
  refine (shapeCast_apply _ shapeCasts_S8192x1x512_S8192x512 (ix2 j d) (ix3 j (0 : Fin 1) d) ?_).trans ?_
  · rewrite [Shape.rowMajor_val_three, Shape.rowMajor_val_two]
    show (j.val * 1 + 0) * 512 + d.val = j.val * 512 + d.val
    omega
  · exact extractStridedSlice_apply ![0, 1, 0] x slices_S8192x2x512_S8192x1x512_0_1_0 (ix3 j (0 : Fin 1) d) (ix3 j (1 : Fin 2) d)
      (fun a => match a with
        | ⟨0, _⟩ => by show j.val = 0 + j.val; omega
        | ⟨1, _⟩ => by show 1 = 1 + 0; omega
        | ⟨2, _⟩ => by show d.val = 0 + d.val; omega)

/-- The sum over the second axis of an [8192, 512] array, started from the zero literal. -/
def rowSum (y : FVec Ideal S8192x512 .f32) : FVec Ideal S8192 .f32 :=
  Host.reduceAdd (F := Ideal) y (constant (F := Ideal) S_ .f32 0x00000000#32) reducesTo_S8192x512_S8192_d1 h_S_

/-- Entry i of the row sums: zero plus the sum of row i. -/
theorem rowSum_apply (y : FVec Ideal S8192x512 .f32) (i : Fin 8192) :
    rowSum y (ix1 i) = 0 + ∑ d : Fin 512, y (ix2 i d) := by
  unfold rowSum
  simp only [Host.reduceAdd, Ideal.hostReduceAdd_def]
  rw [Ideal.hostReduceAdd_single reducesTo_S8192x512_S8192_d1 (by decide)]
  refine congrArg₂ (· + ·) Ideal.ofBits_zero_f32 (Finset.sum_congr rfl fun d _ => ?_)
  exact congrArg y (funext fun a => Fin.ext (by match a with | ⟨0, _⟩ => rfl | ⟨1, _⟩ => rfl))

/-- The Euclidean norms of the rows of an [8192, 512] array, as the program computes them. -/
def rowNorms (y : FVec Ideal S8192x512 .f32) : FVec Ideal S8192 .f32 :=
  Host.sqrt (F := Ideal) (rowSum (mulf y y))

theorem rowNorms_apply (y : FVec Ideal S8192x512 .f32) (i : Fin 8192) :
    rowNorms y (ix1 i) = Ideal.sqrt (0 + ∑ d : Fin 512, y (ix2 i d) * y (ix2 i d)) := by
  show Ideal.sqrt (rowSum (mulf y y) (ix1 i)) = _
  rw [rowSum_apply]
  rfl

/-- A vector of length 8192 as a column [8192, 1] … -/
theorem column_apply (v : FVec Ideal S8192 .f32) (i : Fin 8192) :
    shapeCast S8192x1 v shapeCasts_S8192_S8192x1 (ix2 i (0 : Fin 1)) = v (ix1 i) :=
  shapeCast_apply v shapeCasts_S8192_S8192x1 (ix2 i (0 : Fin 1)) (ix1 i) (by
    rewrite [Shape.rowMajor_val_one, Shape.rowMajor_val_two]
    show i.val = i.val * 1 + 0
    omega)

/-- … and as a row [1, 8192]. -/
theorem row_apply (v : FVec Ideal S8192 .f32) (j : Fin 8192) :
    shapeCast S1x8192 v shapeCasts_S8192_S1x8192 (ix2 (0 : Fin 1) j) = v (ix1 j) :=
  shapeCast_apply v shapeCasts_S8192_S1x8192 (ix2 (0 : Fin 1) j) (ix1 j) (by
    rewrite [Shape.rowMajor_val_one, Shape.rowMajor_val_two]
    show j.val = 0 * 8192 + j.val
    omega)

/-- The matching cosines as the program computes them from the two families of rows: the row-wise inner product over the
    product of the norms clamped below by the literal. -/
def cosines (a p : FVec Ideal S8192x512 .f32) : FVec Ideal S8192 .f32 :=
  Host.divf (F := Ideal) (rowSum (mulf a p))
    (maximumf (mulf (rowNorms a) (rowNorms p)) (broadcastInDim S8192 ![] bcast_S_S8192 (constant (F := Ideal) S_ .f32 0x322BCC77#32)))

theorem cosines_apply (a p : FVec Ideal S8192x512 .f32) (i : Fin 8192) :
    cosines a p (ix1 i)
      = Ideal.div (0 + ∑ d : Fin 512, a (ix2 i d) * p (ix2 i d)) (max (rowNorms a (ix1 i) * rowNorms p (ix1 i)) epsv) := by
  show Ideal.div (rowSum (mulf a p) (ix1 i))
      (max (rowNorms a (ix1 i) * rowNorms p (ix1 i))
        (broadcastInDim S8192 ![] bcast_S_S8192 (constant (F := Ideal) S_ .f32 0x322BCC77#32) (ix1 i))) = _
  rw [rowSum_apply, broadcastInDim_apply _ bcast_S_S8192 _ (ix1 i) ix0 (fun a => a.elim0)]
  rfl

/-! ## The arrays the region finds -/

variable (m : (ℓ : Loc nD τ sig) → Buf (Elt Ideal) ℓ) (c : Dev nD)

set_option quotPrecheck false in
local notation "xin" => (m ((c : Thread nD τ).loc main_arg0) : Arr3)

/-- The host lines before the region, as one list. -/
local macro "host_before" : tactic =>
  `(tactic| (dsimp only [Gen.V, Gen.V0]
             simp only [Gen.hostOps0, Gen.hostOps0_1, Gen.hostOps0_2, Gen.hostOps0_3, List.flatten_cons, List.flatten_nil,
               List.append_nil, List.cons_append, List.nil_append]
             after_results_simp))

theorem V15_eq : (V m c main_v15 : S8192x512.Idx → EReal) = truncf .bf16 (anchorRows xin) bitsLt_bf16_f32 := by
  host_before; rfl

theorem V16_eq : (V m c main_v16 : S8192x512.Idx → EReal) = truncf .bf16 (positiveRows xin) bitsLt_bf16_f32 := by
  host_before; rfl

theorem V12_eq : (V m c main_v12 : S8192x1.Idx → EReal) = shapeCast S8192x1 (rowNorms (anchorRows xin)) shapeCasts_S8192_S8192x1 := by
  host_before; rfl

theorem V13_eq : (V m c main_v13 : S1x8192.Idx → EReal) = shapeCast S1x8192 (rowNorms (positiveRows xin)) shapeCasts_S8192_S1x8192 := by
  host_before; rfl

theorem V14_eq : (V m c main_v14 : S8192x1.Idx → EReal)
    = shapeCast S8192x1 (cosines (anchorRows xin) (positiveRows xin)) shapeCasts_S8192_S8192x1 := by
  host_before; rfl

/-- The region's first array holds the anchors. -/
theorem V_anchors (i : Fin 8192) (d : Fin 512) : (V m c main_v15 : S8192x512.Idx → EReal) (ix2 i d) = anchors xin i d := by
  rw [V15_eq]; exact anchorRows_apply _ i d

/-- Its second the positives. -/
theorem V_positives (j : Fin 8192) (d : Fin 512) : (V m c main_v16 : S8192x512.Idx → EReal) (ix2 j d) = positives xin j d := by
  rw [V16_eq]; exact positiveRows_apply _ j d

theorem anchorNorm_eq (i : Fin 8192) : rowNorms (anchorRows xin) (ix1 i) = rowNorm (anchors xin i) := by
  rw [rowNorms_apply]; simp only [anchorRows_apply]; rfl

theorem positiveNorm_eq (j : Fin 8192) : rowNorms (positiveRows xin) (ix1 j) = rowNorm (positives xin j) := by
  rw [rowNorms_apply]; simp only [positiveRows_apply]; rfl

/-- Its third the anchors' norms, as a column. -/
theorem V_anorm (i : Fin 8192) : (V m c main_v12 : S8192x1.Idx → EReal) (ix2 i (0 : Fin 1)) = rowNorm (anchors xin i) := by
  rw [V12_eq, column_apply]; exact anchorNorm_eq m c i

/-- Its fourth the positives' norms, as a row. -/
theorem V_pnorm (j : Fin 8192) : (V m c main_v13 : S1x8192.Idx → EReal) (ix2 (0 : Fin 1) j) = rowNorm (positives xin j) := by
  rw [V13_eq, row_apply]; exact positiveNorm_eq m c j

/-- Its fifth the matching cosines, as a column. -/
theorem V_possim (i : Fin 8192) : (V m c main_v14 : S8192x1.Idx → EReal) (ix2 i (0 : Fin 1)) = posSim (anchors xin) (positives xin) i := by
  rw [V14_eq, column_apply, cosines_apply, anchorNorm_eq, positiveNorm_eq]
  simp only [anchorRows_apply, positiveRows_apply]
  rfl

end Cert.KernelIdeal.HostVal

end
-- ==== Proof.KernelGrid.lean ====
/-
  The walk along the grid. The kernel's grid is 8 row blocks (1024 input rows each) by 16 column tiles (512 input rows
  each), visited row block by row block, the column tiles of a row block in order. At grid point t = 16·i0 + j0 the body
  forms the tile of cosines of the anchors of row block i0 against the positives of column tile j0 (the diagonal entry
  replaced by the anchor's own cosine where the two input rows coincide), and updates, for each of the 1024 rows, a running
  maximum and a running sum of exponentials kept in two carried vectors; the first column tile restarts the pair from
  (−inf, 0), the last one folds the matching pair's cosine in and writes the 1024 row losses to the output block.

  Shown here, by induction along the grid: after point t the carried pair of row p is the specification's running pair
  `onl` of that row of cosines after j0 + 1 tiles, and at j0 = 15 the output block holds the row losses `rowK`.
-/
import proofs.«124650_j85487029060330_2_alg».proof.Proof.Gen.KernelIdeal.Frame
import proofs.«124650_j85487029060330_2_alg».proof.Proof.Spec
import proofs.«124650_j85487029060330_2_alg».proof.Proof.KernelPieces
import proofs.«124650_j85487029060330_2_alg».proof.Proof.KernelPayRest
import proofs.«124650_j85487029060330_2_alg».proof.Proof.KernelPayTile
import proofs.«124650_j85487029060330_2_alg».proof.Proof.KernelHostIn
import Idealize.ShloMosaic.Lib.Pipeline.Value
import Idealize.ShloMosaic.Lib.ValueIdx

set_option maxRecDepth 16384

noncomputable section

open scoped BigOperators

namespace Cert.KernelIdeal.Grid

open Cert.KernelIdeal Cert.KernelIdeal.Gen Cert.NPair
open Idealize.ShloMosaic Idealize.ShloMosaic.TcCoe Idealize.SL.Sem Idealize.ShloMosaic.ValueIdx
open Cert.KernelIdeal.Pieces Cert.KernelIdeal.Pay Cert.KernelIdeal.HostVal

variable (m : (ℓ : Loc nD τ sig) → Buf (Elt Ideal) ℓ) (c : Dev nD)

/-- The anchors of the input array. -/
abbrev anc : Mat := anchors (m ((c : Thread nD τ).loc main_arg0))
/-- The positives of the input array. -/
abbrev pos : Mat := positives (m ((c : Thread nD τ).loc main_arg0))

/-- Grid point t is (t / 16, t % 16): row block, then column tile. -/
theorem coords_facts : ∀ t : Fin cfg0.N, ((grid0.coords t) 0).val = t.val / 16 ∧ ((grid0.coords t) 1).val = t.val % 16 :=
  (by decide +kernel : ∀ t : Fin grid0.N, _)

/-- The printed index maps over the grid: windows 0, 2, 4 and 5 follow the row block, windows 1 and 3 the column tile. -/
theorem idx_facts : ∀ t : Fin cfg0.N,
    win0_0.index t (0 : Fin 2) = t.val / 16 ∧ win0_0.index t (1 : Fin 2) = 0
    ∧ win0_1.index t (0 : Fin 2) = t.val % 16 ∧ win0_1.index t (1 : Fin 2) = 0
    ∧ win0_2.index t (0 : Fin 2) = t.val / 16 ∧ win0_2.index t (1 : Fin 2) = 0
    ∧ win0_3.index t (0 : Fin 2) = 0 ∧ win0_3.index t (1 : Fin 2) = t.val % 16
    ∧ win0_4.index t (0 : Fin 2) = t.val / 16 ∧ win0_4.index t (1 : Fin 2) = 0 :=
  (by decide +kernel : ∀ t : Fin grid0.N, _)

/-- The input row that row p of point t's row block is. -/
def rowOf (t : Fin cfg0.N) (p : Fin 1024) : Fin 8192 :=
  ⟨t.val / 16 * 1024 + p.val, by have := t.isLt; have hN : cfg0.N = 128 := N_0; have := p.isLt; omega⟩

/-- The input row that row q of point t's column tile is. -/
def colOf (t : Fin cfg0.N) (q : Fin 512) : Fin 8192 :=
  ⟨t.val % 16 * 512 + q.val, by have := q.isLt; omega⟩

/-- Window 0's block at point t holds the anchors of the point's row block. -/
theorem blk0 (t : Fin cfg0.N) (p : Fin 1024) (d : Fin 512) :
    (iblk m c 0 t : Vec Ideal S1024x512 .bf16) (ix2 p d) = anc m c (rowOf t p) d := by
  obtain ⟨e0, e1, -⟩ := idx_facts t
  refine Eq.trans ?_ (V_anchors m c (rowOf t p) d)
  unfold iblk
  rw [View.read_apply]
  show V m c main_v15 _ = V m c main_v15 _
  congr 1
  funext a
  apply Fin.ext
  match a with
  | ⟨0, _⟩ => show win0_0.index t 0 * 1024 + 1 * p.val = t.val / 16 * 1024 + p.val; rw [e0]; omega
  | ⟨1, _⟩ => show win0_0.index t 1 * 512 + 1 * d.val = d.val; rw [e1]; omega

/-- Window 1's block at point t holds the positives of the point's column tile. -/
theorem blk1 (t : Fin cfg0.N) (q : Fin 512) (d : Fin 512) :
    (iblk m c 1 t : Vec Ideal S512x512 .bf16) (ix2 q d) = pos m c (colOf t q) d := by
  obtain ⟨-, -, e0, e1, -⟩ := idx_facts t
  refine Eq.trans ?_ (V_positives m c (colOf t q) d)
  unfold iblk
  rw [View.read_apply]
  show V m c main_v16 _ = V m c main_v16 _
  congr 1
  funext a
  apply Fin.ext
  match a with
  | ⟨0, _⟩ => show win0_1.index t 0 * 512 + 1 * q.val = t.val % 16 * 512 + q.val; rw [e0]; omega
  | ⟨1, _⟩ => show win0_1.index t 1 * 512 + 1 * d.val = d.val; rw [e1]; omega

/-- Window 2's block at point t holds the anchors' norms of the point's row block. -/
theorem blk2 (t : Fin cfg0.N) (p : Fin 1024) :
    (iblk m c 2 t : Vec Ideal S1024x1 .f32) (ix2 p (0 : Fin 1)) = rowNorm (anc m c (rowOf t p)) := by
  obtain ⟨-, -, -, -, e0, e1, -⟩ := idx_facts t
  refine Eq.trans ?_ (V_anorm m c (rowOf t p))
  unfold iblk
  rw [View.read_apply]
  show V m c main_v12 _ = V m c main_v12 _
  congr 1
  funext a
  apply Fin.ext
  match a with
  | ⟨0, _⟩ => show win0_2.index t 0 * 1024 + 1 * p.val = t.val / 16 * 1024 + p.val; rw [e0]; omega
  | ⟨1, _⟩ => show win0_2.index t 1 * 1 + 1 * 0 = 0; rw [e1]

/-- Window 3's block at point t holds the positives' norms of the point's column tile. -/
theorem blk3 (t : Fin cfg0.N) (q : Fin 512) :
    (iblk m c 3 t : Vec Ideal S1x512 .f32) (ix2 (0 : Fin 1) q) = rowNorm (pos m c (colOf t q)) := by
  obtain ⟨-, -, -, -, -, -, e0, e1, -⟩ := idx_facts t
  refine Eq.trans ?_ (V_pnorm m c (colOf t q))
  unfold iblk
  rw [View.read_apply]
  show V m c main_v13 _ = V m c main_v13 _
  congr 1
  funext a
  apply Fin.ext
  match a with
  | ⟨0, _⟩ => show win0_3.index t 0 * 1 + 1 * 0 = 0; rw [e0]
  | ⟨1, _⟩ => show win0_3.index t 1 * 512 + 1 * q.val = t.val % 16 * 512 + q.val; rw [e1]; omega

/-- Window 4's block at point t holds the matching cosines of the point's row block. -/
theorem blk4 (t : Fin cfg0.N) (p : Fin 1024) :
    (iblk m c 4 t : Vec Ideal S1024x1 .f32) (ix2 p (0 : Fin 1)) = posSim (anc m c) (pos m c) (rowOf t p) := by
  obtain ⟨-, -, -, -, -, -, -, -, e0, e1⟩ := idx_facts t
  refine Eq.trans ?_ (V_possim m c (rowOf t p))
  unfold iblk
  rw [View.read_apply]
  show V m c main_v14 _ = V m c main_v14 _
  congr 1
  funext a
  apply Fin.ext
  match a with
  | ⟨0, _⟩ => show win0_4.index t 0 * 1024 + 1 * p.val = t.val / 16 * 1024 + p.val; rw [e0]; omega
  | ⟨1, _⟩ => show win0_4.index t 1 * 1 + 1 * 0 = 0; rw [e1]

/-- The tile of cosines the body forms at point t is the tile of `negSim`: rows of the row block against rows of the
    column tile, the diagonal replaced where the two input rows are the same row. -/
theorem tile_eq (t : Fin cfg0.N) (p : Fin 1024) (q : Fin 512) :
    k0_pay6 (F := Ideal) (grid0.coords t) (iblk m c 0 t) (iblk m c 1 t) (iblk m c 2 t) (iblk m c 3 t) (ix2 p q)
      = negSim (anc m c) (pos m c) (rowOf t p) (colOf t q) := by
  refine (pay6_apply (grid0.coords t) (iblk m c 0 t) (iblk m c 1 t) (iblk m c 2 t) (iblk m c 3 t) p q).trans ?_
  obtain ⟨g0, g1⟩ := coords_facts t
  rw [g0, g1, blk2 m c t p, blk3 m c t q]
  unfold negSim diagVal
  show (if t.val / 16 * 1024 + p.val = t.val % 16 * 512 + q.val then _ else _) = (if t.val / 16 * 1024 + p.val = t.val % 16 * 512 + q.val then _ else _)
  refine if_congr Iff.rfl rfl ?_
  refine congrArg (fun s => Ideal.div s _) (Finset.sum_congr rfl fun d _ => ?_)
  rw [blk0 m c t p d, blk1 m c t q d]

/-- Within the sixteen tiles, tile k of a row of cosines is the row at the tile's columns. -/
theorem tileOf_col (s : Fin 8192 → EReal) (t : Fin cfg0.N) (q : Fin 512) : tileOf s (t.val % 16) q = s (colOf t q) := by
  unfold tileOf colOf
  rw [dif_pos (Nat.mod_lt _ (by decide))]

/-- One grid point's update of the two carried entries of a row, over variables: from the running pair after k tiles to
    the running pair after k + 1 tiles. -/
theorem step_vals (i : grid0.Coords) (x0 : FVec Ideal S1024x512 .bf16) (x1 : FVec Ideal S512x512 .bf16)
    (x2 : FVec Ideal S1024x1 .f32) (x3 : FVec Ideal S1x512 .f32) (xs0 xs1 : FVec Ideal S1024x1 .f32)
    (s : Fin 8192 → EReal) (k : ℕ) (p : Fin 1024)
    (htile : ∀ q : Fin 512, k0_pay6 (F := Ideal) i x0 x1 x2 x3 (ix2 p q) = tileOf s k q)
    (h0 : xs0 (ix2 p (0 : Fin 1)) = (onl s k).1) (h1 : xs1 (ix2 p (0 : Fin 1)) = (onl s k).2) :
    k0_pay1 (F := Ideal) (k0_pay7 (F := Ideal) i x0 x1 x2 x3 xs0) (ix2 p (0 : Fin 1)) = (onl s (k + 1)).1
    ∧ k0_pay2 (F := Ideal) (k0_pay6 (F := Ideal) i x0 x1 x2 x3) (k0_pay7 (F := Ideal) i x0 x1 x2 x3 xs0) (k0_pay8 (F := Ideal) i x0 x1 x2 x3 xs0) xs1 (ix2 p (0 : Fin 1))
        = (onl s (k + 1)).2 := by
  have hfold : (fun q : Fin 512 => k0_pay6 (F := Ideal) i x0 x1 x2 x3 (ix2 p q)) = tileOf s k := funext htile
  have e7 : k0_pay7 (F := Ideal) i x0 x1 x2 x3 xs0 (ix2 p (0 : Fin 1)) = (onl s (k + 1)).1 := by
    rw [pay7_apply, hfold, h0]; rfl
  refine ⟨(pay1_apply _ _).trans e7, ?_⟩
  rw [pay2_apply, pay8_apply, e7, h0, h1]
  simp only [htile]
  rfl

/-- The carried pair of row p of point t's row block after k tiles, as the specification's running pair. -/
abbrev runPair (t : Fin cfg0.N) (p : Fin 1024) (k : ℕ) : EReal × EReal := onl (negSim (anc m c) (pos m c) (rowOf t p)) k

/-- The tile of cosines at point t, row p, is tile t % 16 of row `rowOf t p` of cosines. -/
theorem tile_row (t : Fin cfg0.N) (p : Fin 1024) (q : Fin 512) :
    k0_pay6 (F := Ideal) (grid0.coords t) (iblk m c 0 t) (iblk m c 1 t) (iblk m c 2 t) (iblk m c 3 t) (ix2 p q)
      = tileOf (negSim (anc m c) (pos m c) (rowOf t p)) (t.val % 16) q :=
  (tile_eq m c t p q).trans (tileOf_col _ t q).symm

/-- A point of the first column tile: the carried pair restarts from (−inf, 0) and takes in tile 0. -/
theorem carried_A (t : Fin cfg0.N) (h0 : t.val % 16 = 0) (p : Fin 1024) :
    (outsAt0 m c t.val t.isLt).2.1 (ix2 p (0 : Fin 1)) = (runPair m c t p (t.val % 16 + 1)).1
    ∧ (outsAt0 m c t.val t.isLt).2.2 (ix2 p (0 : Fin 1)) = (runPair m c t p (t.val % 16 + 1)).2 := by
  have h1 : ¬t.val % 16 = 15 := by omega
  have hs := step_vals (grid0.coords t) (iblk m c 0 t) (iblk m c 1 t) (iblk m c 2 t) (iblk m c 3 t)
    (k0_pay4 (F := Ideal)) (k0_pay5 (F := Ideal)) (negSim (anc m c) (pos m c) (rowOf t p)) (t.val % 16) p
    (tile_row m c t p) (by rw [h0]; exact pay4_apply _) (by rw [h0]; exact pay5_apply _)
  rw [outsAt0_A m c t h0 h1]
  dsimp only
  exact ⟨(congrFun (sout_A_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) _ _ (iblk m c 0 t) (iblk m c 1 t) (iblk m c 2 t) (iblk m c 3 t) (iblk m c 4 t)) (ix2 p (0 : Fin 1))).trans hs.1,
    (congrFun (sout_A_1 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) _ _ (iblk m c 0 t) (iblk m c 1 t) (iblk m c 2 t) (iblk m c 3 t) (iblk m c 4 t)) (ix2 p (0 : Fin 1))).trans hs.2⟩

/-- A point of a middle column tile: the carried pair takes in tile t % 16. -/
theorem carried_B (t : Fin cfg0.N) (h0 : ¬t.val % 16 = 0) (h1 : ¬t.val % 16 = 15)
    (ih : ∀ p : Fin 1024, (outsAt0 m c (t.val - 1) (Nat.lt_of_le_of_lt (Nat.sub_le _ _) t.isLt)).2.1 (ix2 p (0 : Fin 1)) = (runPair m c t p (t.val % 16)).1
      ∧ (outsAt0 m c (t.val - 1) (Nat.lt_of_le_of_lt (Nat.sub_le _ _) t.isLt)).2.2 (ix2 p (0 : Fin 1)) = (runPair m c t p (t.val % 16)).2) (p : Fin 1024) :
    (outsAt0 m c t.val t.isLt).2.1 (ix2 p (0 : Fin 1)) = (runPair m c t p (t.val % 16 + 1)).1
    ∧ (outsAt0 m c t.val t.isLt).2.2 (ix2 p (0 : Fin 1)) = (runPair m c t p (t.val % 16 + 1)).2 := by
  have hs := step_vals (grid0.coords t) (iblk m c 0 t) (iblk m c 1 t) (iblk m c 2 t) (iblk m c 3 t)
    (outsAt0 m c (t.val - 1) (Nat.lt_of_le_of_lt (Nat.sub_le _ _) t.isLt)).2.1 (outsAt0 m c (t.val - 1) (Nat.lt_of_le_of_lt (Nat.sub_le _ _) t.isLt)).2.2 (negSim (anc m c) (pos m c) (rowOf t p)) (t.val % 16) p
    (tile_row m c t p) (ih p).1 (ih p).2
  rw [outsAt0_B m c t h0 h1]
  dsimp only
  exact ⟨(congrFun (sout_B_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) _ _ (iblk m c 0 t) (iblk m c 1 t) (iblk m c 2 t) (iblk m c 3 t) (iblk m c 4 t) _ _) (ix2 p (0 : Fin 1))).trans hs.1,
    (congrFun (sout_B_1 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) _ _ (iblk m c 0 t) (iblk m c 1 t) (iblk m c 2 t) (iblk m c 3 t) (iblk m c 4 t) _ _) (ix2 p (0 : Fin 1))).trans hs.2⟩

/-- A point of the last column tile: the carried pair takes in tile 15, and the output block receives the row losses. -/
theorem carried_C (t : Fin cfg0.N) (h0 : ¬t.val % 16 = 0) (h1 : t.val % 16 = 15)
    (ih : ∀ p : Fin 1024, (outsAt0 m c (t.val - 1) (Nat.lt_of_le_of_lt (Nat.sub_le _ _) t.isLt)).2.1 (ix2 p (0 : Fin 1)) = (runPair m c t p (t.val % 16)).1
      ∧ (outsAt0 m c (t.val - 1) (Nat.lt_of_le_of_lt (Nat.sub_le _ _) t.isLt)).2.2 (ix2 p (0 : Fin 1)) = (runPair m c t p (t.val % 16)).2) (p : Fin 1024) :
    ((outsAt0 m c t.val t.isLt).2.1 (ix2 p (0 : Fin 1)) = (runPair m c t p (t.val % 16 + 1)).1
    ∧ (outsAt0 m c t.val t.isLt).2.2 (ix2 p (0 : Fin 1)) = (runPair m c t p (t.val % 16 + 1)).2)
    ∧ (outsAt0 m c t.val t.isLt).1 (ix2 p (0 : Fin 1)) = rowK (anc m c) (pos m c) (rowOf t p) := by
  have hs := step_vals (grid0.coords t) (iblk m c 0 t) (iblk m c 1 t) (iblk m c 2 t) (iblk m c 3 t)
    (outsAt0 m c (t.val - 1) (Nat.lt_of_le_of_lt (Nat.sub_le _ _) t.isLt)).2.1 (outsAt0 m c (t.val - 1) (Nat.lt_of_le_of_lt (Nat.sub_le _ _) t.isLt)).2.2 (negSim (anc m c) (pos m c) (rowOf t p)) (t.val % 16) p
    (tile_row m c t p) (ih p).1 (ih p).2
  rw [outsAt0_C m c t h0 h1]
  dsimp only
  refine ⟨⟨(congrFun (sout_C_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) _ _ (iblk m c 0 t) (iblk m c 1 t) (iblk m c 2 t) (iblk m c 3 t) (iblk m c 4 t) _ _) (ix2 p (0 : Fin 1))).trans hs.1,
    (congrFun (sout_C_1 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) _ _ (iblk m c 0 t) (iblk m c 1 t) (iblk m c 2 t) (iblk m c 3 t) (iblk m c 4 t) _ _) (ix2 p (0 : Fin 1))).trans hs.2⟩, ?_⟩
  refine (congrFun (out_C_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) _ _ (iblk m c 0 t) (iblk m c 1 t) (iblk m c 2 t) (iblk m c 3 t) (iblk m c 4 t) _ _) (ix2 p (0 : Fin 1))).trans ?_
  refine (pay3_apply _ _ _ _).trans ?_
  rw [hs.1, hs.2, blk4 m c t p, h1]
  rfl

/-- After every grid point the two carried vectors hold, row by row, the running pair of the point's row block after the
    tiles 0 … t % 16 — by induction along the grid, the row block's first tile restarting the pair. -/
theorem carried_eq : ∀ (n : ℕ) (hn : n < cfg0.N) (p : Fin 1024),
    (outsAt0 m c n hn).2.1 (ix2 p (0 : Fin 1)) = (runPair m c ⟨n, hn⟩ p (n % 16 + 1)).1
    ∧ (outsAt0 m c n hn).2.2 (ix2 p (0 : Fin 1)) = (runPair m c ⟨n, hn⟩ p (n % 16 + 1)).2
  | 0, hn, p => carried_A m c ⟨0, hn⟩ (Nat.zero_mod _) p
  | n + 1, hn, p => by
    by_cases h0 : (n + 1) % 16 = 0
    · exact carried_A m c ⟨n + 1, hn⟩ h0 p
    · have ih : ∀ p' : Fin 1024,
          (outsAt0 m c n (Nat.lt_of_succ_lt hn)).2.1 (ix2 p' (0 : Fin 1)) = (runPair m c ⟨n + 1, hn⟩ p' ((n + 1) % 16)).1
          ∧ (outsAt0 m c n (Nat.lt_of_succ_lt hn)).2.2 (ix2 p' (0 : Fin 1)) = (runPair m c ⟨n + 1, hn⟩ p' ((n + 1) % 16)).2 := by
        intro p'
        have e1 : rowOf ⟨n, Nat.lt_of_succ_lt hn⟩ p' = rowOf ⟨n + 1, hn⟩ p' :=
          Fin.ext (by show n / 16 * 1024 + p'.val = (n + 1) / 16 * 1024 + p'.val; omega)
        have e2 : n % 16 + 1 = (n + 1) % 16 := by omega
        have := carried_eq n (Nat.lt_of_succ_lt hn) p'
        unfold runPair at this ⊢
        rw [e1, e2] at this
        exact this
      by_cases h1 : (n + 1) % 16 = 15
      · exact (carried_C m c ⟨n + 1, hn⟩ h0 h1 ih p).1
      · exact carried_B m c ⟨n + 1, hn⟩ h0 h1 ih p

/-- At the last column tile of a row block the output block holds that block's row losses. -/
theorem out_rows (t : Fin cfg0.N) (h15 : t.val % 16 = 15) (p : Fin 1024) :
    (outsAt0 m c t.val t.isLt).1 (ix2 p (0 : Fin 1)) = rowK (anc m c) (pos m c) (rowOf t p) := by
  obtain ⟨n, hn⟩ := t
  have h0 : ¬n % 16 = 0 := by dsimp only at h15; omega
  cases n with
  | zero => exact absurd (Nat.zero_mod _) h0
  | succ n =>
    have ih : ∀ p' : Fin 1024,
        (outsAt0 m c n (Nat.lt_of_succ_lt hn)).2.1 (ix2 p' (0 : Fin 1)) = (runPair m c ⟨n + 1, hn⟩ p' ((n + 1) % 16)).1
        ∧ (outsAt0 m c n (Nat.lt_of_succ_lt hn)).2.2 (ix2 p' (0 : Fin 1)) = (runPair m c ⟨n + 1, hn⟩ p' ((n + 1) % 16)).2 := by
      intro p'
      have e1 : rowOf ⟨n, Nat.lt_of_succ_lt hn⟩ p' = rowOf ⟨n + 1, hn⟩ p' :=
        Fin.ext (by show n / 16 * 1024 + p'.val = (n + 1) / 16 * 1024 + p'.val; omega)
      have e2 : n % 16 + 1 = (n + 1) % 16 := by omega
      have := carried_eq m c n (Nat.lt_of_succ_lt hn) p'
      unfold runPair at this ⊢
      rw [e1, e2] at this
      exact this
    exact (carried_C m c ⟨n + 1, hn⟩ h0 h15 ih p).2

end Cert.KernelIdeal.Grid

end
-- ==== Proof.KernelHostTail.lean ====
/-
  The host lines of the kernel's program after its region, read as mathematics on the extended reals.

  The region leaves an [8192, 1] column of row losses. The lines after it sum that column (a sum started from zero),
  divide by the number of rows, take the norm of the whole input (the square root of the sum, started from zero, of every
  entry's square), scale it by a weight, and add the two: the mean of the row losses plus the weighted norm.

  The result is stated for ANY contents of the arrays the region works on, so that nothing about the region is opened
  here; the column of row losses is the sixth of those arrays, and the input array is none of them, so the lines after
  the region read it as the launch holds it.
-/
import proofs.«124650_j85487029060330_2_alg».proof.Proof.Gen.KernelIdeal.Frame
import proofs.«124650_j85487029060330_2_alg».proof.Proof.Spec
import Idealize.ShloMosaic.Lib.Pipeline.Value
import Idealize.ShloMosaic.Lib.ValueIdx
import Idealize.ShloMosaic.PureOps.Ideal.Laws

noncomputable section

open scoped BigOperators

namespace Cert.KernelIdeal.HostVal

open Cert.KernelIdeal Cert.KernelIdeal.Gen Idealize.ShloMosaic Idealize.ShloMosaic.TcCoe Idealize.SL.Sem Idealize.ShloMosaic.StableHlo
open Idealize.ShloMosaic.ValueIdx Cert.NPair

/-! ## The lines after the region as one function of the loss column and the input -/

/-- The mean of a column plus the weighted norm of the input, as the program spells it. -/
def meanPlusNorm (o : FVec Ideal S8192x1 .f32) (x : FVec Ideal S8192x2x512 .f32) : FVec Ideal S_ .f32 :=
  addf
    (Host.divf (F := Ideal) (Host.reduceAdd (F := Ideal) o (constant (F := Ideal) S_ .f32 0x00000000#32) reducesTo_S8192x1_S_d0_1 h_S_)
      (constant (F := Ideal) S_ .f32 0x46000000#32))
    (mulf (constant (F := Ideal) S_ .f32 0x3CA3D70A#32)
      (Host.sqrt (F := Ideal)
        (Host.reduceAdd (F := Ideal) (mulf x x) (constant (F := Ideal) S_ .f32 0x00000000#32) reducesTo_S8192x2x512_S_d0_1_2 h_S_)))

/-- A sum over the indices of an [8192, 1] column is the sum over its rows. -/
theorem sum_column (o : S8192x1.Idx → EReal) : ∑ j : S8192x1.Idx, o j = ∑ i : Fin 8192, o (ix2 i (0 : Fin 1)) := by
  rw [sum_idx2]
  exact Finset.sum_congr rfl fun i _ => Fin.sum_univ_one fun b : Fin 1 => o (ix2 i b)

/-- Read at its one index: both sums are total sums, each started from the zero literal. -/
theorem meanPlusNorm_eq (o : FVec Ideal S8192x1 .f32) (x : FVec Ideal S8192x2x512 .f32) :
    meanPlusNorm o x = fun _ => Ideal.div (0 + ∑ i : Fin 8192, o (ix2 i (0 : Fin 1))) cnt + regw * l2norm x := by
  funext j
  show Ideal.div (Host.reduceAdd (F := Ideal) o (constant (F := Ideal) S_ .f32 0x00000000#32) reducesTo_S8192x1_S_d0_1 h_S_ j)
        (Ideal.ofBits .f32 0x46000000#32)
      + Ideal.ofBits .f32 0x3CA3D70A#32
        * Ideal.sqrt (Host.reduceAdd (F := Ideal) (mulf x x) (constant (F := Ideal) S_ .f32 0x00000000#32) reducesTo_S8192x2x512_S_d0_1_2 h_S_ j)
      = _
  simp only [Host.reduceAdd, Ideal.hostReduceAdd_def]
  rw [Ideal.hostReduceAdd_total reducesTo_S8192x1_S_d0_1 (fun b => b.elim0) o _ j,
    Ideal.hostReduceAdd_total reducesTo_S8192x2x512_S_d0_1_2 (fun b => b.elim0) (mulf x x) _ j, sum_column]
  show Ideal.div (Ideal.ofBits .f32 0x00000000#32 + ∑ i : Fin 8192, o (ix2 i (0 : Fin 1))) cnt
      + regw * Ideal.sqrt (Ideal.ofBits .f32 0x00000000#32 + ∑ idx : S8192x2x512.Idx, x idx * x idx) = _
  rw [Ideal.ofBits_zero_f32]
  rfl

/-! ## The program's last buffer -/

variable (m : (ℓ : Loc nD τ sig) → Buf (Elt Ideal) ℓ) (c : Dev nD)

set_option quotPrecheck false in
local notation "xin" => (m ((c : Thread nD τ).loc main_arg0) : Arr3)

/-- Whatever the region's arrays hold when it ends, the lines after it leave in the result buffer the mean of the sixth
    array's column plus the weighted norm of the input. -/
theorem tail_result (A : (w : Fin cfg0.W) → Buf (Elt Ideal) ((spec0 w).arr.view.loc (c.tc : Thread nD τ))) :
    (StableHlo.after ([hostOps1, hostOps1_1, hostOps1_2] : List (List (HloOp τ sig (Elt Ideal)))).flatten
        (Pipeline.withArrays spec0 c (V0 m c) A) (Proc.devRef .tc main_v22) : S_.Idx → EReal)
      = fun _ => Ideal.div (0 + ∑ i : Fin 8192, @id EReal (A 5 (ix2 i (0 : Fin 1)))) cnt + regw * l2norm xin := by
  have h17 : Pipeline.withArrays spec0 c (V0 m c) A (Proc.devRef .tc main_v17) = A 5 :=
    Pipeline.withArrays_arr spec0 launch0.win.arr_inj c _ _ 5
  have harg : Pipeline.withArrays spec0 c (V0 m c) A (Proc.devRef .tc main_arg0) = m ((c : Thread nD τ).loc main_arg0) :=
    (Pipeline.withArrays_of_ne _ c (V0 m c) _ main_arg0 (by exact (by decide : ∀ w, Pipeline.arrRef spec0 w ≠ main_arg0))).trans
      (V_main_arg0 m c)
  generalize Pipeline.withArrays spec0 c (V0 m c) A = W at h17 harg ⊢
  simp only [Gen.hostOps1, Gen.hostOps1_1, Gen.hostOps1_2, List.flatten_cons, List.flatten_nil, List.append_nil, List.cons_append,
    List.nil_append]
  after_results_simp
  rw [h17, harg]
  exact meanPlusNorm_eq (A 5) xin

/-- The same in the form the program's run states its result: the region's arrays as the run leaves them. -/
theorem afterTail_result :
    (Pipeline.afterTail₀ cfgs (dats m) 0 (V0 m) [hostOps1, hostOps1_1, hostOps1_2] c main_v22 : S_.Idx → EReal)
      = fun _ => Ideal.div (0 + ∑ i : Fin 8192, @id EReal ((dats m 0 c).arrAt 5 cfg0.N (ix2 i (0 : Fin 1)))) cnt + regw * l2norm xin := by
  unfold Pipeline.afterTail₀
  exact tail_result m c fun w => (dats m 0 c).arrAt w cfg0.N

end Cert.KernelIdeal.HostVal

end
-- ==== Proof.KernelFinal.lean ====
/-
  From the blocks the kernel writes back to its whole result.

  The grid has 8 × 16 points, t = 16 * i0 + j0: i0 numbers the blocks of 1024 rows, j0 the column tiles of one block
  of rows. The row-loss output is an array of shape [8192, 1] cut into 8 blocks of 1024 rows; the block of point t is
  block t / 16, and it is written back only at the last column tile of its block of rows, t % 16 = 15. So if at each
  such point row p of the block holds R (1024 * (t / 16) + p), the array ends holding R r at every row r: row r lies in
  the block written back at the point 16 * (r / 1024) + 15.

  The operations after the region add the array up, divide by the row count and add a term T that does not depend on
  the array; with the array known row by row the program's result is  (0 + Σ_i R i) / 8192 + T.
-/
import proofs.«124650_j85487029060330_2_alg».proof.Proof.Gen.KernelIdeal.Frame
import proofs.«124650_j85487029060330_2_alg».proof.Proof.Spec
import Idealize.ShloMosaic.Lib.Pipeline.Value
import Idealize.ShloMosaic.Lib.ValueIdx

noncomputable section

namespace Cert.KernelIdeal.Final

open Cert.KernelIdeal Cert.KernelIdeal.Gen Cert.NPair Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg) (c : Dev nD)

/-- The row of the input a block row belongs to. -/
def rowOf (t : Fin cfg0.N) (p : Fin 1024) : Fin 8192 :=
  ⟨t.val / 16 * 1024 + p.val, by have := t.isLt; have hN : cfg0.N = 128 := N_0; have := p.isLt; omega⟩

/-- The output's index map, decided over the grid: point t's block is block t / 16 along the rows, block 0 along the
    one column. -/
theorem idx_facts5 : ∀ t : Fin cfg0.N, win0_5.index t (0 : Fin 2) = t.val / 16 ∧ win0_5.index t (1 : Fin 2) = 0 :=
  (by decide +kernel : ∀ t : Fin grid0.N, _)

/-- The whole output array as one function of the rows' values. -/
def wholeOf (R : Fin 8192 → EReal) : S8192x1.Idx → EReal := fun i => R ⟨(i 0).val, (i 0).isLt⟩

/-- Row p of point t's block is row 1024 * (t / 16) + p of the array: a block's coordinate is index × size + the
    coordinate inside the block. -/
theorem block_row (R : Fin 8192 → EReal) (t : Fin cfg0.N) (p : Fin 1024) :
    wholeOf R (((cfg0.win 5).blk t).view.emb (ix2 p (0 : Fin 1))) = R (rowOf t p) := by
  obtain ⟨e0, e1⟩ := idx_facts5 t
  refine congrArg R (Fin.ext ?_)
  show win0_5.index t (0 : Fin 2) * 1024 + 1 * p.val = t.val / 16 * 1024 + p.val
  rw [e0]; omega

/-- What a point that writes back (t % 16 = 15) writes is its block of the whole-array function. -/
theorem flushed5_eq (R : Fin 8192 → EReal)
    (hout : ∀ t : Fin cfg0.N, t.val % 16 = 15 → ∀ p : Fin 1024,
      ((outsAt0 m c t.val t.isLt).1 : S1024x1.Idx → EReal) (ix2 p (0 : Fin 1)) = R (rowOf t p))
    (t : Fin cfg0.N) (hf : (cfg0.win 5).flush t = true) :
    (dats m 0 c).flushed 5 t = ((cfg0.win 5).blk t).view.read (Elt Ideal) (wholeOf R) := by
  have h15 : t.val % 16 = 15 := (flush0_5 t).mp hf
  have key : ∀ j' : S1024x1.Idx, ((outsAt0 m c t.val t.isLt).1 : S1024x1.Idx → EReal) j'
      = wholeOf R (((cfg0.win 5).blk t).view.emb j') := by
    intro j'
    obtain ⟨p, q, rfl⟩ : ∃ (p : Fin 1024) (q : Fin 1), j' = ix2 p q := ⟨_, _, eq_ix2 j'⟩
    obtain rfl : q = 0 := Subsingleton.elim _ _
    exact (hout t h15 p).trans (block_row R t p).symm
  show (cfg0.win 5).cut (grid0.coords t) ((dats m 0 c).after 5 t) = _
  rw [after0_5]
  funext j
  rw [View.read_apply]
  exact key j

/-- An index of the array is in point t's block iff each coordinate is in the block's range on its axis. -/
theorem mem_blk5 (t : Fin cfg0.N) (i : S8192x1.Idx) :
    i ∈ ((cfg0.win 5).blk t).view.set ↔ ∀ a : Fin 2, win0_5.index t a * S1024x1.size a ≤ (i a).val
      ∧ (i a).val < win0_5.index t a * S1024x1.size a + S1024x1.size a := by
  show i ∈ ((View.whole main_v17).slice (win0_5.rect t)).set ↔ _
  rw [View.set_slice_whole, Rect.mem_set_unit]
  exact Iff.rfl

/-- Every row r is in the block written back at the point 16 * (r / 1024) + 15. -/
theorem cover5 (i : S8192x1.Idx) : ∃ t : Fin cfg0.N, (cfg0.win 5).flush t = true ∧ i ∈ ((cfg0.win 5).blk t).view.set := by
  have hN : cfg0.N = 128 := N_0
  have hi0 : (i 0).val < 8192 := (i 0).isLt
  have hi1 : (i 1).val < 1 := (i 1).isLt
  let t : Fin cfg0.N := ⟨16 * ((i 0).val / 1024) + 15, by omega⟩
  have ht : t.val = 16 * ((i 0).val / 1024) + 15 := rfl
  obtain ⟨e0, e1⟩ := idx_facts5 t
  refine ⟨t, (flush0_5 t).mpr (by omega), ?_⟩
  rw [mem_blk5]
  intro a
  match a with
  | ⟨0, _⟩ =>
    show win0_5.index t (0 : Fin 2) * 1024 ≤ (i 0).val ∧ (i 0).val < win0_5.index t (0 : Fin 2) * 1024 + 1024
    rw [e0]; omega
  | ⟨1, _⟩ =>
    show win0_5.index t (1 : Fin 2) * 1 ≤ (i 1).val ∧ (i 1).val < win0_5.index t (1 : Fin 2) * 1 + 1
    rw [e1]; omega

/-- The output array after the run: row r holds R r, when every block written back holds R at its rows. -/
theorem arr5_eq (R : Fin 8192 → EReal)
    (hout : ∀ t : Fin cfg0.N, t.val % 16 = 15 → ∀ p : Fin 1024,
      ((outsAt0 m c t.val t.isLt).1 : S1024x1.Idx → EReal) (ix2 p (0 : Fin 1)) = R (rowOf t p)) :
    ((dats m 0 c).arrAt 5 cfg0.N : S8192x1.Idx → EReal) = fun i => R ⟨(i 0).val, (i 0).isLt⟩ :=
  (dats m 0 c).arrAt_eq_of_cover 5 (wholeOf R) (flushed5_eq m c R hout) cover5

/-- The run, read: when every block written back holds R at its rows and the operations after the region turn the
    output array into  (0 + the sum of its rows) / 8192 + T, the program's result is  (0 + Σ_i R i) / 8192 + T  and its
    argument is unchanged. -/
theorem run_of (R : Dev nD → Fin 8192 → EReal)
    (hout : ∀ c : Dev nD, ∀ t : Fin cfg0.N, t.val % 16 = 15 → ∀ p : Fin 1024,
      ((outsAt0 m c t.val t.isLt).1 : S1024x1.Idx → EReal) (ix2 p (0 : Fin 1)) = R c (rowOf t p))
    (T : Dev nD → EReal)
    (htail : ∀ c : Dev nD,
      (Pipeline.afterTail₀ cfgs (dats m) 0 (V0 m) [hostOps1, hostOps1_1, hostOps1_2] c main_v22 : S_.Idx → EReal)
        = fun _ => Ideal.div (0 + ∑ i : Fin 8192, @id EReal ((dats m 0 c).arrAt 5 cfg0.N (ix2 i (0 : Fin 1)))) cnt + T c) :
    θ_run defs (onTc (τ := τ) (main (F := Ideal))) ⟨m, fun _ => 0, ρ⟩ (fun r => ∀ c : Dev nD,
      r.2.mem ((c.tc : Thread nD τ).loc main_v22) = (fun _ => Ideal.div (0 + ∑ i : Fin 8192, R c i) cnt + T c)
      ∧ r.2.mem ((c.tc : Thread nD τ).loc main_arg0) = m ((c.tc : Thread nD τ).loc main_arg0)) := by
  refine (θ_run defs _ _).mono (fun r h c => ⟨?_, ?_⟩) (run_main m ρ)
  · have hsum : (∑ i : Fin 8192, @id EReal ((dats m 0 c).arrAt 5 cfg0.N (ix2 i (0 : Fin 1)))) = ∑ i : Fin 8192, R c i :=
      Finset.sum_congr rfl fun i _ => congrFun (arr5_eq m c (R c) (hout c)) (ix2 i (0 : Fin 1))
    refine ((h c).2 main_v22 (Pipeline.mem_restRefs_of main_v22 (by decide) (by decide))).trans ((htail c).trans ?_)
    rw [hsum]
  · exact ((h c).2 main_arg0 (Pipeline.mem_restRefs_of main_arg0 (by decide) (by decide))).trans (W_main_arg0 m (dats m) c)

end Cert.KernelIdeal.Final

end
-- ==== Proof.KernelValue.lean ====
/-
  The kernel's program, run: its one result is the one-pass form of the loss.

  The region leaves in the [8192, 1] output array the row losses (each row block's last column tile writes its 1024 rows),
  the lines after the region take their mean and add the weighted norm of the whole input; the input array is unchanged.
-/
import proofs.«124650_j85487029060330_2_alg».proof.Proof.KernelGrid
import proofs.«124650_j85487029060330_2_alg».proof.Proof.KernelHostTail
import proofs.«124650_j85487029060330_2_alg».proof.Proof.KernelFinal

noncomputable section

namespace Cert.KernelIdeal.Value

open Cert.KernelIdeal Cert.KernelIdeal.Gen Cert.NPair
open Idealize.ShloMosaic Idealize.ShloMosaic.TcCoe Idealize.SL.Sem Idealize.ShloMosaic.ValueIdx

variable (m : (ℓ : Loc nD τ sig) → Buf (Elt Ideal) ℓ) (ρ : Dev nD → PrngReg)

/-- Every weakly fair execution of the kernel's program ends with its result at the one-pass form of the loss of the input
    array, the input array unchanged. -/
theorem run : θ_run defs (onTc (τ := τ) (main (F := Ideal))) ⟨m, fun _ => 0, ρ⟩ (fun r => ∀ c : Dev nD,
      r.2.mem ((c.tc : Thread nD τ).loc main_v22)
        = (fun _ => totalK (Grid.anc m c) (Grid.pos m c) (l2norm (m ((c : Thread nD τ).loc main_arg0))))
      ∧ r.2.mem ((c.tc : Thread nD τ).loc main_arg0) = m ((c.tc : Thread nD τ).loc main_arg0)) :=
  Final.run_of m ρ (fun c i => rowK (Grid.anc m c) (Grid.pos m c) i)
    (fun c t h15 p => Grid.out_rows m c t h15 p)
    (fun c => regw * l2norm (m ((c : Thread nD τ).loc main_arg0)))
    (fun c => HostVal.afterTail_result m c)

end Cert.KernelIdeal.Value

end
-- ==== Proof.RefCosines.lean ====
/-
  The reference's cosine stages, each read at explicit coordinates and identified with the specification's formulas:
  the two slices of the input are the anchors and the positives; the two row norms are the Euclidean norms of those rows;
  the matching pair's cosine, the cosine of every anchor against every positive (before the diagonal is replaced), and
  the anchor's cosine with itself.  Every step is a rewrite by the stage's own reading lemma followed by the
  identification of the composed index with the coordinates it names; no law of arithmetic is used, so nothing here
  depends on the entries being finite.
-/
import proofs.«124650_j85487029060330_2_alg».proof.Proof.RefReadP
import proofs.«124650_j85487029060330_2_alg».proof.Proof.Spec

noncomputable section

open scoped BigOperators

namespace Cert.ReferenceIdeal.RefVal

open Cert.ReferenceIdeal Cert.ReferenceIdeal.ReadP Idealize.ShloMosaic Idealize.ShloMosaic.ValueIdx Cert.NPair

/-- The input array at the ideal instance. -/
abbrev In := (⟨S8192x2x512, .f32⟩ : BufTy).Contents (Elt Ideal)

/-! ## The two slices -/

/-- Row i, column d of the first slice (reshaped to a matrix) is the anchor's entry: the flat position
    i * 512 + d of the matrix splits back into row i and column d of the slice. -/
theorem v1_apply (x0 : In) (i : Fin 8192) (d : Fin 512) :
    val_main_v1 (F := Ideal) x0 (ix2 i d) = anchors x0 i d := by
  rw [val_main_v1_apply, val_main_v0_apply]
  show x0 _ = x0 (ix3 i (0 : Fin 2) d)
  refine congrArg x0 (funext fun a => Fin.ext ?_)
  have hd := d.isLt
  match a with
  | ⟨0, _⟩ => show (i.val * 512 + d.val) / 512 = i.val; omega
  | ⟨1, _⟩ => rfl
  | ⟨2, _⟩ => show (i.val * 512 + d.val) % 512 = d.val; omega

/-- Row i, column d of the second slice (reshaped to a matrix) is the positive's entry. -/
theorem v3_apply (x0 : In) (i : Fin 8192) (d : Fin 512) :
    val_main_v3 (F := Ideal) x0 (ix2 i d) = positives x0 i d := by
  rw [val_main_v3_apply, val_main_v2_apply]
  show x0 _ = x0 (ix3 i (1 : Fin 2) d)
  refine congrArg x0 (funext fun a => Fin.ext ?_)
  have hd := d.isLt
  match a with
  | ⟨0, _⟩ => show (i.val * 512 + d.val) / 512 = i.val; omega
  | ⟨1, _⟩ => rfl
  | ⟨2, _⟩ => show (i.val * 512 + d.val) % 512 = d.val; omega

/-! ## Index functions of the row sums and of the matrix product, at coordinates -/

theorem idx_call0 (i : Fin 8192) (k : Fin 512) : idx_main_call0_v1 (ix1 i) k = ix2 i k :=
  funext fun a => Fin.ext (by match a with | ⟨0, _⟩ => rfl | ⟨1, _⟩ => rfl)
theorem idx_call1 (i : Fin 8192) (k : Fin 512) : idx_main_call1_v1 (ix1 i) k = ix2 i k :=
  funext fun a => Fin.ext (by match a with | ⟨0, _⟩ => rfl | ⟨1, _⟩ => rfl)
theorem idx_v7 (i : Fin 8192) (k : Fin 512) : idx_main_v7 (ix1 i) k = ix2 i k :=
  funext fun a => Fin.ext (by match a with | ⟨0, _⟩ => rfl | ⟨1, _⟩ => rfl)
theorem lidx_v12 (i j : Fin 8192) (k : Fin 512) : lidx_main_v12 (ix2 i j) k = ix2 i k :=
  funext fun a => Fin.ext (by match a with | ⟨0, _⟩ => rfl | ⟨1, _⟩ => rfl)
theorem ridx_v12 (i j : Fin 8192) (k : Fin 512) : ridx_main_v12 (ix2 i j) k = ix2 j k :=
  funext fun a => Fin.ext (by match a with | ⟨0, _⟩ => rfl | ⟨1, _⟩ => rfl)

/-! ## The two row norms -/

/-- The first row norm at i is the Euclidean norm of anchor i: the sum of squares started from the zero word. -/
theorem v4_apply (x0 : In) (i : Fin 8192) :
    val_main_v4 (F := Ideal) x0 (ix1 i) = rowNorm (anchors x0 i) := by
  rw [val_main_v4_apply, val_main_call0_v1_apply]
  simp only [idx_call0, val_main_call0_v0_apply, v1_apply, val_main_call0_cst_apply, Ideal.mulf_def,
    Ideal.hostUnary_sqrt_def, Ideal.ofBits_def, Ideal.ofBits_zero_f32]
  rfl

/-- The second row norm at i is the Euclidean norm of positive i. -/
theorem v5_apply (x0 : In) (i : Fin 8192) :
    val_main_v5 (F := Ideal) x0 (ix1 i) = rowNorm (positives x0 i) := by
  rw [val_main_v5_apply, val_main_call1_v1_apply]
  simp only [idx_call1, val_main_call1_v0_apply, v3_apply, val_main_call1_cst_apply, Ideal.mulf_def,
    Ideal.hostUnary_sqrt_def, Ideal.ofBits_def, Ideal.ofBits_zero_f32]
  rfl

/-! ## The clamp -/

/-- The broadcast clamp word of the matching pair's denominator. -/
theorem v9_apply (i : S8192.Idx) : val_main_v9 (F := Ideal) i = epsv := by
  rw [val_main_v9_apply, val_main_cst_0_apply]; rfl
/-- The broadcast clamp word of the matrix of denominators. -/
theorem v18_apply (i : S8192x8192.Idx) : val_main_v18 (F := Ideal) i = epsv := by
  rw [val_main_v18_apply, val_main_cst_1_apply]; rfl
/-- The broadcast clamp word of the diagonal's denominator. -/
theorem v23_apply (i : S8192.Idx) : val_main_v23 (F := Ideal) i = epsv := by
  rw [val_main_v23_apply, val_main_cst_2_apply]; rfl

/-! ## The three cosines -/

/-- The matching pair's cosine at i. -/
theorem v11_apply (x0 : In) (i : Fin 8192) :
    val_main_v11 (F := Ideal) x0 (ix1 i) = posSim (anchors x0) (positives x0) i := by
  rw [val_main_v11_apply, val_main_v7_apply, val_main_v10_apply, val_main_v8_apply, v9_apply, v4_apply, v5_apply]
  simp only [idx_v7, val_main_v6_apply, v1_apply, v3_apply, val_main_cst_apply, Ideal.mulf_def, Ideal.maximumf_def,
    Ideal.hostDivf_def, Ideal.ofBits_def, Ideal.ofBits_zero_f32]
  rfl

/-- The broadcast of the first row norm down the columns, at (i, j). -/
theorem v15_apply (x0 : In) (i j : Fin 8192) :
    val_main_v15 (F := Ideal) x0 (ix2 i j) = rowNorm (anchors x0 i) := by
  rw [val_main_v15_apply, val_main_v13_apply, ← v4_apply]
  exact congrArg (val_main_v4 (F := Ideal) x0) (funext fun a => Fin.ext (by match a with | ⟨0, _⟩ => rfl))

/-- The broadcast of the second row norm along the rows, at (i, j). -/
theorem v16_apply (x0 : In) (i j : Fin 8192) :
    val_main_v16 (F := Ideal) x0 (ix2 i j) = rowNorm (positives x0 j) := by
  rw [val_main_v16_apply, val_main_v14_apply, ← v5_apply]
  exact congrArg (val_main_v5 (F := Ideal) x0) (funext fun a => Fin.ext (by match a with | ⟨0, _⟩ => rfl))

/-- The cosine of anchor i against positive j, before the diagonal is replaced. -/
theorem v20_apply (x0 : In) (i j : Fin 8192) :
    val_main_v20 (F := Ideal) x0 (ix2 i j)
      = Ideal.div (∑ d : Fin 512, anchors x0 i d * positives x0 j d)
          (clampMul (rowNorm (anchors x0 i)) (rowNorm (positives x0 j))) := by
  rw [val_main_v20_apply, val_main_v12_apply, val_main_v19_apply, val_main_v17_apply, v18_apply, v15_apply, v16_apply]
  simp only [lidx_v12, ridx_v12, v1_apply, v3_apply, Ideal.mulf_def, Ideal.maximumf_def, Ideal.hostDivf_def]
  rfl

/-- The anchor's cosine with itself at i. -/
theorem v25_apply (x0 : In) (i : Fin 8192) :
    val_main_v25 (F := Ideal) x0 (ix1 i) = diagVal (anchors x0) i := by
  rw [val_main_v25_apply, val_main_v21_apply, val_main_v24_apply, val_main_v22_apply, v23_apply, v4_apply]
  simp only [Ideal.mulf_def, Ideal.maximumf_def, Ideal.hostDivf_def]
  rfl

end Cert.ReferenceIdeal.RefVal

end
-- ==== Proof.LibPointScatter.lean ====
/-
  A point scatter into a 2-D array — what `x.at[rows, cols].set(v)` lowers to: operand `[R, C]`, scatter indices
  `[N, 2]` (row `n` is the pair (row index, column index)), updates `[N]`, both operand axes inserted window axes
  named by the index vector's two components (`index_vector_dim = 1`) — read through its definition as a left fold
  over the update positions in row-major order.

  First the result index of update `n`: its start is the pair read SIGNED off row `n` of the scatter indices, its
  window coordinate is zero on both axes, so the update lands at `(r, c)` when `0 ≤ r < R` and `0 ≤ c < C` and is
  dropped otherwise (`resultIdx?_eq`, `resultIdx?_of`, `resultIdx?_ix1`).

  Then the restriction to a sub-box of rows (`scatter_restrict`, and `scatter_set_restrict` for the body that
  returns the update): take the same scatter into an operand `[R', C]` with `R ≤ R'` rows, with scatter indices that
  read the same signed pairs and an operand that agrees with the small one on the rows below `R`. Both scatters fold
  over the same update positions in the same order. An update addressed to `(r, c)` with `r < R` lands at the same
  place in both; one with `R ≤ r < R'` lands only in the larger operand, in a row a position `(p, q)` with `p < R`
  never sees; every other update is dropped by both. So "the two accumulators agree on the rows below `R`" is kept by
  every step of the fold, and the two results agree there.
-/
import Idealize.ShloMosaic.PureOps.ShapeOps
import Idealize.ShloMosaic.Lib.ValueIdx

namespace Cert.LibPointScatter

open Idealize.ShloMosaic Idealize.ShloMosaic.ValueIdx

/-! ## The three shapes and the dimension numbers -/

/-- The operand's shape: `R` rows of `C` columns. -/
abbrev opS (R C : Nat) : Shape := ⟨2, ![R, C]⟩
/-- The scatter indices' shape: `N` index vectors of two components. -/
abbrev siS (N : Nat) : Shape := ⟨2, ![N, 2]⟩
/-- The updates' shape: `N` scalars. -/
abbrev updS (N : Nat) : Shape := ⟨1, ![N]⟩

/-- The dimension numbers' conditions for a point scatter of `N` scalars into an `[R, C]` operand: no update window
    axes, both operand axes inserted, index component `k` naming operand axis `k`, the index vector on axis 1. -/
abbrev PointWF (R C N : Nat) : Prop := ScatterDims.WF (opS R C) (siS N) (updS N) [] [0, 1] [0, 1] 1

/-- The point scatter's dimension numbers, from ANY proof of their conditions. -/
abbrev pointDims (R C N : Nat) (wf : PointWF R C N) : ScatterDims (opS R C) (siS N) (updS N) :=
  ScatterDims.mk [] [0, 1] [0, 1] 1 wf

variable {R C N : Nat}

/-! ## The result index of one update -/

/-- Both operand axes are inserted window axes: none is kept for a window. -/
theorem sKept_eq (wf : PointWF R C N) : (pointDims R C N wf).sKept = [] := rfl

/-- The window coordinate is zero on both operand axes (the update window is a single element). -/
theorem window_eq (wf : PointWF R C N) (j : (updS N).Idx) (a : Fin 2) :
    (pointDims R C N wf).window j a = 0 := by
  unfold ScatterDims.window
  rw [dif_neg]
  rw [sKept_eq]; exact List.not_mem_nil

/-- Update `j` reads component `c` of its start index at position `(j, c)` of the scatter indices. -/
theorem siIdx_eq (wf : PointWF R C N) (j : (updS N).Idx) (c : Fin 2) :
    (pointDims R C N wf).siIdx j c = ix2 (j 0) c := by
  funext b
  match b with
  | ⟨0, _⟩ => rfl
  | ⟨1, _⟩ => rfl

/-- The start of update `j` on operand axis `a` is entry `(j, a)` of the scatter indices, read signed. -/
theorem start_eq {w : Nat} (wf : PointWF R C N) (j : (updS N).Idx) (idx : IVec (siS N) w) (a : Fin 2) :
    (pointDims R C N wf).start j idx a = (idx (ix2 (j 0) a)).toInt := by
  have hmem : a ∈ (pointDims R C N wf).scatterDimsToOperandDims := by
    show a ∈ ([0, 1] : List (Fin 2))
    match a with
    | ⟨0, _⟩ => simp
    | ⟨1, _⟩ => simp
  unfold ScatterDims.start
  rw [dif_pos hmem, siIdx_eq]
  congr 2
  match a with
  | ⟨0, _⟩ => rfl
  | ⟨1, _⟩ => rfl

/-- The result index of update `j`: with `r`, `c` the signed entries `(j, 0)`, `(j, 1)` of the scatter indices, the
    update lands at `(r, c)` when `0 ≤ r < R` and `0 ≤ c < C`, and is dropped otherwise. -/
theorem resultIdx?_eq {w : Nat} (wf : PointWF R C N) (j : (updS N).Idx) (idx : IVec (siS N) w) :
    (pointDims R C N wf).resultIdx? j idx =
      if h : (0 ≤ (idx (ix2 (j 0) 0)).toInt ∧ (idx (ix2 (j 0) 0)).toInt < R) ∧
             (0 ≤ (idx (ix2 (j 0) 1)).toInt ∧ (idx (ix2 (j 0) 1)).toInt < C) then
        some (ix2 (⟨(idx (ix2 (j 0) 0)).toInt.toNat, by omega⟩ : Fin R)
                  (⟨(idx (ix2 (j 0) 1)).toInt.toNat, by omega⟩ : Fin C))
      else none := by
  unfold ScatterDims.resultIdx?
  by_cases h : (0 ≤ (idx (ix2 (j 0) 0)).toInt ∧ (idx (ix2 (j 0) 0)).toInt < R) ∧
             (0 ≤ (idx (ix2 (j 0) 1)).toInt ∧ (idx (ix2 (j 0) 1)).toInt < C)
  · have hall : ∀ a : Fin 2, 0 ≤ (pointDims R C N wf).start j idx a + ((pointDims R C N wf).window j a : Int) ∧
        (pointDims R C N wf).start j idx a + ((pointDims R C N wf).window j a : Int) < ((opS R C).size a : Int) := by
      intro a
      rw [start_eq, window_eq]
      match a with
      | ⟨0, _⟩ => simpa using h.1
      | ⟨1, _⟩ => simpa using h.2
    rw [dif_pos hall, dif_pos h]
    congr 1
    funext a
    match a with
    | ⟨0, _⟩ => apply Fin.ext; simp [start_eq, window_eq]
    | ⟨1, _⟩ => apply Fin.ext; simp [start_eq, window_eq]
  · rw [dif_neg h, dif_neg]
    intro hall
    apply h
    have h0 := hall 0
    have h1 := hall 1
    rw [start_eq, window_eq] at h0 h1
    exact ⟨by simpa using h0, by simpa using h1⟩

/-- The same with the two signed entries named: if entry `(j, 0)` is `rr` and entry `(j, 1)` is `cc`, update `j` lands
    at `(rr, cc)` when `0 ≤ rr < R` and `0 ≤ cc < C`, and is dropped otherwise. -/
theorem resultIdx?_of {w : Nat} (wf : PointWF R C N) (j : (updS N).Idx) (idx : IVec (siS N) w)
    (rr cc : Int) (hrr : (idx (ix2 (j 0) 0)).toInt = rr) (hcc : (idx (ix2 (j 0) 1)).toInt = cc) :
    (pointDims R C N wf).resultIdx? j idx =
      if h : (0 ≤ rr ∧ rr < R) ∧ (0 ≤ cc ∧ cc < C) then
        some (ix2 (⟨rr.toNat, by omega⟩ : Fin R) (⟨cc.toNat, by omega⟩ : Fin C))
      else none := by
  subst hrr; subst hcc; exact resultIdx?_eq wf j idx

/-- The same at the update index written by its coordinate `n`. -/
theorem resultIdx?_ix1 {w : Nat} (wf : PointWF R C N) (n : Fin N) (idx : IVec (siS N) w) :
    (pointDims R C N wf).resultIdx? (ix1 n) idx =
      if h : (0 ≤ (idx (ix2 n 0)).toInt ∧ (idx (ix2 n 0)).toInt < R) ∧
             (0 ≤ (idx (ix2 n 1)).toInt ∧ (idx (ix2 n 1)).toInt < C) then
        some (ix2 (⟨(idx (ix2 n 0)).toInt.toNat, by omega⟩ : Fin R)
                  (⟨(idx (ix2 n 1)).toInt.toNat, by omega⟩ : Fin C))
      else none :=
  resultIdx?_eq wf (ix1 n) idx

/-- Two rank-2 indices written by coordinates are equal exactly when their coordinates are. -/
theorem ix2_eq_iff {n0 n1 : Nat} (a a' : Fin n0) (b b' : Fin n1) :
    ix2 a b = ix2 a' b' ↔ a = a' ∧ b = b' := by
  constructor
  · intro h; exact ⟨congrFun h 0, congrFun h 1⟩
  · rintro ⟨rfl, rfl⟩; rfl

/-! ## The scatter as a fold of one step -/

/-- One step of the scatter's fold: update index `j` overwrites the element at its result index by the body applied
    to that element and the update's, or is dropped when its result index is outside the operand. -/
def step {s si u : Shape} {α : Type} {w : Nat} (d : ScatterDims s si u) (f : α → α → α) (idx : IVec si w)
    (upd : u.Idx → α) (r : s.Idx → α) (j : u.Idx) : s.Idx → α :=
  match d.resultIdx? j idx with
  | some i => fun i' => if i' = i then f (r i) (upd j) else r i'
  | none => r

/-- The scatter is the left fold of `step` over the update indices in row-major order (any shapes, any dimension
    numbers, any body). -/
theorem scatter_eq_foldl {s si u : Shape} {α : Type} {w : Nat} (d : ScatterDims s si u) (f : α → α → α)
    (x : s.Idx → α) (idx : IVec si w) (upd : u.Idx → α) :
    Host.scatter d f x idx upd
      = (List.finRange u.numel).foldl (fun r n => step d f idx upd r (u.rowMajor.symm n)) x := by
  unfold Host.scatter
  refine congrArg (fun g => List.foldl g x (List.finRange u.numel)) ?_
  funext r n
  unfold step
  generalize d.resultIdx? (u.rowMajor.symm n) idx = o
  cases o <;> rfl

/-! ## Restriction to a sub-box of rows -/

/-- ONE STEP keeps "the two accumulators agree on the rows below `R`": let the larger operand have `R' ≥ R` rows, the
    two scatter indices read the same signed pairs, the two updates be equal, and the accumulators `x'`, `x` agree at
    every `(p, q)` with `p < R`. Update `j`, addressed to `(rr, cc)`: with `0 ≤ rr < R` and `0 ≤ cc < C` it overwrites
    position `(rr, cc)` of both, by the body applied to equal elements; with `R ≤ rr < R'` it overwrites only the larger
    accumulator, in row `rr ≥ R`; otherwise it is dropped by both. In every case the new accumulators agree at `(p, q)`. -/
theorem step_restrict {α : Type} {w : Nat} {R' : Nat} (hR : R ≤ R')
    (wf : PointWF R C N) (wf' : PointWF R' C N) (f : α → α → α)
    (idx idx' : IVec (siS N) w) (upd upd' : (updS N).Idx → α)
    (hrow : ∀ n : Fin N, (idx' (ix2 n 0)).toInt = (idx (ix2 n 0)).toInt)
    (hcol : ∀ n : Fin N, (idx' (ix2 n 1)).toInt = (idx (ix2 n 1)).toInt)
    (hupd : ∀ j, upd' j = upd j)
    (j : (updS N).Idx)
    (x : (opS R C).Idx → α) (x' : (opS R' C).Idx → α)
    (h : ∀ (p : Fin R) (q : Fin C), x' (ix2 ⟨p.val, by omega⟩ q) = x (ix2 p q))
    (p : Fin R) (q : Fin C) :
    step (pointDims R' C N wf') f idx' upd' x' j (ix2 ⟨p.val, by omega⟩ q)
      = step (pointDims R C N wf) f idx upd x j (ix2 p q) := by
  obtain ⟨rr, hrr⟩ : ∃ rr, (idx (ix2 (j 0) 0)).toInt = rr := ⟨_, rfl⟩
  obtain ⟨cc, hcc⟩ : ∃ cc, (idx (ix2 (j 0) 1)).toInt = cc := ⟨_, rfl⟩
  unfold step
  rw [resultIdx?_of wf' j idx' rr cc ((hrow (j 0)).trans hrr) ((hcol (j 0)).trans hcc),
      resultIdx?_of wf j idx rr cc hrr hcc, hupd j]
  by_cases hc : 0 ≤ cc ∧ cc < (C : Int)
  · by_cases hr : 0 ≤ rr ∧ rr < (R : Int)
    · -- the update lands inside the small operand: at the same place in both
      have hsmall : (0 ≤ rr ∧ rr < (R : Int)) ∧ (0 ≤ cc ∧ cc < (C : Int)) := ⟨hr, hc⟩
      have hbig : (0 ≤ rr ∧ rr < (R' : Int)) ∧ (0 ≤ cc ∧ cc < (C : Int)) := ⟨⟨hr.1, by omega⟩, hc⟩
      rw [dif_pos hbig, dif_pos hsmall]
      have hx := h ⟨rr.toNat, by omega⟩ ⟨cc.toNat, by omega⟩
      by_cases he : p.val = rr.toNat ∧ q.val = cc.toNat
      · show (if _ then _ else _) = (if _ then _ else _)
        rw [if_pos ((ix2_eq_iff _ _ _ _).2 ⟨Fin.ext he.1, Fin.ext he.2⟩),
            if_pos ((ix2_eq_iff _ _ _ _).2 ⟨Fin.ext he.1, Fin.ext he.2⟩), hx]
      · show (if _ then _ else _) = (if _ then _ else _)
        rw [if_neg (fun hh => he ⟨congrArg Fin.val ((ix2_eq_iff _ _ _ _).1 hh).1,
              congrArg Fin.val ((ix2_eq_iff _ _ _ _).1 hh).2⟩),
            if_neg (fun hh => he ⟨congrArg Fin.val ((ix2_eq_iff _ _ _ _).1 hh).1,
              congrArg Fin.val ((ix2_eq_iff _ _ _ _).1 hh).2⟩), h p q]
    · have hsmall : ¬ ((0 ≤ rr ∧ rr < (R : Int)) ∧ (0 ≤ cc ∧ cc < (C : Int))) := fun hh => hr hh.1
      by_cases hr' : 0 ≤ rr ∧ rr < (R' : Int)
      · -- the update lands in the larger operand only, in a row at or beyond `R`: position `(p, q)` is not it
        have hbig : (0 ≤ rr ∧ rr < (R' : Int)) ∧ (0 ≤ cc ∧ cc < (C : Int)) := ⟨hr', hc⟩
        rw [dif_pos hbig, dif_neg hsmall]
        show (if _ then _ else _) = _
        rw [if_neg, h p q]
        intro hh
        have := congrArg Fin.val ((ix2_eq_iff _ _ _ _).1 hh).1
        simp at this
        omega
      · -- the row is outside both operands: dropped by both
        have hbig : ¬ ((0 ≤ rr ∧ rr < (R' : Int)) ∧ (0 ≤ cc ∧ cc < (C : Int))) := fun hh => hr' hh.1
        rw [dif_neg hbig, dif_neg hsmall]
        exact h p q
  · -- the column is outside both operands: dropped by both
    have hsmall : ¬ ((0 ≤ rr ∧ rr < (R : Int)) ∧ (0 ≤ cc ∧ cc < (C : Int))) := fun hh => hc hh.2
    have hbig : ¬ ((0 ≤ rr ∧ rr < (R' : Int)) ∧ (0 ≤ cc ∧ cc < (C : Int))) := fun hh => hc hh.2
    rw [dif_neg hbig, dif_neg hsmall]
    exact h p q

/-- The fold over ANY list of update positions keeps the agreement on the rows below `R`: induction on the list, both
    accumulators general, each step by `step_restrict`. -/
theorem foldl_restrict {α : Type} {w : Nat} {R' : Nat} (hR : R ≤ R')
    (wf : PointWF R C N) (wf' : PointWF R' C N) (f : α → α → α)
    (idx idx' : IVec (siS N) w) (upd upd' : (updS N).Idx → α)
    (hrow : ∀ n : Fin N, (idx' (ix2 n 0)).toInt = (idx (ix2 n 0)).toInt)
    (hcol : ∀ n : Fin N, (idx' (ix2 n 1)).toInt = (idx (ix2 n 1)).toInt)
    (hupd : ∀ j, upd' j = upd j)
    (l : List (Fin (updS N).numel)) :
    ∀ (x : (opS R C).Idx → α) (x' : (opS R' C).Idx → α),
      (∀ (p : Fin R) (q : Fin C), x' (ix2 ⟨p.val, by omega⟩ q) = x (ix2 p q)) →
      ∀ (p : Fin R) (q : Fin C),
        l.foldl (fun r n => step (pointDims R' C N wf') f idx' upd' r ((updS N).rowMajor.symm n)) x'
            (ix2 ⟨p.val, by omega⟩ q)
        = l.foldl (fun r n => step (pointDims R C N wf) f idx upd r ((updS N).rowMajor.symm n)) x (ix2 p q) := by
  induction l with
  | nil => intro x x' h p q; exact h p q
  | cons n l ih =>
    intro x x' h
    rw [List.foldl_cons, List.foldl_cons]
    apply ih
    intro p q
    exact step_restrict hR wf wf' f idx idx' upd upd' hrow hcol hupd ((updS N).rowMajor.symm n) x x' h p q

/-- RESTRICTION TO A SUB-BOX, any body `f`: a point scatter into an `[R', C]` operand and the same scatter into an
    `[R, C]` operand, `R ≤ R'`, whose scatter indices read the same signed (row, column) pairs, whose updates are
    equal and whose operands agree on the rows below `R`, have results that agree on the rows below `R`. -/
theorem scatter_restrict {α : Type} {w : Nat} {R' : Nat} (hR : R ≤ R')
    (wf : PointWF R C N) (wf' : PointWF R' C N) (f : α → α → α)
    (x : (opS R C).Idx → α) (x' : (opS R' C).Idx → α)
    (idx idx' : IVec (siS N) w) (upd upd' : (updS N).Idx → α)
    (hrow : ∀ n : Fin N, (idx' (ix2 n 0)).toInt = (idx (ix2 n 0)).toInt)
    (hcol : ∀ n : Fin N, (idx' (ix2 n 1)).toInt = (idx (ix2 n 1)).toInt)
    (hupd : ∀ j, upd' j = upd j)
    (hx : ∀ (p : Fin R) (q : Fin C), x' (ix2 ⟨p.val, by omega⟩ q) = x (ix2 p q))
    (p : Fin R) (q : Fin C) :
    Host.scatter (pointDims R' C N wf') f x' idx' upd' (ix2 ⟨p.val, by omega⟩ q)
      = Host.scatter (pointDims R C N wf) f x idx upd (ix2 p q) := by
  rw [scatter_eq_foldl, scatter_eq_foldl]
  exact foldl_restrict hR wf wf' f idx idx' upd upd' hrow hcol hupd _ x x' hx p q

/-- RESTRICTION TO A SUB-BOX for `x.at[rows, cols].set(v)` (the body returns the update), with the shapes and the
    dimension-number record written out: for `R ≤ R'`, 32-bit scatter indices reading the same signed pairs, one
    update array and operands that agree on the rows below `R`, the two results agree on the rows below `R`. -/
theorem scatter_set_restrict {α : Type} {R R' C N : Nat} (hR : R ≤ R')
    (wf : ScatterDims.WF ⟨2, ![R, C]⟩ ⟨2, ![N, 2]⟩ ⟨1, ![N]⟩ [] [0, 1] [0, 1] 1)
    (wf' : ScatterDims.WF ⟨2, ![R', C]⟩ ⟨2, ![N, 2]⟩ ⟨1, ![N]⟩ [] [0, 1] [0, 1] 1)
    (x : (⟨2, ![R, C]⟩ : Shape).Idx → α) (x' : (⟨2, ![R', C]⟩ : Shape).Idx → α)
    (idx idx' : IVec ⟨2, ![N, 2]⟩ 32) (upd : (⟨1, ![N]⟩ : Shape).Idx → α)
    (hrow : ∀ n : Fin N, (idx' (ix2 n (0 : Fin 2))).toInt = (idx (ix2 n (0 : Fin 2))).toInt)
    (hcol : ∀ n : Fin N, (idx' (ix2 n (1 : Fin 2))).toInt = (idx (ix2 n (1 : Fin 2))).toInt)
    (hx : ∀ (p : Fin R) (q : Fin C), x' (ix2 ⟨p.val, by omega⟩ q) = x (ix2 p q))
    (p : Fin R) (q : Fin C) :
    Host.scatter (ScatterDims.mk [] [0, 1] [0, 1] 1 wf' : ScatterDims ⟨2, ![R', C]⟩ ⟨2, ![N, 2]⟩ ⟨1, ![N]⟩)
        (fun _ b => b) x' idx' upd (ix2 ⟨p.val, by omega⟩ q)
      = Host.scatter (ScatterDims.mk [] [0, 1] [0, 1] 1 wf : ScatterDims ⟨2, ![R, C]⟩ ⟨2, ![N, 2]⟩ ⟨1, ![N]⟩)
        (fun _ b => b) x idx upd (ix2 p q) :=
  scatter_restrict hR wf wf' (fun _ b => b) x x' idx idx' upd upd hrow hcol (fun _ => rfl) hx p q

end Cert.LibPointScatter
-- ==== Proof.LibDiagonalSet.lean ====
/-
  A point scatter that writes update n at position (n, n) — what x.at[idx, idx].set(v) lowers to when idx is the
  list 0, 1, …, N - 1 — read at an entry: on the diagonal (below N) the entry is the update, everywhere else it is the
  operand's.

  The scatter is a left fold over the update positions. Update n overwrites exactly the entry (n, n) by its own value
  (the body returns the update, so what was there before does not matter). Hence an entry (p, q) that no update of a
  list addresses is left alone by the fold over that list, and an entry (n, n) that some update of the list addresses
  ends as update n: after the last update addressed to it nothing touches it any more, and every update addressed to it
  carries the same value.
-/
import proofs.«124650_j85487029060330_2_alg».proof.Proof.LibPointScatter

namespace Cert.LibDiagonalSet

open Idealize.ShloMosaic Idealize.ShloMosaic.ValueIdx Cert.LibPointScatter

variable {R C N : Nat} {α : Type} {w : Nat}

/-- When row n of the scatter indices reads (n, n) as signed numbers and the operand has at least N rows and N
    columns, update j lands at (j, j). -/
theorem resultIdx?_diag (wf : PointWF R C N) (hR : N ≤ R) (hC : N ≤ C) (idx : IVec (siS N) w)
    (h0 : ∀ n : Fin N, (idx (ix2 n 0)).toInt = (n.val : Int))
    (h1 : ∀ n : Fin N, (idx (ix2 n 1)).toInt = (n.val : Int))
    (j : (updS N).Idx) (hj : (j 0).val < N) :
    (pointDims R C N wf).resultIdx? j idx
      = some (ix2 (⟨(j 0).val, by omega⟩ : Fin R) (⟨(j 0).val, by omega⟩ : Fin C)) := by
  rw [resultIdx?_of wf j idx ((j 0).val : Int) ((j 0).val : Int) (h0 (j 0)) (h1 (j 0)),
    dif_pos ⟨⟨by omega, by omega⟩, ⟨by omega, by omega⟩⟩]
  simp only [Int.toNat_natCast]

/-- One step of the fold at an entry: update j replaces the entry (j, j) by its own value and leaves every other
    entry as it was. -/
theorem step_diag (wf : PointWF R C N) (hR : N ≤ R) (hC : N ≤ C) (idx : IVec (siS N) w)
    (h0 : ∀ n : Fin N, (idx (ix2 n 0)).toInt = (n.val : Int))
    (h1 : ∀ n : Fin N, (idx (ix2 n 1)).toInt = (n.val : Int))
    (upd : (updS N).Idx → α) (r : (opS R C).Idx → α) (j : (updS N).Idx) (p : Fin R) (q : Fin C) :
    step (pointDims R C N wf) (fun _ b => b) idx upd r j (ix2 p q)
      = if p.val = (j 0).val ∧ q.val = (j 0).val then upd j else r (ix2 p q) := by
  have hj : (j 0).val < N := (j 0).isLt
  unfold step
  rw [resultIdx?_diag wf hR hC idx h0 h1 j hj]
  show (if _ then _ else _) = _
  by_cases h : p.val = (j 0).val ∧ q.val = (j 0).val
  · rw [if_pos h, if_pos ((ix2_eq_iff _ _ _ _).2 ⟨Fin.ext h.1, Fin.ext h.2⟩)]
  · rw [if_neg h, if_neg (fun hh => h ⟨congrArg Fin.val ((ix2_eq_iff _ _ _ _).1 hh).1,
      congrArg Fin.val ((ix2_eq_iff _ _ _ _).1 hh).2⟩)]

/-- The fold over a list of update positions none of which is addressed to (p, q) leaves that entry alone. -/
theorem foldl_miss (wf : PointWF R C N) (hR : N ≤ R) (hC : N ≤ C) (idx : IVec (siS N) w)
    (h0 : ∀ n : Fin N, (idx (ix2 n 0)).toInt = (n.val : Int))
    (h1 : ∀ n : Fin N, (idx (ix2 n 1)).toInt = (n.val : Int))
    (upd : (updS N).Idx → α) (p : Fin R) (q : Fin C) (l : List (Fin (updS N).numel)) :
    ∀ r : (opS R C).Idx → α,
      (∀ n ∈ l, ¬ (p.val = (((updS N).rowMajor.symm n) 0).val ∧ q.val = (((updS N).rowMajor.symm n) 0).val)) →
      l.foldl (fun r n => step (pointDims R C N wf) (fun _ b => b) idx upd r ((updS N).rowMajor.symm n)) r (ix2 p q)
        = r (ix2 p q) := by
  induction l with
  | nil => intro r _; rfl
  | cons n l ih =>
    intro r h
    rw [List.foldl_cons, ih _ (fun m hm => h m (List.mem_cons.2 (Or.inr hm))),
      step_diag wf hR hC idx h0 h1, if_neg (h n (List.mem_cons.2 (Or.inl rfl)))]

/-- The fold over a list of update positions one of which is update n0 ends, at the entry (n0, n0), as update n0. -/
theorem foldl_hit (wf : PointWF R C N) (hR : N ≤ R) (hC : N ≤ C) (idx : IVec (siS N) w)
    (h0 : ∀ n : Fin N, (idx (ix2 n 0)).toInt = (n.val : Int))
    (h1 : ∀ n : Fin N, (idx (ix2 n 1)).toInt = (n.val : Int))
    (upd : (updS N).Idx → α) (p : Fin R) (q : Fin C) (n0 : Fin N) (hp : p.val = n0.val) (hq : q.val = n0.val)
    (l : List (Fin (updS N).numel)) :
    ∀ r : (opS R C).Idx → α,
      (∃ n ∈ l, (((updS N).rowMajor.symm n) 0).val = n0.val) →
      l.foldl (fun r n => step (pointDims R C N wf) (fun _ b => b) idx upd r ((updS N).rowMajor.symm n)) r (ix2 p q)
        = upd (ix1 n0) := by
  induction l with
  | nil => intro r h; obtain ⟨n, hn, _⟩ := h; cases hn
  | cons n l ih =>
    intro r h
    rw [List.foldl_cons]
    by_cases hl : ∃ m ∈ l, (((updS N).rowMajor.symm m) 0).val = n0.val
    · exact ih _ hl
    · obtain ⟨m, hm, hmp⟩ := h
      rcases List.mem_cons.1 hm with hmn | hm'
      · subst hmn
        rw [foldl_miss wf hR hC idx h0 h1 upd p q l _
            (fun m' hm' hc => hl ⟨m', hm', by omega⟩),
          step_diag wf hR hC idx h0 h1, if_pos ⟨by omega, by omega⟩]
        exact congrArg upd ((eq_ix1 _).trans (congrArg ix1 (Fin.ext hmp)))
      · exact absurd ⟨m, hm', hmp⟩ hl

/-- ON THE DIAGONAL: with scatter indices whose row n reads (n, n), the result of x.at[idx, idx].set(upd) at an entry
    (p, q) whose two coordinates are both n0 is update n0. -/
theorem scatter_diag_hit (wf : PointWF R C N) (hR : N ≤ R) (hC : N ≤ C) (x : (opS R C).Idx → α)
    (idx : IVec (siS N) w)
    (h0 : ∀ n : Fin N, (idx (ix2 n 0)).toInt = (n.val : Int))
    (h1 : ∀ n : Fin N, (idx (ix2 n 1)).toInt = (n.val : Int))
    (upd : (updS N).Idx → α) (p : Fin R) (q : Fin C) (n0 : Fin N) (hp : p.val = n0.val) (hq : q.val = n0.val) :
    Host.scatter (pointDims R C N wf) (fun _ b => b) x idx upd (ix2 p q) = upd (ix1 n0) := by
  rw [scatter_eq_foldl]
  refine foldl_hit wf hR hC idx h0 h1 upd p q n0 hp hq _ x ⟨(updS N).rowMajor (ix1 n0), List.mem_finRange _, ?_⟩
  rw [Equiv.symm_apply_apply]
  rfl

/-- OFF THE DIAGONAL (or past the last update): the entry is the operand's. -/
theorem scatter_diag_miss (wf : PointWF R C N) (hR : N ≤ R) (hC : N ≤ C) (x : (opS R C).Idx → α)
    (idx : IVec (siS N) w)
    (h0 : ∀ n : Fin N, (idx (ix2 n 0)).toInt = (n.val : Int))
    (h1 : ∀ n : Fin N, (idx (ix2 n 1)).toInt = (n.val : Int))
    (upd : (updS N).Idx → α) (p : Fin R) (q : Fin C) (hpq : ¬ (p.val = q.val ∧ p.val < N)) :
    Host.scatter (pointDims R C N wf) (fun _ b => b) x idx upd (ix2 p q) = x (ix2 p q) := by
  rw [scatter_eq_foldl]
  refine foldl_miss wf hR hC idx h0 h1 upd p q _ x (fun n _ hc => hpq ?_)
  have hn : (((updS N).rowMajor.symm n) 0).val < N := (((updS N).rowMajor.symm n) 0).isLt
  omega

end Cert.LibDiagonalSet
-- ==== Proof.LibWrapPairs.lean ====
import Idealize.ShloMosaic.PureOps
import Idealize.ShloMosaic.Lib.ValueIdx
import Idealize.ShloMosaic.Lib.ValueLayout
import Idealize.ShloMosaic.Lib.Pipeline.Value

/-!
# Wrap-around of a pair of index columns before a scatter

An update `x.at[idx[:, 0], idx[:, 1]].set(v)` with an integer array `idx : [N, 2]` follows numpy's convention for
negative indices: an index `k < 0` on an axis of extent `E` means `k + E`. The lowering states this per column, with
plain array operations: slice the column out, flatten it to `[N]`, compare it with a splat of zero (signed), add a splat
of the extent, select between the sum and the original, put the result back as a column `[N, 1]`, and concatenate the two
columns again into an `[N, 2]` array.

This file names that chain (`wrapCol`, `wrapPairs`), reads it at an entry (`wrapPairs_row`, `wrapPairs_col`: entry
`(n, c)` of the result is the scalar wrap `wrap` of entry `(n, c)` of the operand, with the extent of column `c`), and
shows that the scalar wrap leaves a non-negative index as it is (`wrap_of_nonneg`).
-/

namespace Cert.LibWrapPairs

open Idealize.ShloMosaic
open Idealize.ShloMosaic.ValueIdx

/-- numpy's wrap-around of one index `v` on an axis of extent `ext`, on 32-bit words: `v + ext` when `v` is negative
    (signed comparison with zero), `v` itself otherwise. -/
def wrap (ext v : BitVec 32) : BitVec 32 :=
  Scalar.select (IntOp.cmpi .slt v 0#32) (IntOp.addi v ext) v

/-- Column `col` of the pair array `a3 : [N, 2]`, wrapped around the extent `ext`, as a column `[N, 1]`: the slice
    `[0:N, col:col+1]`, reshaped to `[N]`; where it is below the zero splat (signed) the sum with the extent splat,
    elsewhere the value itself; broadcast back to `[N, 1]` along axis 0. -/
def wrapCol (N col : Nat) (ext : BitVec 32) (a3 : IVec ⟨2, ![N, 2]⟩ 32)
    (hs : (⟨2, ![N, 2]⟩ : Shape).Slices ![0, col] ⟨2, ![N, 1]⟩)
    (hc : (⟨2, ![N, 1]⟩ : Shape).ShapeCasts ⟨1, ![N]⟩)
    (hb : (⟨0, ![]⟩ : Shape).BroadcastsInDim ⟨1, ![N]⟩ (![] : Fin 0 → Fin (⟨1, ![N]⟩ : Shape).rank))
    (hb1 : (⟨1, ![N]⟩ : Shape).BroadcastsInDim ⟨2, ![N, 1]⟩ (![0] : Fin 1 → Fin (⟨2, ![N, 1]⟩ : Shape).rank)) :
    IVec ⟨2, ![N, 1]⟩ 32 :=
  broadcastInDim ⟨2, ![N, 1]⟩ ![0] hb1
    (select
      (cmpi .slt
        (shapeCast ⟨1, ![N]⟩ (extractStridedSlice ⟨2, ![N, 1]⟩ ![0, col] a3 hs) hc)
        (broadcastInDim ⟨1, ![N]⟩ ![] hb (constantI ⟨0, ![]⟩ 32 0#32)))
      (addi
        (shapeCast ⟨1, ![N]⟩ (extractStridedSlice ⟨2, ![N, 1]⟩ ![0, col] a3 hs) hc)
        (broadcastInDim ⟨1, ![N]⟩ ![] hb (constantI ⟨0, ![]⟩ 32 ext)))
      (shapeCast ⟨1, ![N]⟩ (extractStridedSlice ⟨2, ![N, 1]⟩ ![0, col] a3 hs) hc))

/-- The pair array `a3 : [N, 2]` with column 0 wrapped around the extent `R` and column 1 around the extent `C`: the
    two wrapped columns concatenated along axis 1. -/
def wrapPairs (N : Nat) (R C : BitVec 32) (a3 : IVec ⟨2, ![N, 2]⟩ 32)
    (hs0 : (⟨2, ![N, 2]⟩ : Shape).Slices ![0, 0] ⟨2, ![N, 1]⟩)
    (hs1 : (⟨2, ![N, 2]⟩ : Shape).Slices ![0, 1] ⟨2, ![N, 1]⟩)
    (hc : (⟨2, ![N, 1]⟩ : Shape).ShapeCasts ⟨1, ![N]⟩)
    (hb : (⟨0, ![]⟩ : Shape).BroadcastsInDim ⟨1, ![N]⟩ (![] : Fin 0 → Fin (⟨1, ![N]⟩ : Shape).rank))
    (hb1 : (⟨1, ![N]⟩ : Shape).BroadcastsInDim ⟨2, ![N, 1]⟩ (![0] : Fin 1 → Fin (⟨2, ![N, 1]⟩ : Shape).rank))
    (hcat : Shape.Concatenates [(⟨2, ![N, 1]⟩ : Shape), ⟨2, ![N, 1]⟩] ⟨2, ![N, 2]⟩ 1) :
    IVec ⟨2, ![N, 2]⟩ 32 :=
  concatenate ⟨2, ![N, 2]⟩ 1
    [⟨⟨2, ![N, 1]⟩, wrapCol N 0 R a3 hs0 hc hb hb1⟩, ⟨⟨2, ![N, 1]⟩, wrapCol N 1 C a3 hs1 hc hb hb1⟩] hcat

/-- Row `n` of the wrapped column `col` is the scalar wrap of entry `(n, col)` of the pair array. -/
theorem wrapCol_apply (N col : Nat) (hcol : col < 2) (ext : BitVec 32) (a3 : IVec ⟨2, ![N, 2]⟩ 32)
    (hs : (⟨2, ![N, 2]⟩ : Shape).Slices ![0, col] ⟨2, ![N, 1]⟩)
    (hc : (⟨2, ![N, 1]⟩ : Shape).ShapeCasts ⟨1, ![N]⟩)
    (hb : (⟨0, ![]⟩ : Shape).BroadcastsInDim ⟨1, ![N]⟩ (![] : Fin 0 → Fin (⟨1, ![N]⟩ : Shape).rank))
    (hb1 : (⟨1, ![N]⟩ : Shape).BroadcastsInDim ⟨2, ![N, 1]⟩ (![0] : Fin 1 → Fin (⟨2, ![N, 1]⟩ : Shape).rank))
    (n : Fin N) :
    wrapCol N col ext a3 hs hc hb hb1 (ix2 n (0 : Fin 1)) = wrap ext (a3 (ix2 n (⟨col, hcol⟩ : Fin 2))) := by
  -- the flattened slice at position n is entry (n, col) of the pair array
  have e1 : shapeCast ⟨1, ![N]⟩ (extractStridedSlice ⟨2, ![N, 1]⟩ ![0, col] a3 hs) hc (ix1 n)
      = a3 (ix2 n (⟨col, hcol⟩ : Fin 2)) := by
    rw [shapeCast_apply _ hc (ix1 n) (ix2 n (0 : Fin 1))
      (by rw [Shape.rowMajor_val_two, Shape.rowMajor_val_one]; show n.val * 1 + 0 = n.val; omega)]
    exact extractStridedSlice_apply _ a3 hs _ _ (fun a => match a with
      | ⟨0, _⟩ => by show n.val = 0 + n.val; omega
      | ⟨1, _⟩ => by show col = col + 0; omega)
  unfold wrapCol
  rw [broadcastInDim_apply _ hb1 _ (ix2 n (0 : Fin 1)) (ix1 n) (fun a => match a with
    | ⟨0, _⟩ => by
        have hn := n.isLt
        show n.val = if N = 1 then 0 else n.val
        split <;> omega)]
  rw [select_apply]
  show Scalar.select (IntOp.cmpi .slt (shapeCast ⟨1, ![N]⟩ (extractStridedSlice ⟨2, ![N, 1]⟩ ![0, col] a3 hs) hc (ix1 n)) 0#32)
      (IntOp.addi (shapeCast ⟨1, ![N]⟩ (extractStridedSlice ⟨2, ![N, 1]⟩ ![0, col] a3 hs) hc (ix1 n)) ext)
      (shapeCast ⟨1, ![N]⟩ (extractStridedSlice ⟨2, ![N, 1]⟩ ![0, col] a3 hs) hc (ix1 n)) = _
  rw [e1]
  rfl

section Pairs
variable (N : Nat) (R C : BitVec 32) (a3 : IVec ⟨2, ![N, 2]⟩ 32)
  (hs0 : (⟨2, ![N, 2]⟩ : Shape).Slices ![0, 0] ⟨2, ![N, 1]⟩)
  (hs1 : (⟨2, ![N, 2]⟩ : Shape).Slices ![0, 1] ⟨2, ![N, 1]⟩)
  (hc : (⟨2, ![N, 1]⟩ : Shape).ShapeCasts ⟨1, ![N]⟩)
  (hb : (⟨0, ![]⟩ : Shape).BroadcastsInDim ⟨1, ![N]⟩ (![] : Fin 0 → Fin (⟨1, ![N]⟩ : Shape).rank))
  (hb1 : (⟨1, ![N]⟩ : Shape).BroadcastsInDim ⟨2, ![N, 1]⟩ (![0] : Fin 1 → Fin (⟨2, ![N, 1]⟩ : Shape).rank))
  (hcat : Shape.Concatenates [(⟨2, ![N, 1]⟩ : Shape), ⟨2, ![N, 1]⟩] ⟨2, ![N, 2]⟩ 1)

/-- Entry `(n, 0)` of the wrapped pair array — the row index of pair `n` — is entry `(n, 0)` of the operand wrapped
    around the row extent `R`. -/
theorem wrapPairs_row (n : Fin N) :
    wrapPairs N R C a3 hs0 hs1 hc hb hb1 hcat (ix2 n (0 : Fin 2)) = wrap R (a3 (ix2 n (0 : Fin 2))) := by
  unfold wrapPairs
  rw [concatenate_pair_apply_left (t := ⟨2, ![N, 2]⟩) 1 _ _ hcat (ix2 n (0 : Fin 2)) rfl (ix2 n (0 : Fin 1))
    (fun b => match b with
      | ⟨0, _⟩ => rfl
      | ⟨1, _⟩ => rfl)]
  exact wrapCol_apply N 0 (by decide) R a3 hs0 hc hb hb1 n

/-- Entry `(n, 1)` of the wrapped pair array — the column index of pair `n` — is entry `(n, 1)` of the operand
    wrapped around the column extent `C`. -/
theorem wrapPairs_col (n : Fin N) :
    wrapPairs N R C a3 hs0 hs1 hc hb hb1 hcat (ix2 n (1 : Fin 2)) = wrap C (a3 (ix2 n (1 : Fin 2))) := by
  unfold wrapPairs
  rw [concatenate_pair_apply_right (t := ⟨2, ![N, 2]⟩) 1 _ _ hcat (ix2 n (1 : Fin 2)) rfl rfl (ix2 n (0 : Fin 1))
    (fun b => match b with
      | ⟨0, _⟩ => fun _ => rfl
      | ⟨1, _⟩ => fun hne => absurd rfl hne)
    rfl]
  exact wrapCol_apply N 1 (by decide) C a3 hs1 hc hb hb1 n

end Pairs

/-- A non-negative index is left as it is: the signed comparison `v < 0` is false, so the selection takes `v`. -/
theorem wrap_of_nonneg (ext v : BitVec 32) (h : 0 ≤ v.toInt) : wrap ext v = v := by
  have hs : BitVec.slt v 0#32 = false := by
    apply Bool.eq_false_iff.2
    intro ht
    have hlt := BitVec.slt_iff_toInt_lt.1 ht
    have h0 : (0#32 : BitVec 32).toInt = 0 := by decide
    omega
  show Scalar.select (BitVec.ofBool (BitVec.slt v 0#32)) (IntOp.addi v ext) v = v
  rw [hs]
  exact if_neg (by decide)

end Cert.LibWrapPairs
-- ==== Proof.LibSideBySide.lean ====
/-
  Two arrays of equal height laid side by side, read at an entry: left of the seam the first array, from the seam on the
  second array with the column counted from the seam. For any extents.
-/
import Idealize.ShloMosaic.Lib.Pipeline.Value
import Idealize.ShloMosaic.Lib.ValueIdx

noncomputable section

namespace Cert.LibSideBySide

open Idealize.ShloMosaic Idealize.ShloMosaic.ValueIdx

variable {α : Type}

/-- Left of the seam the joined array reads the first piece at the same row and column. -/
theorem cols_left {R C1 C2 C : ℕ} (x1 : (⟨2, ![R, C1]⟩ : Shape).Idx → α) (x2 : (⟨2, ![R, C2]⟩ : Shape).Idx → α)
    (h : Shape.Concatenates [(⟨2, ![R, C1]⟩ : Shape), (⟨2, ![R, C2]⟩ : Shape)] (⟨2, ![R, C]⟩ : Shape) (1 : Fin 2))
    (p : Fin R) (k : Fin C) (hk : k.val < C1) :
    concatenate (⟨2, ![R, C]⟩ : Shape) (1 : Fin 2) [⟨(⟨2, ![R, C1]⟩ : Shape), x1⟩, ⟨(⟨2, ![R, C2]⟩ : Shape), x2⟩] h (ix2 p k)
      = x1 (ix2 p (⟨k.val, hk⟩ : Fin C1)) :=
  concatenate_pair_apply_left (1 : Fin 2) x1 x2 h (ix2 p k) rfl (ix2 p (⟨k.val, hk⟩ : Fin C1)) (fun b => by
    match b with
    | ⟨0, _⟩ => rfl
    | ⟨1, _⟩ => rfl)

/-- From the seam on the joined array reads the second piece at the same row, the column counted from the seam. -/
theorem cols_right {R C1 C2 C : ℕ} (x1 : (⟨2, ![R, C1]⟩ : Shape).Idx → α) (x2 : (⟨2, ![R, C2]⟩ : Shape).Idx → α)
    (h : Shape.Concatenates [(⟨2, ![R, C1]⟩ : Shape), (⟨2, ![R, C2]⟩ : Shape)] (⟨2, ![R, C]⟩ : Shape) (1 : Fin 2))
    (p : Fin R) (k : Fin C) (q : Fin C2) (hk : q.val + C1 = k.val) :
    concatenate (⟨2, ![R, C]⟩ : Shape) (1 : Fin 2) [⟨(⟨2, ![R, C1]⟩ : Shape), x1⟩, ⟨(⟨2, ![R, C2]⟩ : Shape), x2⟩] h (ix2 p k)
      = x2 (ix2 p q) :=
by
  refine concatenate_pair_apply_right (t := (⟨2, ![R, C]⟩ : Shape)) (1 : Fin 2) x1 x2 h (ix2 p k) rfl rfl (ix2 p q)
    (fun b hb => ?_) ?_
  · match b with
    | ⟨0, _⟩ => rfl
    | ⟨1, _⟩ => exact absurd rfl hb
  · exact hk

end Cert.LibSideBySide

end
-- ==== Proof.RefScatter.lean ====
/-
  The reference's diagonal replacement, read at an entry.

  The index pairs handed to the scatter are two copies of the list 0, 1, …, 8191, each passed through the wrap-around
  for negative indices (add 8192 where the index is below zero, signed). No index of the list is negative, so the wrap
  leaves every one as it is: row n of the pair array is (n, n). The scatter therefore writes update n — the anchor's
  cosine with itself — at the diagonal entry (n, n) of the matrix of cosines and touches nothing else.
-/
import proofs.«124650_j85487029060330_2_alg».proof.Proof.RefReadP
import proofs.«124650_j85487029060330_2_alg».proof.Proof.LibDiagonalSet
import proofs.«124650_j85487029060330_2_alg».proof.Proof.LibWrapPairs
import proofs.«124650_j85487029060330_2_alg».proof.Proof.LibSideBySide

noncomputable section

namespace Cert.ReferenceIdeal.RefVal

open Cert.ReferenceIdeal Cert.ReferenceIdeal.ReadP Idealize.ShloMosaic Idealize.ShloMosaic.ValueIdx
open Cert.LibPointScatter Cert.LibDiagonalSet

/-! ## The index pairs -/

/-- A number below 8192, written as a 32-bit word, reads back as itself when the word is read signed. -/
theorem toInt_ofNat_small (n : Nat) (h : n < 8192) : (BitVec.ofNat 32 n).toInt = (n : Int) := by
  have hn : (BitVec.ofNat 32 n).toNat = n := by
    rw [BitVec.toNat_ofNat]; exact Nat.mod_eq_of_lt (by omega)
  rw [BitVec.toInt_eq_toNat_of_lt (by rw [hn]; omega), hn]

/-- The first wrapped list at n is n: the signed comparison with zero is false, so the selection keeps the index. -/
theorem v31_apply (n : Fin 8192) : val_main_v31 (F := Ideal) (ix1 n) = BitVec.ofNat 32 n.val := by
  rw [val_main_v31_apply, val_main_v28_apply, val_main_v30_apply, val_main_v27_apply, val_main_v29_apply,
    val_main_c_apply, val_main_c_3_apply, val_main_v26_apply]
  exact Cert.LibWrapPairs.wrap_of_nonneg 8192#32 (BitVec.ofNat 32 n.val)
    (by rw [toInt_ofNat_small _ n.isLt]; omega)

/-- The second wrapped list at n is n. -/
theorem v36_apply (n : Fin 8192) : val_main_v36 (F := Ideal) (ix1 n) = BitVec.ofNat 32 n.val := by
  rw [val_main_v36_apply, val_main_v33_apply, val_main_v35_apply, val_main_v32_apply, val_main_v34_apply,
    val_main_c_4_apply, val_main_c_5_apply, val_main_v26_apply]
  exact Cert.LibWrapPairs.wrap_of_nonneg 8192#32 (BitVec.ofNat 32 n.val)
    (by rw [toInt_ofNat_small _ n.isLt]; omega)

/-- The first list as a column, at row n. -/
theorem v37_apply (n : Fin 8192) : val_main_v37 (F := Ideal) (ix2 n (0 : Fin 1)) = BitVec.ofNat 32 n.val := by
  rw [val_main_v37_apply]
  exact (congrArg (val_main_v31 (F := Ideal))
    (funext fun a => Fin.ext (by match a with | ⟨0, _⟩ => rfl))).trans (v31_apply n)

/-- The second list as a column, at row n. -/
theorem v38_apply (n : Fin 8192) : val_main_v38 (F := Ideal) (ix2 n (0 : Fin 1)) = BitVec.ofNat 32 n.val := by
  rw [val_main_v38_apply]
  exact (congrArg (val_main_v36 (F := Ideal))
    (funext fun a => Fin.ext (by match a with | ⟨0, _⟩ => rfl))).trans (v36_apply n)

/-- Row n of the pair array is (n, n): both of its entries are the word of n. -/
theorem v39_apply (n : Fin 8192) (c : Fin 2) : val_main_v39 (F := Ideal) (ix2 n c) = BitVec.ofNat 32 n.val := by
  unfold val_main_v39
  match c with
  | ⟨0, _⟩ =>
    exact (Cert.LibSideBySide.cols_left (R := 8192) (C1 := 1) (C2 := 1) (C := 2) _ _ _ n (0 : Fin 2)
      (by decide)).trans (v37_apply n)
  | ⟨1, _⟩ =>
    exact (Cert.LibSideBySide.cols_right (R := 8192) (C1 := 1) (C2 := 1) (C := 2) _ _ _ n (1 : Fin 2) (0 : Fin 1)
      rfl).trans (v38_apply n)

/-- Read signed, both entries of row n of the pair array are the number n. -/
theorem v39_toInt (c : Fin 2) (n : Fin 8192) : (val_main_v39 (F := Ideal) (ix2 n c)).toInt = (n.val : Int) := by
  rw [v39_apply]; exact toInt_ofNat_small _ n.isLt

/-! ## The scatter -/

/-- The matrix of cosines with its diagonal replaced, at (i, j): on the diagonal the anchor's cosine with itself,
    elsewhere the cosine of anchor i against positive j. -/
theorem v40_apply (x0 : (⟨S8192x2x512, .f32⟩ : BufTy).Contents (Elt Ideal)) (i j : Fin 8192) :
    val_main_v40 (F := Ideal) x0 (ix2 i j)
      = if i.val = j.val then val_main_v25 (F := Ideal) x0 (ix1 i) else val_main_v20 (F := Ideal) x0 (ix2 i j) := by
  unfold val_main_v40
  generalize val_main_v20 (F := Ideal) x0 = X
  generalize val_main_v25 (F := Ideal) x0 = D
  by_cases h : i.val = j.val
  · rw [if_pos h]
    exact scatter_diag_hit (R := 8192) (C := 8192) (N := 8192) Gen.scatter_S8192x8192_S8192x2_S8192_n_01_01_1_wf
      (le_refl _) (le_refl _) X (val_main_v39 (F := Ideal)) (v39_toInt 0) (v39_toInt 1) D i j i rfl h.symm
  · rw [if_neg h]
    exact scatter_diag_miss (R := 8192) (C := 8192) (N := 8192) Gen.scatter_S8192x8192_S8192x2_S8192_n_01_01_1_wf
      (le_refl _) (le_refl _) X (val_main_v39 (F := Ideal)) (v39_toInt 0) (v39_toInt 1) D i j (fun hh => h hh.1)

end Cert.ReferenceIdeal.RefVal

end
-- ==== Proof.RefLogits.lean ====
/-
  The reference's logits, read at an entry: row i of the [8192, 8193] array handed to the log-softmax is the matching
  pair's cosine followed by the 8192 cosines of anchor i against every positive, the one against its own positive
  replaced by the anchor's cosine with itself — the specification's logit.

  The array is the column of matching cosines laid beside the matrix whose diagonal was replaced: column 0 comes from the
  first piece, column k > 0 from column k - 1 of the second.
-/
import proofs.«124650_j85487029060330_2_alg».proof.Proof.RefCosines
import proofs.«124650_j85487029060330_2_alg».proof.Proof.RefScatter

noncomputable section

open scoped BigOperators

namespace Cert.ReferenceIdeal.RefVal

open Cert.ReferenceIdeal Cert.ReferenceIdeal.ReadP Idealize.ShloMosaic Idealize.ShloMosaic.ValueIdx Cert.NPair

/-- The matrix with its diagonal replaced is the specification's matrix of cosines against every positive. -/
theorem v40_negSim (x0 : In) (i j : Fin 8192) :
    val_main_v40 (F := Ideal) x0 (ix2 i j) = negSim (anchors x0) (positives x0) i j := by
  rw [v40_apply, v25_apply, v20_apply]
  rfl

/-- The matching cosines as a column, at row i. -/
theorem v41_apply (x0 : In) (i : Fin 8192) :
    val_main_v41 (F := Ideal) x0 (ix2 i (0 : Fin 1)) = posSim (anchors x0) (positives x0) i := by
  rw [val_main_v41_apply]
  exact (congrArg (val_main_v11 (F := Ideal) x0)
    (funext fun a => Fin.ext (by match a with | ⟨0, _⟩ => rfl))).trans (v11_apply x0 i)

/-- Entry (i, k) of the logits. -/
theorem v42_apply (x0 : (⟨S8192x2x512, .f32⟩ : BufTy).Contents (Elt Ideal)) (i : Fin 8192) (k : Fin 8193) :
    val_main_v42 (F := Ideal) x0 (ix2 i k) = logit (anchors x0) (positives x0) i k := by
  have hk8 := k.isLt
  unfold val_main_v42 logit
  by_cases hk : k.val = 0
  · rw [dif_pos hk]
    exact (Cert.LibSideBySide.cols_left (R := 8192) (C1 := 1) (C2 := 8192) (C := 8193) _ _ _ i k
      (by omega)).trans
      ((congrArg (val_main_v41 (F := Ideal) x0) (congrArg (ix2 i) (Fin.ext hk))).trans (v41_apply x0 i))
  · rw [dif_neg hk]
    exact (Cert.LibSideBySide.cols_right (R := 8192) (C1 := 1) (C2 := 8192) (C := 8193) _ _ _ i k
      (⟨k.val - 1, by omega⟩ : Fin 8192) (by show k.val - 1 + 1 = k.val; omega)).trans
      (v40_negSim x0 i ⟨k.val - 1, by omega⟩)

end Cert.ReferenceIdeal.RefVal

end
-- ==== Proof.RefLsm.lean ====
/-
  The reference's shifted log-softmax, read one entry at a time.

  The logits form an array z[8192, 8193].  For every row i the program computes, in this order:
    the row maximum started from minus infinity,       m i = fold max (-inf) (z i .),
    the maximum once more against a minus-infinity row,  M i = max (-inf) (m i),
    the shifted logits                                   z i k - M i,
    their exponentials and the row sum                   S i = 0 + sum over k of exp (z i k - M i),
    the result                                           (z i k - M i) - log (S i).
  Each lemma below reads one of these arrays at explicit coordinates (row i, column k) in terms of the logits array,
  which is never opened: it is only ever read at (i, k).  The last lemma reads column 0 of the result, which is the
  specification's `lsm0` of the row.
-/
import proofs.«124650_j85487029060330_2_alg».proof.Proof.RefReadP
import proofs.«124650_j85487029060330_2_alg».proof.Proof.Spec

noncomputable section

open scoped BigOperators

namespace Cert.ReferenceIdeal.RefVal

open Cert.ReferenceIdeal Cert.ReferenceIdeal.Gen Cert.ReferenceIdeal.ReadP Idealize.ShloMosaic Idealize.ShloMosaic.ValueIdx Cert.NPair

/-- The input array's type as the reference's stages take it. -/
abbrev Inp := (⟨S8192x2x512, .f32⟩ : BufTy).Contents (Elt Ideal)

/-- Row i of the logits as a function of the column. -/
def zrow (x0 : Inp) (i : Fin 8192) : Fin 8193 → EReal := fun k => val_main_v42 (F := Ideal) x0 (ix2 i k)

/-- The maximum the logits of row i are shifted by. -/
def shiftOf (z : Fin 8193 → EReal) : EReal := max negInf (Finset.univ.fold max negInf z)

/-- The sum of the exponentials of the shifted logits of a row, started from zero. -/
def expSum (z : Fin 8193 → EReal) : EReal := 0 + ∑ k : Fin 8193, Ideal.exp (z k - shiftOf z)

theorem lsm0_eq (z : Fin 8193 → EReal) : lsm0 z = (z 0 - shiftOf z) - Ideal.log (expSum z) := rfl

/-! ## Index equations -/

/-- Row i with the column coordinate k put back is the entry (i, k). -/
theorem lift_row (h : S8192x8193.Reduces [1] S8192) (i : Fin 8192) (k : Fin (S8192x8193.size 1)) :
    h.lift (ix1 i) k = ix2 i (⟨k.val, k.isLt⟩ : Fin 8193) := by
  funext c; apply Fin.ext
  fin_cases c <;> rfl

theorem idx_call2_v3_ix (i : Fin 8192) (j : Fin 1) : idx_main_call2_v3 (ix2 i j) = ix1 i :=
  funext fun a => Fin.ext (by match a with | ⟨0, _⟩ => rfl)

theorem idx_call2_v4_ix (i : Fin 8192) (k : Fin 8193) : idx_main_call2_v4 (ix2 i k) = ix2 i (0 : Fin 1) :=
  funext fun a => Fin.ext (by match a with | ⟨0, _⟩ => rfl | ⟨1, _⟩ => rfl)

theorem idx_call2_v7_ix (i : Fin 8192) (k : Fin 8193) : idx_main_call2_v7 (ix1 i) k = ix2 i k :=
  funext fun a => Fin.ext (by match a with | ⟨0, _⟩ => rfl | ⟨1, _⟩ => rfl)

theorem idx_call2_v8_ix (i : Fin 8192) (j : Fin 1) : idx_main_call2_v8 (ix2 i j) = ix1 i :=
  funext fun a => Fin.ext (by match a with | ⟨0, _⟩ => rfl)

theorem idx_call2_v10_ix (i : Fin 8192) (k : Fin 8193) : idx_main_call2_v10 (ix2 i k) = ix2 i (0 : Fin 1) :=
  funext fun a => Fin.ext (by match a with | ⟨0, _⟩ => rfl | ⟨1, _⟩ => rfl)

theorem idx_v44_ix (i : Fin 8192) : idx_main_v44 (ix2 i (0 : Fin 1)) = ix2 i (0 : Fin 8193) :=
  funext fun a => Fin.ext (by match a with | ⟨0, _⟩ => rfl | ⟨1, _⟩ => rfl)

theorem idx_v45_ix (i : Fin 8192) : idx_main_v45 (ix1 i) = ix2 i (0 : Fin 1) :=
  funext fun a => Fin.ext (by match a with | ⟨0, _⟩ => exact Nat.div_one _ | ⟨1, _⟩ => rfl)

/-! ## The stages -/

/-- The row maximum: the fold of `max` from minus infinity over the 8193 logits of the row. -/
theorem call2_v0_at (x0 : Inp) (i : Fin 8192) :
    val_main_call2_v0 (F := Ideal) x0 (ix1 i) = Finset.univ.fold max negInf (zrow x0 i) := by
  unfold val_main_call2_v0 zrow
  generalize val_main_v42 (F := Ideal) x0 = z
  have h : S8192x8193.Reduces [1] S8192 := by decide
  refine (Host.reduce_eq_fold_single (α := Ideal .f32) FloatOps.maximumf z (val_main_call2_cst (F := Ideal))
    reducesTo_S8192x8193_S8192_d1 h h_S_ (ix1 i)).trans ?_
  have hf : (z ∘ h.lift (ix1 i)) = fun k : Fin 8193 => z (ix2 i k) := funext fun k => congrArg z (lift_row h i k)
  exact congrArg (fun f => Finset.fold max negInf f (Finset.univ : Finset (Fin 8193))) hf

/-- The shift of row i. -/
theorem call2_v2_at (x0 : Inp) (i : Fin 8192) :
    val_main_call2_v2 (F := Ideal) x0 (ix1 i) = shiftOf (zrow x0 i) := by
  rw [val_main_call2_v2_apply, val_main_call2_v1_apply, val_main_call2_cst_0_apply, call2_v0_at]
  rfl

/-- The shift broadcast along the row. -/
theorem call2_v4_at (x0 : Inp) (i : Fin 8192) (k : Fin 8193) :
    val_main_call2_v4 (F := Ideal) x0 (ix2 i k) = shiftOf (zrow x0 i) := by
  rw [val_main_call2_v4_apply, idx_call2_v4_ix, val_main_call2_v3_apply, idx_call2_v3_ix, call2_v2_at]

/-- The shifted logit. -/
theorem call2_v5_at (x0 : Inp) (i : Fin 8192) (k : Fin 8193) :
    val_main_call2_v5 (F := Ideal) x0 (ix2 i k) = zrow x0 i k - shiftOf (zrow x0 i) := by
  rw [val_main_call2_v5_apply, call2_v4_at]
  rfl

/-- Its exponential. -/
theorem call2_v6_at (x0 : Inp) (i : Fin 8192) (k : Fin 8193) :
    val_main_call2_v6 (F := Ideal) x0 (ix2 i k) = Ideal.exp (zrow x0 i k - shiftOf (zrow x0 i)) := by
  rw [val_main_call2_v6_apply, call2_v5_at]
  rfl

/-- The row sum of the exponentials. -/
theorem call2_v7_at (x0 : Inp) (i : Fin 8192) :
    val_main_call2_v7 (F := Ideal) x0 (ix1 i) = expSum (zrow x0 i) := by
  rw [val_main_call2_v7_apply, val_main_call2_cst_1_apply]
  unfold expSum
  rw [Ideal.ofBits_def, Ideal.ofBits_zero_f32]
  refine congrArg (0 + ·) (Finset.sum_congr rfl fun k _ => ?_)
  rw [idx_call2_v7_ix, call2_v6_at]

/-- The logarithm of the row sum, broadcast along the row. -/
theorem call2_v10_at (x0 : Inp) (i : Fin 8192) (k : Fin 8193) :
    val_main_call2_v10 (F := Ideal) x0 (ix2 i k) = Ideal.log (expSum (zrow x0 i)) := by
  rw [val_main_call2_v10_apply, idx_call2_v10_ix, val_main_call2_v9_apply, val_main_call2_v8_apply, idx_call2_v8_ix,
    call2_v7_at]
  rfl

/-- The log-softmax of row i at column k. -/
theorem v43_at (x0 : Inp) (i : Fin 8192) (k : Fin 8193) :
    val_main_v43 (F := Ideal) x0 (ix2 i k)
      = (zrow x0 i k - shiftOf (zrow x0 i)) - Ideal.log (expSum (zrow x0 i)) := by
  rw [val_main_v43_apply, call2_v5_at, call2_v10_at]
  rfl

/-- Column 0 of the log-softmax, as a vector over the rows: the specification's `lsm0` of the row of logits. -/
theorem v45_at (x0 : Inp) (i : Fin 8192) :
    val_main_v45 (F := Ideal) x0 (ix1 i) = lsm0 (zrow x0 i) := by
  rw [val_main_v45_apply, idx_v45_ix, val_main_v44_apply, idx_v44_ix, v43_at, lsm0_eq]

end Cert.ReferenceIdeal.RefVal

end
-- ==== Proof.RefTotal.lean ====
/-
  The reference's result from its logits.

  Column 0 of the row-wise log-softmax is, row by row, the specification's `lsm0` of the row of logits.  The program then
  sums these 8192 numbers from zero, divides by the number of rows, negates, and adds the weighted Euclidean norm of the
  whole input: the square root of the sum, from zero, of the squares of all 8192 * 2 * 512 entries.  Given what the logits
  are, this is the specification's `totalR`.
-/
import proofs.«124650_j85487029060330_2_alg».proof.Proof.RefLsm

noncomputable section

open scoped BigOperators

namespace Cert.ReferenceIdeal.RefVal

open Cert.ReferenceIdeal Cert.ReferenceIdeal.Gen Cert.ReferenceIdeal.ReadP Idealize.ShloMosaic Idealize.ShloMosaic.ValueIdx Cert.NPair

/-- A vector of 8192 entries is indexed by its one coordinate. -/
def rowsEquiv : S8192.Idx ≃ Fin 8192 where
  toFun j := j 0
  invFun := ix1
  left_inv j := (eq_ix1 j).symm
  right_inv _ := rfl

/-- A sum over the indices of a vector of 8192 entries is the sum over the rows. -/
theorem sum_rows (f : S8192.Idx → EReal) : ∑ j : S8192.Idx, f j = ∑ i : Fin 8192, f (ix1 i) :=
  (Equiv.sum_comp rowsEquiv.symm f).symm

/-- The sum over the rows of the first log-softmax entries, started from zero. -/
theorem v46_at (x0 : Inp) (j : S_.Idx) :
    val_main_v46 (F := Ideal) x0 j = 0 + ∑ i : Fin 8192, lsm0 (zrow x0 i) := by
  rw [val_main_v46_apply, val_main_cst_6_apply, Ideal.ofBits_def, Ideal.ofBits_zero_f32, sum_rows]
  exact congrArg (0 + ·) (Finset.sum_congr rfl fun i _ => v45_at x0 i)

/-- Minus the mean over the rows. -/
theorem v48_at (x0 : Inp) (j : S_.Idx) :
    val_main_v48 (F := Ideal) x0 j = -(Ideal.div (0 + ∑ i : Fin 8192, lsm0 (zrow x0 i)) cnt) := by
  rw [val_main_v48_apply, val_main_v47_apply, v46_at, val_main_cst_7_apply]
  rfl

/-- The Euclidean norm of the whole input. -/
theorem v49_at (x0 : Inp) (j : S_.Idx) : val_main_v49 (F := Ideal) x0 j = l2norm x0 := by
  rw [val_main_v49_apply, val_main_call3_v1_apply, val_main_call3_cst_apply, Ideal.ofBits_def, Ideal.ofBits_zero_f32]
  simp only [val_main_call3_v0_apply, Ideal.mulf_def, Ideal.hostUnary_sqrt_def]
  rfl

/-- The weighted norm. -/
theorem v50_at (x0 : Inp) (j : S_.Idx) : val_main_v50 (F := Ideal) x0 j = regw * l2norm x0 := by
  rw [val_main_v50_apply, val_main_cst_8_apply, v49_at]
  rfl

/-- The result in terms of the rows of logits. -/
theorem v51_at (x0 : Inp) (j : S_.Idx) :
    val_main_v51 (F := Ideal) x0 j
      = -(Ideal.div (0 + ∑ i : Fin 8192, lsm0 (zrow x0 i)) cnt) + regw * l2norm x0 := by
  rw [val_main_v51_apply, v48_at, v50_at]
  rfl

/-- The reference's result is the specification's log-softmax form of the loss, once its logits are the specification's. -/
theorem v51_of_logits (x0 : (⟨S8192x2x512, .f32⟩ : BufTy).Contents (Elt Ideal))
    (h42 : ∀ (i : Fin 8192) (k : Fin 8193),
      val_main_v42 (F := Ideal) x0 (ix2 i k) = logit (anchors x0) (positives x0) i k) :
    val_main_v51 (F := Ideal) x0 = fun _ => totalR (anchors x0) (positives x0) (l2norm x0) := by
  funext j
  have hz : ∀ i : Fin 8192, zrow x0 i = logit (anchors x0) (positives x0) i := fun i => funext fun k => h42 i k
  rw [v51_at]
  unfold totalR
  exact congrArg (fun s => -(Ideal.div (0 + s) cnt) + regw * l2norm x0)
    (Finset.sum_congr rfl fun i _ => congrArg lsm0 (hz i))

end Cert.ReferenceIdeal.RefVal

end
-- ==== Proof.RefRunWin.lean ====
/-
  The reference program's 86 host operations cut into nine consecutive stretches, each of which computes one
  mathematical stage from a few earlier results: the halves of the input and their row norms; the matching cosines; the
  matrix of all cosines; the self-cosines; the diagonal's index pairs; the logits; their log-softmax; the mean of its
  first column; the weighted norm of the whole input added to it. Running the whole list is running the stretches one
  after the other (`after_append`), so each stretch can be read on its own from the few buffers it consumes.
-/
import proofs.«124650_j85487029060330_2_alg».proof.Proof.RefReadP
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The contents of the input array [8192, 2, 512] over the extended reals. -/
abbrev In := (⟨S8192x2x512, .f32⟩ : BufTy).Contents (Elt Ideal)

/-- Two columns of row indices side by side: the [8192, 2] array of index pairs. -/
def indexPairs (a b : (⟨S8192x1, .i32⟩ : BufTy).Contents (Elt F)) : (⟨S8192x2, .i32⟩ : BufTy).Contents (Elt F) :=
  concatenate S8192x2 1 [⟨S8192x1, a⟩, ⟨S8192x1, b⟩] concatenates_S8192x1_S8192x1_S8192x2_d1

/-- A column put in front of an [8192, 8192] matrix: the [8192, 8193] rows of logits. -/
def logitRows (a : (⟨S8192x1, .f32⟩ : BufTy).Contents (Elt F)) (b : (⟨S8192x8192, .f32⟩ : BufTy).Contents (Elt F)) :
    (⟨S8192x8193, .f32⟩ : BufTy).Contents (Elt F) :=
  concatenate S8192x8193 1 [⟨S8192x1, a⟩, ⟨S8192x8192, b⟩] concatenates_S8192x1_S8192x8192_S8192x8193_d1

/-- Operations 1–12: the two [8192, 512] halves of the input (anchors `v1`, positives `v3`) and their row norms (`v4`, `v5`). -/
abbrev w1 : List (HloOp τ sig (Elt F)) :=
  [ unary main_arg0 main_v0 ((extractStridedSlice S8192x1x512 ![0, 0, 0] · slices_S8192x2x512_S8192x1x512_0_0_0) : (⟨S8192x2x512, .f32⟩ : BufTy).Contents (Elt F) → (⟨S8192x1x512, .f32⟩ : BufTy).Contents (Elt F)),
    reshape main_v0 main_v1 rfl shapeCasts_S8192x1x512_S8192x512,
    unary main_arg0 main_v2 ((extractStridedSlice S8192x1x512 ![0, 1, 0] · slices_S8192x2x512_S8192x1x512_0_1_0) : (⟨S8192x2x512, .f32⟩ : BufTy).Contents (Elt F) → (⟨S8192x1x512, .f32⟩ : BufTy).Contents (Elt F)),
    reshape main_v2 main_v3 rfl shapeCasts_S8192x1x512_S8192x512,
    TRef.binary (TRef.of (T := ⟨S8192x512, .f32⟩) main_v1) (TRef.of (T := ⟨S8192x512, .f32⟩) main_v1) (TRef.of (T := ⟨S8192x512, .f32⟩) main_call0_v0) mulf,
    TRef.nullary (TRef.of (T := ⟨S_, .f32⟩) main_call0_cst) (constant S_ .f32 0x00000000#32),
    TRef.binary (TRef.of (T := ⟨S8192x512, .f32⟩) main_call0_v0) (TRef.of (T := ⟨S_, .f32⟩) main_call0_cst) (TRef.of (T := ⟨S8192, .f32⟩) main_call0_v1) (fun x v => Host.reduceAdd x v reducesTo_S8192x512_S8192_d1 h_S_),
    TRef.unary (TRef.of (T := ⟨S8192, .f32⟩) main_call0_v1) (TRef.of (T := ⟨S8192, .f32⟩) main_v4) Host.sqrt,
    TRef.binary (TRef.of (T := ⟨S8192x512, .f32⟩) main_v3) (TRef.of (T := ⟨S8192x512, .f32⟩) main_v3) (TRef.of (T := ⟨S8192x512, .f32⟩) main_call1_v0) mulf,
    TRef.nullary (TRef.of (T := ⟨S_, .f32⟩) main_call1_cst) (constant S_ .f32 0x00000000#32),
    TRef.binary (TRef.of (T := ⟨S8192x512, .f32⟩) main_call1_v0) (TRef.of (T := ⟨S_, .f32⟩) main_call1_cst) (TRef.of (T := ⟨S8192, .f32⟩) main_call1_v1) (fun x v => Host.reduceAdd x v reducesTo_S8192x512_S8192_d1 h_S_),
    TRef.unary (TRef.of (T := ⟨S8192, .f32⟩) main_call1_v1) (TRef.of (T := ⟨S8192, .f32⟩) main_v5) Host.sqrt ]

/-- Operations 13–20: the cosine of each anchor with its own positive (`v11`): the row-wise inner product over the clamped product of norms. -/
abbrev w2 : List (HloOp τ sig (Elt F)) :=
  [ binary main_v1 main_v3 main_v6 (mulf : (⟨S8192x512, .f32⟩ : BufTy).Contents (Elt F) → (⟨S8192x512, .f32⟩ : BufTy).Contents (Elt F) → (⟨S8192x512, .f32⟩ : BufTy).Contents (Elt F)),
    nullary main_cst (constant S_ .f32 0x00000000#32),
    binary main_v6 main_cst main_v7 ((fun x v => Host.reduceAdd x v reducesTo_S8192x512_S8192_d1 h_S_) : (⟨S8192x512, .f32⟩ : BufTy).Contents (Elt F) → (⟨S_, .f32⟩ : BufTy).Contents (Elt F) → (⟨S8192, .f32⟩ : BufTy).Contents (Elt F)),
    binary main_v4 main_v5 main_v8 (mulf : (⟨S8192, .f32⟩ : BufTy).Contents (Elt F) → (⟨S8192, .f32⟩ : BufTy).Contents (Elt F) → (⟨S8192, .f32⟩ : BufTy).Contents (Elt F)),
    nullary main_cst_0 (constant S_ .f32 0x322BCC77#32),
    unary main_cst_0 main_v9 (broadcastInDim S8192 ![] bcast_S_S8192 : (⟨S_, .f32⟩ : BufTy).Contents (Elt F) → (⟨S8192, .f32⟩ : BufTy).Contents (Elt F)),
    binary main_v8 main_v9 main_v10 (maximumf : (⟨S8192, .f32⟩ : BufTy).Contents (Elt F) → (⟨S8192, .f32⟩ : BufTy).Contents (Elt F) → (⟨S8192, .f32⟩ : BufTy).Contents (Elt F)),
    binary main_v7 main_v10 main_v11 (Host.divf : (⟨S8192, .f32⟩ : BufTy).Contents (Elt F) → (⟨S8192, .f32⟩ : BufTy).Contents (Elt F) → (⟨S8192, .f32⟩ : BufTy).Contents (Elt F)) ]

/-- Operations 21–30: the [8192, 8192] matrix of cosines of every anchor with every positive (`v20`). -/
abbrev w3 : List (HloOp τ sig (Elt F)) :=
  [ binary main_v1 main_v3 main_v12 ((fun l r => Host.dotGeneral dot_S8192x512_S8192x512_S8192x8192_1_1_0_0_n_n none l r) : (⟨S8192x512, .f32⟩ : BufTy).Contents (Elt F) → (⟨S8192x512, .f32⟩ : BufTy).Contents (Elt F) → (⟨S8192x8192, .f32⟩ : BufTy).Contents (Elt F)),
    unary main_v4 main_v13 (broadcastInDim S8192x1 ![0] bcast_S8192_S8192x1_0 : (⟨S8192, .f32⟩ : BufTy).Contents (Elt F) → (⟨S8192x1, .f32⟩ : BufTy).Contents (Elt F)),
    unary main_v5 main_v14 (broadcastInDim S1x8192 ![1] bcast_S8192_S1x8192_1 : (⟨S8192, .f32⟩ : BufTy).Contents (Elt F) → (⟨S1x8192, .f32⟩ : BufTy).Contents (Elt F)),
    unary main_v13 main_v15 (broadcastInDim S8192x8192 ![0, 1] bcast_S8192x1_S8192x8192_0_1 : (⟨S8192x1, .f32⟩ : BufTy).Contents (Elt F) → (⟨S8192x8192, .f32⟩ : BufTy).Contents (Elt F)),
    unary main_v14 main_v16 (broadcastInDim S8192x8192 ![0, 1] bcast_S1x8192_S8192x8192_0_1 : (⟨S1x8192, .f32⟩ : BufTy).Contents (Elt F) → (⟨S8192x8192, .f32⟩ : BufTy).Contents (Elt F)),
    binary main_v15 main_v16 main_v17 (mulf : (⟨S8192x8192, .f32⟩ : BufTy).Contents (Elt F) → (⟨S8192x8192, .f32⟩ : BufTy).Contents (Elt F) → (⟨S8192x8192, .f32⟩ : BufTy).Contents (Elt F)),
    nullary main_cst_1 (constant S_ .f32 0x322BCC77#32),
    unary main_cst_1 main_v18 (broadcastInDim S8192x8192 ![] bcast_S_S8192x8192 : (⟨S_, .f32⟩ : BufTy).Contents (Elt F) → (⟨S8192x8192, .f32⟩ : BufTy).Contents (Elt F)),
    binary main_v17 main_v18 main_v19 (maximumf : (⟨S8192x8192, .f32⟩ : BufTy).Contents (Elt F) → (⟨S8192x8192, .f32⟩ : BufTy).Contents (Elt F) → (⟨S8192x8192, .f32⟩ : BufTy).Contents (Elt F)),
    binary main_v12 main_v19 main_v20 (Host.divf : (⟨S8192x8192, .f32⟩ : BufTy).Contents (Elt F) → (⟨S8192x8192, .f32⟩ : BufTy).Contents (Elt F) → (⟨S8192x8192, .f32⟩ : BufTy).Contents (Elt F)) ]

/-- Operations 31–36: each anchor's cosine with itself (`v25`), the value that replaces the diagonal. -/
abbrev w4 : List (HloOp τ sig (Elt F)) :=
  [ binary main_v4 main_v4 main_v21 (mulf : (⟨S8192, .f32⟩ : BufTy).Contents (Elt F) → (⟨S8192, .f32⟩ : BufTy).Contents (Elt F) → (⟨S8192, .f32⟩ : BufTy).Contents (Elt F)),
    binary main_v4 main_v4 main_v22 (mulf : (⟨S8192, .f32⟩ : BufTy).Contents (Elt F) → (⟨S8192, .f32⟩ : BufTy).Contents (Elt F) → (⟨S8192, .f32⟩ : BufTy).Contents (Elt F)),
    nullary main_cst_2 (constant S_ .f32 0x322BCC77#32),
    unary main_cst_2 main_v23 (broadcastInDim S8192 ![] bcast_S_S8192 : (⟨S_, .f32⟩ : BufTy).Contents (Elt F) → (⟨S8192, .f32⟩ : BufTy).Contents (Elt F)),
    binary main_v22 main_v23 main_v24 (maximumf : (⟨S8192, .f32⟩ : BufTy).Contents (Elt F) → (⟨S8192, .f32⟩ : BufTy).Contents (Elt F) → (⟨S8192, .f32⟩ : BufTy).Contents (Elt F)),
    binary main_v21 main_v24 main_v25 (Host.divf : (⟨S8192, .f32⟩ : BufTy).Contents (Elt F) → (⟨S8192, .f32⟩ : BufTy).Contents (Elt F) → (⟨S8192, .f32⟩ : BufTy).Contents (Elt F)) ]

/-- Operations 37–54: the diagonal's index pairs (i, i) as an [8192, 2] integer array (`v39`); no float input. -/
abbrev w5 : List (HloOp τ sig (Elt F)) :=
  [ nullary main_v26 (iotaInDim S8192 32 0),
    nullary main_c (constantI S_ 32 0#32),
    unary main_c main_v27 (broadcastInDim S8192 ![] bcast_S_S8192 : (⟨S_, .i32⟩ : BufTy).Contents (Elt F) → (⟨S8192, .i32⟩ : BufTy).Contents (Elt F)),
    binary main_v26 main_v27 main_v28 (cmpi .slt : (⟨S8192, .i32⟩ : BufTy).Contents (Elt F) → (⟨S8192, .i32⟩ : BufTy).Contents (Elt F) → (⟨S8192, .i1⟩ : BufTy).Contents (Elt F)),
    nullary main_c_3 (constantI S_ 32 8192#32),
    unary main_c_3 main_v29 (broadcastInDim S8192 ![] bcast_S_S8192 : (⟨S_, .i32⟩ : BufTy).Contents (Elt F) → (⟨S8192, .i32⟩ : BufTy).Contents (Elt F)),
    binary main_v26 main_v29 main_v30 (addi : (⟨S8192, .i32⟩ : BufTy).Contents (Elt F) → (⟨S8192, .i32⟩ : BufTy).Contents (Elt F) → (⟨S8192, .i32⟩ : BufTy).Contents (Elt F)),
    ternary main_v28 main_v30 main_v26 main_v31 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    nullary main_c_4 (constantI S_ 32 0#32),
    unary main_c_4 main_v32 (broadcastInDim S8192 ![] bcast_S_S8192 : (⟨S_, .i32⟩ : BufTy).Contents (Elt F) → (⟨S8192, .i32⟩ : BufTy).Contents (Elt F)),
    binary main_v26 main_v32 main_v33 (cmpi .slt : (⟨S8192, .i32⟩ : BufTy).Contents (Elt F) → (⟨S8192, .i32⟩ : BufTy).Contents (Elt F) → (⟨S8192, .i1⟩ : BufTy).Contents (Elt F)),
    nullary main_c_5 (constantI S_ 32 8192#32),
    unary main_c_5 main_v34 (broadcastInDim S8192 ![] bcast_S_S8192 : (⟨S_, .i32⟩ : BufTy).Contents (Elt F) → (⟨S8192, .i32⟩ : BufTy).Contents (Elt F)),
    binary main_v26 main_v34 main_v35 (addi : (⟨S8192, .i32⟩ : BufTy).Contents (Elt F) → (⟨S8192, .i32⟩ : BufTy).Contents (Elt F) → (⟨S8192, .i32⟩ : BufTy).Contents (Elt F)),
    ternary main_v33 main_v35 main_v26 main_v36 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    unary main_v31 main_v37 (broadcastInDim S8192x1 ![0] bcast_S8192_S8192x1_0 : (⟨S8192, .i32⟩ : BufTy).Contents (Elt F) → (⟨S8192x1, .i32⟩ : BufTy).Contents (Elt F)),
    unary main_v36 main_v38 (broadcastInDim S8192x1 ![0] bcast_S8192_S8192x1_0 : (⟨S8192, .i32⟩ : BufTy).Contents (Elt F) → (⟨S8192x1, .i32⟩ : BufTy).Contents (Elt F)),
    binary main_v37 main_v38 main_v39 (indexPairs (F := F)) ]

/-- Operations 55–57: the diagonal of the cosine matrix replaced (`v40`) and the matching cosine put in front as column 0: the [8192, 8193] logits (`v42`). -/
abbrev w6 : List (HloOp τ sig (Elt F)) :=
  [ ternary main_v20 main_v39 main_v25 main_v40 ((fun x i u => Host.scatter scatter_S8192x8192_S8192x2_S8192_n_01_01_1 (fun _ b => b) x i u) : (⟨S8192x8192, .f32⟩ : BufTy).Contents (Elt F) → (⟨S8192x2, .i32⟩ : BufTy).Contents (Elt F) → (⟨S8192, .f32⟩ : BufTy).Contents (Elt F) → (⟨S8192x8192, .f32⟩ : BufTy).Contents (Elt F)),
    unary main_v11 main_v41 (broadcastInDim S8192x1 ![0] bcast_S8192_S8192x1_0 : (⟨S8192, .f32⟩ : BufTy).Contents (Elt F) → (⟨S8192x1, .f32⟩ : BufTy).Contents (Elt F)),
    binary main_v41 main_v40 main_v42 (logitRows (F := F)) ]

/-- Operations 58–72: the shifted log-softmax of every row of logits (`v43`). -/
abbrev w7 : List (HloOp τ sig (Elt F)) :=
  [ TRef.nullary (TRef.of (T := ⟨S_, .f32⟩) main_call2_cst) (constant S_ .f32 0xFF800000#32),
    TRef.binary (TRef.of (T := ⟨S8192x8193, .f32⟩) main_v42) (TRef.of (T := ⟨S_, .f32⟩) main_call2_cst) (TRef.of (T := ⟨S8192, .f32⟩) main_call2_v0) (fun x v => Host.reduce FloatOps.maximumf x v reducesTo_S8192x8193_S8192_d1 h_S_),
    TRef.nullary (TRef.of (T := ⟨S_, .f32⟩) main_call2_cst_0) (constant S_ .f32 0xFF800000#32),
    TRef.unary (TRef.of (T := ⟨S_, .f32⟩) main_call2_cst_0) (TRef.of (T := ⟨S8192, .f32⟩) main_call2_v1) (broadcastInDim S8192 ![] bcast_S_S8192),
    TRef.binary (TRef.of (T := ⟨S8192, .f32⟩) main_call2_v1) (TRef.of (T := ⟨S8192, .f32⟩) main_call2_v0) (TRef.of (T := ⟨S8192, .f32⟩) main_call2_v2) maximumf,
    TRef.unary (TRef.of (T := ⟨S8192, .f32⟩) main_call2_v2) (TRef.of (T := ⟨S8192x1, .f32⟩) main_call2_v3) (broadcastInDim S8192x1 ![0] bcast_S8192_S8192x1_0),
    TRef.unary (TRef.of (T := ⟨S8192x1, .f32⟩) main_call2_v3) (TRef.of (T := ⟨S8192x8193, .f32⟩) main_call2_v4) (broadcastInDim S8192x8193 ![0, 1] bcast_S8192x1_S8192x8193_0_1),
    TRef.binary (TRef.of (T := ⟨S8192x8193, .f32⟩) main_v42) (TRef.of (T := ⟨S8192x8193, .f32⟩) main_call2_v4) (TRef.of (T := ⟨S8192x8193, .f32⟩) main_call2_v5) subf,
    TRef.unary (TRef.of (T := ⟨S8192x8193, .f32⟩) main_call2_v5) (TRef.of (T := ⟨S8192x8193, .f32⟩) main_call2_v6) Host.exp,
    TRef.nullary (TRef.of (T := ⟨S_, .f32⟩) main_call2_cst_1) (constant S_ .f32 0x00000000#32),
    TRef.binary (TRef.of (T := ⟨S8192x8193, .f32⟩) main_call2_v6) (TRef.of (T := ⟨S_, .f32⟩) main_call2_cst_1) (TRef.of (T := ⟨S8192, .f32⟩) main_call2_v7) (fun x v => Host.reduceAdd x v reducesTo_S8192x8193_S8192_d1 h_S_),
    TRef.unary (TRef.of (T := ⟨S8192, .f32⟩) main_call2_v7) (TRef.of (T := ⟨S8192x1, .f32⟩) main_call2_v8) (broadcastInDim S8192x1 ![0] bcast_S8192_S8192x1_0),
    TRef.unary (TRef.of (T := ⟨S8192x1, .f32⟩) main_call2_v8) (TRef.of (T := ⟨S8192x1, .f32⟩) main_call2_v9) Host.log,
    TRef.unary (TRef.of (T := ⟨S8192x1, .f32⟩) main_call2_v9) (TRef.of (T := ⟨S8192x8193, .f32⟩) main_call2_v10) (broadcastInDim S8192x8193 ![0, 1] bcast_S8192x1_S8192x8193_0_1),
    TRef.binary (TRef.of (T := ⟨S8192x8193, .f32⟩) main_call2_v5) (TRef.of (T := ⟨S8192x8193, .f32⟩) main_call2_v10) (TRef.of (T := ⟨S8192x8193, .f32⟩) main_v43) subf ]

/-- Operations 73–79: minus the mean of the first log-softmax entries (`v48`). -/
abbrev w8 : List (HloOp τ sig (Elt F)) :=
  [ unary main_v43 main_v44 ((extractStridedSlice S8192x1 ![0, 0] · slices_S8192x8193_S8192x1_0_0) : (⟨S8192x8193, .f32⟩ : BufTy).Contents (Elt F) → (⟨S8192x1, .f32⟩ : BufTy).Contents (Elt F)),
    reshape main_v44 main_v45 rfl shapeCasts_S8192x1_S8192,
    nullary main_cst_6 (constant S_ .f32 0x00000000#32),
    binary main_v45 main_cst_6 main_v46 ((fun x v => Host.reduceAdd x v reducesTo_S8192_S_d0 h_S_) : (⟨S8192, .f32⟩ : BufTy).Contents (Elt F) → (⟨S_, .f32⟩ : BufTy).Contents (Elt F) → (⟨S_, .f32⟩ : BufTy).Contents (Elt F)),
    nullary main_cst_7 (constant S_ .f32 0x46000000#32),
    binary main_v46 main_cst_7 main_v47 (Host.divf : (⟨S_, .f32⟩ : BufTy).Contents (Elt F) → (⟨S_, .f32⟩ : BufTy).Contents (Elt F) → (⟨S_, .f32⟩ : BufTy).Contents (Elt F)),
    unary main_v47 main_v48 (Host.negf : (⟨S_, .f32⟩ : BufTy).Contents (Elt F) → (⟨S_, .f32⟩ : BufTy).Contents (Elt F)) ]

/-- Operations 80–86: the norm of the whole input, weighted, added to that mean (`v51`). -/
abbrev w9 : List (HloOp τ sig (Elt F)) :=
  [ TRef.binary (TRef.of (T := ⟨S8192x2x512, .f32⟩) main_arg0) (TRef.of (T := ⟨S8192x2x512, .f32⟩) main_arg0) (TRef.of (T := ⟨S8192x2x512, .f32⟩) main_call3_v0) mulf,
    TRef.nullary (TRef.of (T := ⟨S_, .f32⟩) main_call3_cst) (constant S_ .f32 0x00000000#32),
    TRef.binary (TRef.of (T := ⟨S8192x2x512, .f32⟩) main_call3_v0) (TRef.of (T := ⟨S_, .f32⟩) main_call3_cst) (TRef.of (T := ⟨S_, .f32⟩) main_call3_v1) (fun x v => Host.reduceAdd x v reducesTo_S8192x2x512_S_d0_1_2 h_S_),
    TRef.unary (TRef.of (T := ⟨S_, .f32⟩) main_call3_v1) (TRef.of (T := ⟨S_, .f32⟩) main_v49) Host.sqrt,
    nullary main_cst_8 (constant S_ .f32 0x3CA3D70A#32),
    binary main_cst_8 main_v49 main_v50 (mulf : (⟨S_, .f32⟩ : BufTy).Contents (Elt F) → (⟨S_, .f32⟩ : BufTy).Contents (Elt F) → (⟨S_, .f32⟩ : BufTy).Contents (Elt F)),
    binary main_v48 main_v50 main_v51 (addf : (⟨S_, .f32⟩ : BufTy).Contents (Elt F) → (⟨S_, .f32⟩ : BufTy).Contents (Elt F) → (⟨S_, .f32⟩ : BufTy).Contents (Elt F)) ]

/-- Running two lists of operations one after the other is running their concatenation. -/
theorem after_append {Val : EltTy → Type} (l₁ l₂ : List (HloOp τ sig Val)) (V : Valuation τ sig Val) :
    after (l₁ ++ l₂) V = after l₂ (after l₁ V) := by
  induction l₁ generalizing V with
  | nil => rfl
  | cons op l ih => rw [List.cons_append, after_cons, after_cons, ih]

end Cert.ReferenceIdeal.RefRun

end
-- ==== Proof.RefRunW1.lean ====
/-
  The first twelve operations: the two slices of the input and their reshapes (anchors, positives), and the two row norms.
  From any buffer contents that hold the stages this window reads, the window leaves the stages it writes (and those it
  passes on) in their buffers: each operation's result is its function of its operands, and no operation writes a buffer
  another operation of the program wrote.
-/
import proofs.«124650_j85487029060330_2_alg».proof.Proof.RefRunWin

noncomputable section

namespace Cert.ReferenceIdeal.RefRun

open Cert.ReferenceIdeal Cert.ReferenceIdeal.Gen Cert.ReferenceIdeal.ReadP Idealize.ShloMosaic Idealize.ShloMosaic.TcCoe Idealize.SL.Sem Idealize.ShloMosaic.StableHlo

theorem w1_out (x0 : In) (V : Valuation τ sig (Elt Ideal))
    (harg : V (Proc.devRef .tc main_arg0) = x0) :
    after (w1 (F := Ideal)) V (Proc.devRef .tc main_v1) = val_main_v1 (F := Ideal) x0
    ∧ after (w1 (F := Ideal)) V (Proc.devRef .tc main_v3) = val_main_v3 (F := Ideal) x0
    ∧ after (w1 (F := Ideal)) V (Proc.devRef .tc main_v4) = val_main_v4 (F := Ideal) x0
    ∧ after (w1 (F := Ideal)) V (Proc.devRef .tc main_v5) = val_main_v5 (F := Ideal) x0 := by
  refine ⟨?_, ?_, ?_, ?_⟩
  · after_results_simp
    try rw [harg]
    try rfl
  · after_results_simp
    try rw [harg]
    try rfl
  · after_results_simp
    try rw [harg]
    try rfl
  · after_results_simp
    try rw [harg]
    try rfl

end Cert.ReferenceIdeal.RefRun

end
-- ==== Proof.RefRunW2.lean ====
/-
  Operations 13 to 20: the row-wise inner product of anchors and positives, the clamped product of the norms, and their quotient, the matching cosine.
  From any buffer contents that hold the stages this window reads, the window leaves the stages it writes (and those it
  passes on) in their buffers: each operation's result is its function of its operands, and no operation writes a buffer
  another operation of the program wrote.
-/
import proofs.«124650_j85487029060330_2_alg».proof.Proof.RefRunWin

noncomputable section

namespace Cert.ReferenceIdeal.RefRun

open Cert.ReferenceIdeal Cert.ReferenceIdeal.Gen Cert.ReferenceIdeal.ReadP Idealize.ShloMosaic Idealize.ShloMosaic.TcCoe Idealize.SL.Sem Idealize.ShloMosaic.StableHlo

theorem w2_out (x0 : In) (V : Valuation τ sig (Elt Ideal))
    (hv1 : V (Proc.devRef .tc main_v1) = val_main_v1 (F := Ideal) x0)
    (hv3 : V (Proc.devRef .tc main_v3) = val_main_v3 (F := Ideal) x0)
    (hv4 : V (Proc.devRef .tc main_v4) = val_main_v4 (F := Ideal) x0)
    (hv5 : V (Proc.devRef .tc main_v5) = val_main_v5 (F := Ideal) x0) :
    after (w2 (F := Ideal)) V (Proc.devRef .tc main_v1) = val_main_v1 (F := Ideal) x0
    ∧ after (w2 (F := Ideal)) V (Proc.devRef .tc main_v3) = val_main_v3 (F := Ideal) x0
    ∧ after (w2 (F := Ideal)) V (Proc.devRef .tc main_v4) = val_main_v4 (F := Ideal) x0
    ∧ after (w2 (F := Ideal)) V (Proc.devRef .tc main_v5) = val_main_v5 (F := Ideal) x0
    ∧ after (w2 (F := Ideal)) V (Proc.devRef .tc main_v11) = val_main_v11 (F := Ideal) x0 := by
  refine ⟨?_, ?_, ?_, ?_, ?_⟩
  · after_results_simp
    try rw [hv1]
    try rw [hv3]
    try rw [hv4]
    try rw [hv5]
    try rfl
  · after_results_simp
    try rw [hv1]
    try rw [hv3]
    try rw [hv4]
    try rw [hv5]
    try rfl
  · after_results_simp
    try rw [hv1]
    try rw [hv3]
    try rw [hv4]
    try rw [hv5]
    try rfl
  · after_results_simp
    try rw [hv1]
    try rw [hv3]
    try rw [hv4]
    try rw [hv5]
    try rfl
  · after_results_simp
    try rw [hv1]
    try rw [hv3]
    try rw [hv4]
    try rw [hv5]
    try rfl

end Cert.ReferenceIdeal.RefRun

end
-- ==== Proof.RefRunW3.lean ====
/-
  Operations 21 to 30: the matrix of inner products, the outer product of the norms clamped, and their quotient, the cosines of every anchor against every positive.
  From any buffer contents that hold the stages this window reads, the window leaves the stages it writes (and those it
  passes on) in their buffers: each operation's result is its function of its operands, and no operation writes a buffer
  another operation of the program wrote.
-/
import proofs.«124650_j85487029060330_2_alg».proof.Proof.RefRunWin

noncomputable section

namespace Cert.ReferenceIdeal.RefRun

open Cert.ReferenceIdeal Cert.ReferenceIdeal.Gen Cert.ReferenceIdeal.ReadP Idealize.ShloMosaic Idealize.ShloMosaic.TcCoe Idealize.SL.Sem Idealize.ShloMosaic.StableHlo

theorem w3_out (x0 : In) (V : Valuation τ sig (Elt Ideal))
    (hv1 : V (Proc.devRef .tc main_v1) = val_main_v1 (F := Ideal) x0)
    (hv3 : V (Proc.devRef .tc main_v3) = val_main_v3 (F := Ideal) x0)
    (hv4 : V (Proc.devRef .tc main_v4) = val_main_v4 (F := Ideal) x0)
    (hv5 : V (Proc.devRef .tc main_v5) = val_main_v5 (F := Ideal) x0)
    (hv11 : V (Proc.devRef .tc main_v11) = val_main_v11 (F := Ideal) x0) :
    after (w3 (F := Ideal)) V (Proc.devRef .tc main_v4) = val_main_v4 (F := Ideal) x0
    ∧ after (w3 (F := Ideal)) V (Proc.devRef .tc main_v11) = val_main_v11 (F := Ideal) x0
    ∧ after (w3 (F := Ideal)) V (Proc.devRef .tc main_v20) = val_main_v20 (F := Ideal) x0 := by
  refine ⟨?_, ?_, ?_⟩
  · after_results_simp
    try rw [hv1]
    try rw [hv3]
    try rw [hv4]
    try rw [hv5]
    try rw [hv11]
    try rfl
  · after_results_simp
    try rw [hv1]
    try rw [hv3]
    try rw [hv4]
    try rw [hv5]
    try rw [hv11]
    try rfl
  · after_results_simp
    try rw [hv1]
    try rw [hv3]
    try rw [hv4]
    try rw [hv5]
    try rw [hv11]
    try rfl

end Cert.ReferenceIdeal.RefRun

end
-- ==== Proof.RefRunW4.lean ====
/-
  Operations 31 to 36: the squared norm of each anchor over its clamp, the value that replaces the diagonal.
  From any buffer contents that hold the stages this window reads, the window leaves the stages it writes (and those it
  passes on) in their buffers: each operation's result is its function of its operands, and no operation writes a buffer
  another operation of the program wrote.
-/
import proofs.«124650_j85487029060330_2_alg».proof.Proof.RefRunWin

noncomputable section

namespace Cert.ReferenceIdeal.RefRun

open Cert.ReferenceIdeal Cert.ReferenceIdeal.Gen Cert.ReferenceIdeal.ReadP Idealize.ShloMosaic Idealize.ShloMosaic.TcCoe Idealize.SL.Sem Idealize.ShloMosaic.StableHlo

theorem w4_out (x0 : In) (V : Valuation τ sig (Elt Ideal))
    (hv4 : V (Proc.devRef .tc main_v4) = val_main_v4 (F := Ideal) x0)
    (hv11 : V (Proc.devRef .tc main_v11) = val_main_v11 (F := Ideal) x0)
    (hv20 : V (Proc.devRef .tc main_v20) = val_main_v20 (F := Ideal) x0) :
    after (w4 (F := Ideal)) V (Proc.devRef .tc main_v11) = val_main_v11 (F := Ideal) x0
    ∧ after (w4 (F := Ideal)) V (Proc.devRef .tc main_v20) = val_main_v20 (F := Ideal) x0
    ∧ after (w4 (F := Ideal)) V (Proc.devRef .tc main_v25) = val_main_v25 (F := Ideal) x0 := by
  refine ⟨?_, ?_, ?_⟩
  · after_results_simp
    try rw [hv4]
    try rw [hv11]
    try rw [hv20]
    try rfl
  · after_results_simp
    try rw [hv4]
    try rw [hv11]
    try rw [hv20]
    try rfl
  · after_results_simp
    try rw [hv4]
    try rw [hv11]
    try rw [hv20]
    try rfl

end Cert.ReferenceIdeal.RefRun

end
-- ==== Proof.RefRunW5.lean ====
/-
  Operations 37 to 54: the index pairs (n, n) of the diagonal, built from an iota wrapped as jax wraps negative indices and laid side by side.
  From any buffer contents that hold the stages this window reads, the window leaves the stages it writes (and those it
  passes on) in their buffers: each operation's result is its function of its operands, and no operation writes a buffer
  another operation of the program wrote.
-/
import proofs.«124650_j85487029060330_2_alg».proof.Proof.RefRunWin

noncomputable section

namespace Cert.ReferenceIdeal.RefRun

open Cert.ReferenceIdeal Cert.ReferenceIdeal.Gen Cert.ReferenceIdeal.ReadP Idealize.ShloMosaic Idealize.ShloMosaic.TcCoe Idealize.SL.Sem Idealize.ShloMosaic.StableHlo

theorem w5_out (x0 : In) (V : Valuation τ sig (Elt Ideal))
    (hv11 : V (Proc.devRef .tc main_v11) = val_main_v11 (F := Ideal) x0)
    (hv20 : V (Proc.devRef .tc main_v20) = val_main_v20 (F := Ideal) x0)
    (hv25 : V (Proc.devRef .tc main_v25) = val_main_v25 (F := Ideal) x0) :
    after (w5 (F := Ideal)) V (Proc.devRef .tc main_v11) = val_main_v11 (F := Ideal) x0
    ∧ after (w5 (F := Ideal)) V (Proc.devRef .tc main_v20) = val_main_v20 (F := Ideal) x0
    ∧ after (w5 (F := Ideal)) V (Proc.devRef .tc main_v25) = val_main_v25 (F := Ideal) x0
    ∧ after (w5 (F := Ideal)) V (Proc.devRef .tc main_v39) = val_main_v39 (F := Ideal) := by
  refine ⟨?_, ?_, ?_, ?_⟩
  · after_results_simp
    try rw [hv11]
    try rw [hv20]
    try rw [hv25]
    try rfl
  · after_results_simp
    try rw [hv11]
    try rw [hv20]
    try rw [hv25]
    try rfl
  · after_results_simp
    try rw [hv11]
    try rw [hv20]
    try rw [hv25]
    try rfl
  · after_results_simp
    try rw [hv11]
    try rw [hv20]
    try rw [hv25]
    try rfl

end Cert.ReferenceIdeal.RefRun

end
-- ==== Proof.RefRunW6.lean ====
/-
  Operations 55 to 57: the diagonal overwritten, the matching cosine as a column, and the two laid side by side: the logits.
  From any buffer contents that hold the stages this window reads, the window leaves the stages it writes (and those it
  passes on) in their buffers: each operation's result is its function of its operands, and no operation writes a buffer
  another operation of the program wrote.
-/
import proofs.«124650_j85487029060330_2_alg».proof.Proof.RefRunWin

noncomputable section

namespace Cert.ReferenceIdeal.RefRun

open Cert.ReferenceIdeal Cert.ReferenceIdeal.Gen Cert.ReferenceIdeal.ReadP Idealize.ShloMosaic Idealize.ShloMosaic.TcCoe Idealize.SL.Sem Idealize.ShloMosaic.StableHlo

theorem w6_out (x0 : In) (V : Valuation τ sig (Elt Ideal))
    (hv11 : V (Proc.devRef .tc main_v11) = val_main_v11 (F := Ideal) x0)
    (hv20 : V (Proc.devRef .tc main_v20) = val_main_v20 (F := Ideal) x0)
    (hv25 : V (Proc.devRef .tc main_v25) = val_main_v25 (F := Ideal) x0)
    (hv39 : V (Proc.devRef .tc main_v39) = val_main_v39 (F := Ideal)) :
    after (w6 (F := Ideal)) V (Proc.devRef .tc main_v42) = val_main_v42 (F := Ideal) x0 := by
  after_results_simp
  try rw [hv11]
  try rw [hv20]
  try rw [hv25]
  try rw [hv39]
  try rfl

end Cert.ReferenceIdeal.RefRun

end
-- ==== Proof.RefRunW7.lean ====
/-
  Operations 58 to 72: the shifted log-softmax of every row of logits.
  The outlined function's operations are first restated over their buffers directly (the same operations, the buffers'
  types read as what they are), then read back like every other window.
-/
import proofs.«124650_j85487029060330_2_alg».proof.Proof.RefRunWin

noncomputable section

namespace Cert.ReferenceIdeal.RefRun

open Cert.ReferenceIdeal Cert.ReferenceIdeal.Gen Cert.ReferenceIdeal.ReadP Idealize.ShloMosaic Idealize.ShloMosaic.TcCoe Idealize.SL.Sem Idealize.ShloMosaic.StableHlo

variable {F : FTy → Type} [FloatOps F]

/-- The fifteen operations of the log-softmax, over their buffers directly. -/
abbrev w7p : List (HloOp τ sig (Elt F)) :=
  [ nullary main_call2_cst (constant S_ .f32 0xFF800000#32),
    binary main_v42 main_call2_cst main_call2_v0 ((fun x v => Host.reduce FloatOps.maximumf x v reducesTo_S8192x8193_S8192_d1 h_S_) : (⟨S8192x8193, .f32⟩ : BufTy).Contents (Elt F) → (⟨S_, .f32⟩ : BufTy).Contents (Elt F) → (⟨S8192, .f32⟩ : BufTy).Contents (Elt F)),
    nullary main_call2_cst_0 (constant S_ .f32 0xFF800000#32),
    unary main_call2_cst_0 main_call2_v1 ((broadcastInDim S8192 ![] bcast_S_S8192) : (⟨S_, .f32⟩ : BufTy).Contents (Elt F) → (⟨S8192, .f32⟩ : BufTy).Contents (Elt F)),
    binary main_call2_v1 main_call2_v0 main_call2_v2 ((maximumf) : (⟨S8192, .f32⟩ : BufTy).Contents (Elt F) → (⟨S8192, .f32⟩ : BufTy).Contents (Elt F) → (⟨S8192, .f32⟩ : BufTy).Contents (Elt F)),
    unary main_call2_v2 main_call2_v3 ((broadcastInDim S8192x1 ![0] bcast_S8192_S8192x1_0) : (⟨S8192, .f32⟩ : BufTy).Contents (Elt F) → (⟨S8192x1, .f32⟩ : BufTy).Contents (Elt F)),
    unary main_call2_v3 main_call2_v4 ((broadcastInDim S8192x8193 ![0, 1] bcast_S8192x1_S8192x8193_0_1) : (⟨S8192x1, .f32⟩ : BufTy).Contents (Elt F) → (⟨S8192x8193, .f32⟩ : BufTy).Contents (Elt F)),
    binary main_v42 main_call2_v4 main_call2_v5 ((subf) : (⟨S8192x8193, .f32⟩ : BufTy).Contents (Elt F) → (⟨S8192x8193, .f32⟩ : BufTy).Contents (Elt F) → (⟨S8192x8193, .f32⟩ : BufTy).Contents (Elt F)),
    unary main_call2_v5 main_call2_v6 ((Host.exp) : (⟨S8192x8193, .f32⟩ : BufTy).Contents (Elt F) → (⟨S8192x8193, .f32⟩ : BufTy).Contents (Elt F)),
    nullary main_call2_cst_1 (constant S_ .f32 0x00000000#32),
    binary main_call2_v6 main_call2_cst_1 main_call2_v7 ((fun x v => Host.reduceAdd x v reducesTo_S8192x8193_S8192_d1 h_S_) : (⟨S8192x8193, .f32⟩ : BufTy).Contents (Elt F) → (⟨S_, .f32⟩ : BufTy).Contents (Elt F) → (⟨S8192, .f32⟩ : BufTy).Contents (Elt F)),
    unary main_call2_v7 main_call2_v8 ((broadcastInDim S8192x1 ![0] bcast_S8192_S8192x1_0) : (⟨S8192, .f32⟩ : BufTy).Contents (Elt F) → (⟨S8192x1, .f32⟩ : BufTy).Contents (Elt F)),
    unary main_call2_v8 main_call2_v9 ((Host.log) : (⟨S8192x1, .f32⟩ : BufTy).Contents (Elt F) → (⟨S8192x1, .f32⟩ : BufTy).Contents (Elt F)),
    unary main_call2_v9 main_call2_v10 ((broadcastInDim S8192x8193 ![0, 1] bcast_S8192x1_S8192x8193_0_1) : (⟨S8192x1, .f32⟩ : BufTy).Contents (Elt F) → (⟨S8192x8193, .f32⟩ : BufTy).Contents (Elt F)),
    binary main_call2_v5 main_call2_v10 main_v43 ((subf) : (⟨S8192x8193, .f32⟩ : BufTy).Contents (Elt F) → (⟨S8192x8193, .f32⟩ : BufTy).Contents (Elt F) → (⟨S8192x8193, .f32⟩ : BufTy).Contents (Elt F)) ]

/-! Each operation of the outlined function, over typed references, is the same operation over its buffers, whatever its
    function: the typed references' casts are along equations that hold by computation. -/
theorem op58_eq (v : (⟨S_, .f32⟩ : BufTy).Contents (Elt F)) :
    (TRef.nullary (TRef.of (T := ⟨S_, .f32⟩) main_call2_cst) v : HloOp τ sig (Elt F))
      = nullary main_call2_cst v := rfl
theorem op59_eq (f : (⟨S8192x8193, .f32⟩ : BufTy).Contents (Elt F) → (⟨S_, .f32⟩ : BufTy).Contents (Elt F) → (⟨S8192, .f32⟩ : BufTy).Contents (Elt F)) :
    (TRef.binary (TRef.of (T := ⟨S8192x8193, .f32⟩) main_v42) (TRef.of (T := ⟨S_, .f32⟩) main_call2_cst) (TRef.of (T := ⟨S8192, .f32⟩) main_call2_v0) f : HloOp τ sig (Elt F))
      = binary main_v42 main_call2_cst main_call2_v0 f := rfl
theorem op60_eq (v : (⟨S_, .f32⟩ : BufTy).Contents (Elt F)) :
    (TRef.nullary (TRef.of (T := ⟨S_, .f32⟩) main_call2_cst_0) v : HloOp τ sig (Elt F))
      = nullary main_call2_cst_0 v := rfl
theorem op61_eq (f : (⟨S_, .f32⟩ : BufTy).Contents (Elt F) → (⟨S8192, .f32⟩ : BufTy).Contents (Elt F)) :
    (TRef.unary (TRef.of (T := ⟨S_, .f32⟩) main_call2_cst_0) (TRef.of (T := ⟨S8192, .f32⟩) main_call2_v1) f : HloOp τ sig (Elt F))
      = unary main_call2_cst_0 main_call2_v1 f := rfl
theorem op62_eq (f : (⟨S8192, .f32⟩ : BufTy).Contents (Elt F) → (⟨S8192, .f32⟩ : BufTy).Contents (Elt F) → (⟨S8192, .f32⟩ : BufTy).Contents (Elt F)) :
    (TRef.binary (TRef.of (T := ⟨S8192, .f32⟩) main_call2_v1) (TRef.of (T := ⟨S8192, .f32⟩) main_call2_v0) (TRef.of (T := ⟨S8192, .f32⟩) main_call2_v2) f : HloOp τ sig (Elt F))
      = binary main_call2_v1 main_call2_v0 main_call2_v2 f := rfl
theorem op63_eq (f : (⟨S8192, .f32⟩ : BufTy).Contents (Elt F) → (⟨S8192x1, .f32⟩ : BufTy).Contents (Elt F)) :
    (TRef.unary (TRef.of (T := ⟨S8192, .f32⟩) main_call2_v2) (TRef.of (T := ⟨S8192x1, .f32⟩) main_call2_v3) f : HloOp τ sig (Elt F))
      = unary main_call2_v2 main_call2_v3 f := rfl
theorem op64_eq (f : (⟨S8192x1, .f32⟩ : BufTy).Contents (Elt F) → (⟨S8192x8193, .f32⟩ : BufTy).Contents (Elt F)) :
    (TRef.unary (TRef.of (T := ⟨S8192x1, .f32⟩) main_call2_v3) (TRef.of (T := ⟨S8192x8193, .f32⟩) main_call2_v4) f : HloOp τ sig (Elt F))
      = unary main_call2_v3 main_call2_v4 f := rfl
theorem op65_eq (f : (⟨S8192x8193, .f32⟩ : BufTy).Contents (Elt F) → (⟨S8192x8193, .f32⟩ : BufTy).Contents (Elt F) → (⟨S8192x8193, .f32⟩ : BufTy).Contents (Elt F)) :
    (TRef.binary (TRef.of (T := ⟨S8192x8193, .f32⟩) main_v42) (TRef.of (T := ⟨S8192x8193, .f32⟩) main_call2_v4) (TRef.of (T := ⟨S8192x8193, .f32⟩) main_call2_v5) f : HloOp τ sig (Elt F))
      = binary main_v42 main_call2_v4 main_call2_v5 f := rfl
theorem op66_eq (f : (⟨S8192x8193, .f32⟩ : BufTy).Contents (Elt F) → (⟨S8192x8193, .f32⟩ : BufTy).Contents (Elt F)) :
    (TRef.unary (TRef.of (T := ⟨S8192x8193, .f32⟩) main_call2_v5) (TRef.of (T := ⟨S8192x8193, .f32⟩) main_call2_v6) f : HloOp τ sig (Elt F))
      = unary main_call2_v5 main_call2_v6 f := rfl
theorem op67_eq (v : (⟨S_, .f32⟩ : BufTy).Contents (Elt F)) :
    (TRef.nullary (TRef.of (T := ⟨S_, .f32⟩) main_call2_cst_1) v : HloOp τ sig (Elt F))
      = nullary main_call2_cst_1 v := rfl
theorem op68_eq (f : (⟨S8192x8193, .f32⟩ : BufTy).Contents (Elt F) → (⟨S_, .f32⟩ : BufTy).Contents (Elt F) → (⟨S8192, .f32⟩ : BufTy).Contents (Elt F)) :
    (TRef.binary (TRef.of (T := ⟨S8192x8193, .f32⟩) main_call2_v6) (TRef.of (T := ⟨S_, .f32⟩) main_call2_cst_1) (TRef.of (T := ⟨S8192, .f32⟩) main_call2_v7) f : HloOp τ sig (Elt F))
      = binary main_call2_v6 main_call2_cst_1 main_call2_v7 f := rfl
theorem op69_eq (f : (⟨S8192, .f32⟩ : BufTy).Contents (Elt F) → (⟨S8192x1, .f32⟩ : BufTy).Contents (Elt F)) :
    (TRef.unary (TRef.of (T := ⟨S8192, .f32⟩) main_call2_v7) (TRef.of (T := ⟨S8192x1, .f32⟩) main_call2_v8) f : HloOp τ sig (Elt F))
      = unary main_call2_v7 main_call2_v8 f := rfl
theorem op70_eq (f : (⟨S8192x1, .f32⟩ : BufTy).Contents (Elt F) → (⟨S8192x1, .f32⟩ : BufTy).Contents (Elt F)) :
    (TRef.unary (TRef.of (T := ⟨S8192x1, .f32⟩) main_call2_v8) (TRef.of (T := ⟨S8192x1, .f32⟩) main_call2_v9) f : HloOp τ sig (Elt F))
      = unary main_call2_v8 main_call2_v9 f := rfl
theorem op71_eq (f : (⟨S8192x1, .f32⟩ : BufTy).Contents (Elt F) → (⟨S8192x8193, .f32⟩ : BufTy).Contents (Elt F)) :
    (TRef.unary (TRef.of (T := ⟨S8192x1, .f32⟩) main_call2_v9) (TRef.of (T := ⟨S8192x8193, .f32⟩) main_call2_v10) f : HloOp τ sig (Elt F))
      = unary main_call2_v9 main_call2_v10 f := rfl
theorem op72_eq (f : (⟨S8192x8193, .f32⟩ : BufTy).Contents (Elt F) → (⟨S8192x8193, .f32⟩ : BufTy).Contents (Elt F) → (⟨S8192x8193, .f32⟩ : BufTy).Contents (Elt F)) :
    (TRef.binary (TRef.of (T := ⟨S8192x8193, .f32⟩) main_call2_v5) (TRef.of (T := ⟨S8192x8193, .f32⟩) main_call2_v10) (TRef.of (T := ⟨S8192x8193, .f32⟩) main_v43) f : HloOp τ sig (Elt F))
      = binary main_call2_v5 main_call2_v10 main_v43 f := rfl

/-- They are the window's operations. -/
theorem w7_eq : (w7 : List (HloOp τ sig (Elt F))) = w7p := by
  simp only [w7, op58_eq, op59_eq, op60_eq, op61_eq, op62_eq, op63_eq, op64_eq, op65_eq, op66_eq, op67_eq, op68_eq, op69_eq, op70_eq, op71_eq, op72_eq]

theorem w7p_out (x0 : In) (V : Valuation τ sig (Elt Ideal))
    (hv42 : V (Proc.devRef .tc main_v42) = val_main_v42 (F := Ideal) x0) :
    after (w7p (F := Ideal)) V (Proc.devRef .tc main_v43) = val_main_v43 (F := Ideal) x0 := by
  after_results_simp
  rw [hv42]
  rfl

theorem w7_out (x0 : In) (V : Valuation τ sig (Elt Ideal))
    (hv42 : V (Proc.devRef .tc main_v42) = val_main_v42 (F := Ideal) x0) :
    after (w7 (F := Ideal)) V (Proc.devRef .tc main_v43) = val_main_v43 (F := Ideal) x0 := by
  rw [w7_eq]
  exact w7p_out x0 V hv42

end Cert.ReferenceIdeal.RefRun

end
-- ==== Proof.RefRunW8.lean ====
/-
  Operations 73 to 79: column 0 of the log-softmax, its mean over the rows, negated.
  From any buffer contents that hold the stages this window reads, the window leaves the stages it writes (and those it
  passes on) in their buffers: each operation's result is its function of its operands, and no operation writes a buffer
  another operation of the program wrote.
-/
import proofs.«124650_j85487029060330_2_alg».proof.Proof.RefRunWin

noncomputable section

namespace Cert.ReferenceIdeal.RefRun

open Cert.ReferenceIdeal Cert.ReferenceIdeal.Gen Cert.ReferenceIdeal.ReadP Idealize.ShloMosaic Idealize.ShloMosaic.TcCoe Idealize.SL.Sem Idealize.ShloMosaic.StableHlo

theorem w8_out (x0 : In) (V : Valuation τ sig (Elt Ideal))
    (hv43 : V (Proc.devRef .tc main_v43) = val_main_v43 (F := Ideal) x0) :
    after (w8 (F := Ideal)) V (Proc.devRef .tc main_v48) = val_main_v48 (F := Ideal) x0 := by
  after_results_simp
  try rw [hv43]
  try rfl

end Cert.ReferenceIdeal.RefRun

end
-- ==== Proof.RefRunW9.lean ====
/-
  Operations 80 to 86: the norm of the whole input, its weight, and the sum with the negated mean: the result.
  From any buffer contents that hold the stages this window reads, the window leaves the stages it writes (and those it
  passes on) in their buffers: each operation's result is its function of its operands, and no operation writes a buffer
  another operation of the program wrote.
-/
import proofs.«124650_j85487029060330_2_alg».proof.Proof.RefRunWin

noncomputable section

namespace Cert.ReferenceIdeal.RefRun

open Cert.ReferenceIdeal Cert.ReferenceIdeal.Gen Cert.ReferenceIdeal.ReadP Idealize.ShloMosaic Idealize.ShloMosaic.TcCoe Idealize.SL.Sem Idealize.ShloMosaic.StableHlo

theorem w9_out (x0 : In) (V : Valuation τ sig (Elt Ideal))
    (harg : V (Proc.devRef .tc main_arg0) = x0)
    (hv48 : V (Proc.devRef .tc main_v48) = val_main_v48 (F := Ideal) x0) :
    after (w9 (F := Ideal)) V (Proc.devRef .tc main_v51) = val_main_v51 (F := Ideal) x0 := by
  after_results_simp
  try rw [harg]
  try rw [hv48]
  try rfl

end Cert.ReferenceIdeal.RefRun

end
-- ==== Proof.RefRun.lean ====
/-
  The run of the reference program read stage by stage.

  The program is a straight line of 86 host operations. Cut into nine stretches, each stretch takes a few earlier
  results to a few later ones: from contents in which those earlier buffers hold their stage values of the input array
  `x0`, the stretch leaves its own results at their stage values of `x0`. Chaining the nine statements, from launch
  contents whose input array is `x0`, gives the result buffer at the last stage's value of `x0`; no operation writes
  the input array, so it ends as it began. The composed term of all 86 operations is never formed: only the stage
  functions are named.
-/
import proofs.«124650_j85487029060330_2_alg».proof.Proof.RefRunOps
import proofs.«124650_j85487029060330_2_alg».proof.Proof.RefRunWin
import proofs.«124650_j85487029060330_2_alg».proof.Proof.RefRunW1
import proofs.«124650_j85487029060330_2_alg».proof.Proof.RefRunW2
import proofs.«124650_j85487029060330_2_alg».proof.Proof.RefRunW3
import proofs.«124650_j85487029060330_2_alg».proof.Proof.RefRunW4
import proofs.«124650_j85487029060330_2_alg».proof.Proof.RefRunW5
import proofs.«124650_j85487029060330_2_alg».proof.Proof.RefRunW6
import proofs.«124650_j85487029060330_2_alg».proof.Proof.RefRunW7
import proofs.«124650_j85487029060330_2_alg».proof.Proof.RefRunW8
import proofs.«124650_j85487029060330_2_alg».proof.Proof.RefRunW9

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The whole list of operations is the nine stretches one after the other. -/
theorem ops_split : (RefRunOps.ops : List (HloOp τ sig (Elt F)))
    = w1 ++ (w2 ++ (w3 ++ (w4 ++ (w5 ++ (w6 ++ (w7 ++ (w8 ++ w9))))))) := rfl

/-! No operation writes the input array: each stretch leaves it as it was. -/

theorem w1_arg (V : Valuation τ sig (Elt F)) :
    after w1 V (Proc.devRef .tc main_arg0) = V (Proc.devRef .tc main_arg0) := by after_results_simp
theorem w2_arg (V : Valuation τ sig (Elt F)) :
    after w2 V (Proc.devRef .tc main_arg0) = V (Proc.devRef .tc main_arg0) := by after_results_simp
theorem w3_arg (V : Valuation τ sig (Elt F)) :
    after w3 V (Proc.devRef .tc main_arg0) = V (Proc.devRef .tc main_arg0) := by after_results_simp
theorem w4_arg (V : Valuation τ sig (Elt F)) :
    after w4 V (Proc.devRef .tc main_arg0) = V (Proc.devRef .tc main_arg0) := by after_results_simp
theorem w5_arg (V : Valuation τ sig (Elt F)) :
    after w5 V (Proc.devRef .tc main_arg0) = V (Proc.devRef .tc main_arg0) := by after_results_simp
theorem w6_arg (V : Valuation τ sig (Elt F)) :
    after w6 V (Proc.devRef .tc main_arg0) = V (Proc.devRef .tc main_arg0) := by after_results_simp
theorem w7_arg (V : Valuation τ sig (Elt F)) :
    after w7 V (Proc.devRef .tc main_arg0) = V (Proc.devRef .tc main_arg0) := by after_results_simp
theorem w8_arg (V : Valuation τ sig (Elt F)) :
    after w8 V (Proc.devRef .tc main_arg0) = V (Proc.devRef .tc main_arg0) := by after_results_simp
theorem w9_arg (V : Valuation τ sig (Elt F)) :
    after w9 V (Proc.devRef .tc main_arg0) = V (Proc.devRef .tc main_arg0) := by after_results_simp
/-- From any contents whose input array is `x0`, the 86 operations leave the result buffer at the last stage's value
    of `x0` and the input array as it was: the stretches in order, each consuming the stages the ones before left. -/
theorem after_ops (x0 : In) (V : Valuation τ sig (Elt Ideal)) (harg : V (Proc.devRef .tc main_arg0) = x0) :
    after RefRunOps.ops V (Proc.devRef .tc main_v51) = ReadP.val_main_v51 (F := Ideal) x0
    ∧ after RefRunOps.ops V (Proc.devRef .tc main_arg0) = x0 := by
  rw [ops_split]
  simp only [after_append]
  obtain ⟨hv1, hv3, hv4, hv5⟩ := w1_out x0 V harg
  have ha := (w1_arg V).trans harg
  generalize after w1 V = V₁ at hv1 hv3 hv4 hv5 ha ⊢
  obtain ⟨hv1, hv3, hv4, hv5, hv11⟩ := w2_out x0 V₁ hv1 hv3 hv4 hv5
  replace ha := (w2_arg V₁).trans ha
  generalize after w2 V₁ = V₂ at hv1 hv3 hv4 hv5 hv11 ha ⊢
  obtain ⟨hv4, hv11, hv20⟩ := w3_out x0 V₂ hv1 hv3 hv4 hv5 hv11
  replace ha := (w3_arg V₂).trans ha
  generalize after w3 V₂ = V₃ at hv4 hv11 hv20 ha ⊢
  obtain ⟨hv11, hv20, hv25⟩ := w4_out x0 V₃ hv4 hv11 hv20
  replace ha := (w4_arg V₃).trans ha
  generalize after w4 V₃ = V₄ at hv11 hv20 hv25 ha ⊢
  obtain ⟨hv11, hv20, hv25, hv39⟩ := w5_out x0 V₄ hv11 hv20 hv25
  replace ha := (w5_arg V₄).trans ha
  generalize after w5 V₄ = V₅ at hv11 hv20 hv25 hv39 ha ⊢
  obtain hv42 := w6_out x0 V₅ hv11 hv20 hv25 hv39
  replace ha := (w6_arg V₅).trans ha
  generalize after w6 V₅ = V₆ at hv42 ha ⊢
  obtain hv43 := w7_out x0 V₆ hv42
  replace ha := (w7_arg V₆).trans ha
  generalize after w7 V₆ = V₇ at hv43 ha ⊢
  obtain hv48 := w8_out x0 V₇ hv43
  replace ha := (w8_arg V₇).trans ha
  generalize after w8 V₇ = V₈ at hv48 ha ⊢
  exact ⟨w9_out x0 V₈ ha hv48, (w9_arg V₈).trans ha⟩

/-- On every device, from any memory with zero counters: every weakly fair execution of the reference program
    terminates with its result at the last stage's value of the input array's launch contents, the input unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v51) = ReadP.val_main_v51 (F := Ideal) (m ((c.tc : Thread nD τ).loc main_arg0))
      ∧ r.2.mem ((c.tc : Thread nD τ).loc main_arg0) = m ((c.tc : Thread nD τ).loc main_arg0) :=
  (θ_run defs _ _).mono (fun _ h c =>
      ⟨(h c main_v51).trans (after_ops (m ((c.tc : Thread nD τ).loc main_arg0)) (launchContents m c) rfl).1,
        (h c main_arg0).trans (after_ops (m ((c.tc : Thread nD τ).loc main_arg0)) (launchContents m c) rfl).2⟩)
    (run_seq RefRunOps.scopedRefs_eq RefRunOps.scopedSems_eq defs main (fun _ => RefRunOps.ops) RefRunOps.main_eq
      (fun _ => RefRunOps.ops_sub) m ρ)

end Cert.ReferenceIdeal.RefRun

end
-- ==== Proof.lean ====
/-
  The certificate's claims, assembled.

  The kernel computes the pairwise-cosine loss in one pass over column tiles with a running maximum and a running sum of
  exponentials; the reference forms the 8193 logits of every row and takes a shifted log-softmax. On real inputs (the
  precondition: every entry finite) all cosines are real numbers, the one-pass pair after the last tile is the row's
  maximum and its sum of shifted exponentials, and both row losses are  log (exp pos + Σ exp neg) − pos;  the means and the
  added weighted norm then agree term by term. The three frames are the generated frame runs (the two kernel programs) and
  the reference's run with its result dropped; the idealization rewrote nothing.
-/
import proofs.«124650_j85487029060330_2_alg».proof.Defs
import proofs.«124650_j85487029060330_2_alg».proof.Proof.Gen.Kernel
import proofs.«124650_j85487029060330_2_alg».proof.Proof.Gen.Kernel.Frame
import proofs.«124650_j85487029060330_2_alg».proof.Proof.Gen.KernelIdeal
import proofs.«124650_j85487029060330_2_alg».proof.Proof.Gen.KernelIdeal.Frame
import proofs.«124650_j85487029060330_2_alg».proof.Proof.Gen.ReferenceIdeal
import proofs.«124650_j85487029060330_2_alg».proof.Proof.Gen.Pre_finite_inputs
import proofs.«124650_j85487029060330_2_alg».proof.Proof.Finite
import proofs.«124650_j85487029060330_2_alg».proof.Proof.OnlineLse
import proofs.«124650_j85487029060330_2_alg».proof.Proof.RealTotals
import proofs.«124650_j85487029060330_2_alg».proof.Proof.KernelValue
import proofs.«124650_j85487029060330_2_alg».proof.Proof.RefLogits
import proofs.«124650_j85487029060330_2_alg».proof.Proof.RefTotal
import proofs.«124650_j85487029060330_2_alg».proof.Proof.RefRun
import Idealize.ShloMosaic.Adequacy
import Idealize.ShloMosaic.Init

noncomputable section

namespace Cert.Proof

open Idealize.ShloMosaic Idealize.SL.Sem Idealize.ShloMosaic.ValueIdx Cert.NPair

/-- The per-row law: on real cosines the one-pass row loss is minus the first log-softmax entry. -/
theorem rowLaw : RowLaw := fun ps s z h0 hs => lossK_onl_eq_neg_lsm0 ps s z h0 hs

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.RefRun.run m ρ)

theorem preserves : Cert.preserves_Kernel_KernelIdeal := trivial

/-- From inputs that agree and are finite both programs end at the same extended real: the kernel at the one-pass form,
    the reference at the log-softmax form, of one loss. -/
theorem algebraic : Cert.algebraic_KernelIdeal_ReferenceIdeal := by
  intro m ρ m' ρ' hpre hagree
  refine ⟨_, Cert.KernelIdeal.Value.run m ρ, ?_⟩
  refine (θ_run Cert.ReferenceIdeal.defs _ _).mono (fun _ h c => ⟨(h c).1.trans ?_, (h c).2⟩)
    (Cert.ReferenceIdeal.RefRun.run m' ρ')
  rw [hagree c]
  rw [Cert.ReferenceIdeal.RefVal.v51_of_logits _ (Cert.ReferenceIdeal.RefVal.v42_apply _)]
  funext _
  have hreal := Cert.Proof.Finite.real_of_pre _ (hpre c)
  exact (totalK_eq_totalR_of rowLaw _ _ _ (fun i d => hreal (ix3 i (0 : Fin 2) d)) (fun i d => hreal (ix3 i (1 : Fin 2) d))).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
